-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S_ : Shape := ⟨0, ![]⟩

class Facts : Prop where
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  bcast_S_S4x8x3 : S_.BroadcastsInDim S4x8x3 (![] : Fin 0 → Fin S4x8x3.rank)
  reducesTo_S4x8x3_S_d0_1_2 : S4x8x3.ReducesTo [0, 1, 2] S_
  bcast_S_S4x7 : S_.BroadcastsInDim S4x7 (![] : Fin 0 → Fin S4x7.rank)
  reducesTo_S4x7_S_d0_1 : S4x7.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S64x8192x64 .f32) (main_arg1 : FVec F S4x8x3 .f32) (main_arg2 : FVec F S4x7 .f32) (main_arg3 : FVec F S16x8 .f32) (main_arg4 : FVec F S16 .f32) : IVec S_ 1 :=
  let main_v0 : FVec F S64x8192x64 .f32 := Host.absf main_arg0
  let main_cst : FVec F S_ .f32 := constant S_ .f32 0x7F800000#32
  let main_v1 : FVec F S64x8192x64 .f32 := broadcastInDim S64x8192x64 ![] bcast_S_S64x8192x64 main_cst
  let main_v2 : IVec S64x8192x64 1 := cmpf .olt main_v0 main_v1
  let main_c : IVec S_ 1 := constantI S_ 1 1#1
  let main_v3 : IVec S_ 1 := (fun x v => Host.reduce IntOp.andi x v reducesTo_S64x8192x64_S_d0_1_2 h_S_) main_v2 main_c
  let main_v4 : FVec F S4x8x3 .f32 := Host.absf main_arg1
  let main_cst_0 : FVec F S_ .f32 := constant S_ .f32 0x7F800000#32
  let main_v5 : FVec F S4x8x3 .f32 := broadcastInDim S4x8x3 ![] bcast_S_S4x8x3 main_cst_0
  let main_v6 : IVec S4x8x3 1 := cmpf .olt main_v4 main_v5
  let main_c_1 : IVec S_ 1 := constantI S_ 1 1#1
  let main_v7 : IVec S_ 1 := (fun x v => Host.reduce IntOp.andi x v reducesTo_S4x8x3_S_d0_1_2 h_S_) main_v6 main_c_1
  let main_v8 : IVec S_ 1 := andi main_v3 main_v7
  let main_v9 : FVec F S4x7 .f32 := Host.absf main_arg2
  let main_cst_2 : FVec F S_ .f32 := constant S_ .f32 0x7F800000#32
  let main_v10 : FVec F S4x7 .f32 := broadcastInDim S4x7 ![] bcast_S_S4x7 main_cst_2
  let main_v11 : IVec S4x7 1 := cmpf .olt main_v9 main_v10
  let main_c_3 : IVec S_ 1 := constantI S_ 1 1#1
  let main_v12 : IVec S_ 1 := (fun x v => Host.reduce IntOp.andi x v reducesTo_S4x7_S_d0_1 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S8x8 : Shape := ⟨2, ![8, 8]⟩
abbrev S_ : Shape := ⟨0, ![]⟩
abbrev S1x8x3 : Shape := ⟨3, ![1, 8, 3]⟩
abbrev S8x3 : Shape := ⟨2, ![8, 3]⟩
abbrev S8x1 : Shape := ⟨2, ![8, 1]⟩
abbrev S8 : Shape := ⟨1, ![8]⟩
abbrev S1x7 : Shape := ⟨2, ![1, 7]⟩
abbrev S7 : Shape := ⟨1, ![7]⟩
abbrev S1 : Shape := ⟨1, ![1]⟩
abbrev S7x1 : Shape := ⟨2, ![7, 1]⟩
abbrev S7x2 : Shape := ⟨2, ![7, 2]⟩
abbrev S16x64 : Shape := ⟨2, ![16, 64]⟩
abbrev S16x1 : Shape := ⟨2, ![16, 1]⟩
abbrev S524288x64 : Shape := ⟨2, ![524288, 64]⟩
abbrev S16x524288 : Shape := ⟨2, ![16, 524288]⟩
abbrev S524288x16 : Shape := ⟨2, ![524288, 16]⟩
abbrev S64x8192x16 : Shape := ⟨3, ![64, 8192, 16]⟩
abbrev S8192x64 : Shape := ⟨2, ![8192, 64]⟩
abbrev S16x8192 : Shape := ⟨2, ![16, 8192]⟩

abbrev nBuf : Space → Nat
  | .hbm => 391
  | .vmem => 6
  | .smem => 0
  | _ => 0

abbrev hbmTy0_0 (i : Nat) : BufTy := match i % 128 with
  | 0 => ⟨S64x8192x64, .f32⟩
  | 1 => ⟨S4x8x3, .f32⟩
  | 2 => ⟨S4x7, .f32⟩
  | 3 => ⟨S16x8, .f32⟩
  | 4 => ⟨S16, .f32⟩
  | 5 => ⟨S8x8, .i32⟩
  | 6 => ⟨S8x8, .i32⟩
  | 7 => ⟨S_, .i32⟩
  | 8 => ⟨S8x8, .i32⟩
  | 9 => ⟨S8x8, .i32⟩
  | 10 => ⟨S8x8, .i1⟩
  | 11 => ⟨S8x8, .f32⟩
  | 12 => ⟨S1x8x3, .f32⟩
  | 13 => ⟨S8x3, .f32⟩
  | 14 => ⟨S8x1, .f32⟩
  | 15 => ⟨S8, .f32⟩
  | 16 => ⟨S8, .f32⟩
  | 17 => ⟨S8x1, .f32⟩
  | 18 => ⟨S8, .f32⟩
  | 19 => ⟨S8, .f32⟩
  | 20 => ⟨S8, .f32⟩
  | 21 => ⟨S8x1, .f32⟩
  | 22 => ⟨S8, .f32⟩
  | 23 => ⟨S8, .f32⟩
  | 24 => ⟨S8x1, .f32⟩
  | 25 => ⟨S8, .f32⟩
  | 26 => ⟨S8, .f32⟩
  | 27 => ⟨S8, .f32⟩
  | 28 => ⟨S8, .f32⟩
  | 29 => ⟨S8x1, .f32⟩
  | 30 => ⟨S8, .f32⟩
  | 31 => ⟨S8, .f32⟩
  | 32 => ⟨S8x1, .f32⟩
  | 33 => ⟨S8, .f32⟩
  | 34 => ⟨S8, .f32⟩
  | 35 => ⟨S8, .f32⟩
  | 36 => ⟨S8, .f32⟩
  | 37 => ⟨S1x7, .f32⟩
  | 38 => ⟨S7, .f32⟩
  | 39 => ⟨S7, .f32⟩
  | 40 => ⟨S7, .f32⟩
  | 41 => ⟨S_, .f32⟩
  | 42 => ⟨S7, .f32⟩
  | 43 => ⟨S7, .f32⟩
  | 44 => ⟨S_, .f32⟩
  | 45 => ⟨S7, .f32⟩
  | 46 => ⟨S7, .f32⟩
  | 47 => ⟨S_, .f32⟩
  | 48 => ⟨S7, .f32⟩
  | 49 => ⟨S7, .f32⟩
  | 50 => ⟨S_, .f32⟩
  | 51 => ⟨S1, .f32⟩
  | 52 => ⟨S8, .f32⟩
  | 53 => ⟨S_, .f32⟩
  | 54 => ⟨S8, .f32⟩
  | 55 => ⟨S8x8, .i32⟩
  | 56 => ⟨S8x8, .i32⟩
  | 57 => ⟨S_, .i32⟩
  | 58 => ⟨S8x8, .i32⟩
  | 59 => ⟨S8x8, .i32⟩
  | 60 => ⟨S8x8, .i1⟩
  | 61 => ⟨S8x1, .f32⟩
  | 62 => ⟨S_, .f32⟩
  | 63 => ⟨S8x8, .f32⟩
  | 64 => ⟨S8x8, .f32⟩
  | 65 => ⟨S8x8, .f32⟩
  | 66 => ⟨S7, .i32⟩
  | 67 => ⟨S7, .i32⟩
  | 68 => ⟨S_, .i32⟩
  | 69 => ⟨S7, .i32⟩
  | 70 => ⟨S7, .i32⟩
  | 71 => ⟨S_, .i32⟩
  | 72 => ⟨S7, .i32⟩
  | 73 => ⟨S7, .i1⟩
  | 74 => ⟨S_, .i32⟩
  | 75 => ⟨S7, .i32⟩
  | 76 => ⟨S7, .i32⟩
  | 77 => ⟨S7, .i32⟩
  | 78 => ⟨S_, .i32⟩
  | 79 => ⟨S7, .i32⟩
  | 80 => ⟨S7, .i1⟩
  | 81 => ⟨S_, .i32⟩
  | 82 => ⟨S7, .i32⟩
  | 83 => ⟨S7, .i32⟩
  | 84 => ⟨S7, .i32⟩
  | 85 => ⟨S7x1, .i32⟩
  | 86 => ⟨S7x1, .i32⟩
  | 87 => ⟨S7x2, .i32⟩
  | 88 => ⟨S8x8, .f32⟩
  | 89 => ⟨S_, .f32⟩
  | 90 => ⟨S8, .f32⟩
  | 91 => ⟨S8x8, .i32⟩
  | 92 => ⟨S8x8, .i32⟩
  | 93 => ⟨S_, .i32⟩
  | 94 => ⟨S8x8, .i32⟩
  | 95 => ⟨S8x8, .i32⟩
  | 96 => ⟨S8x8, .i1⟩
  | 97 => ⟨S8x1, .f32⟩
  | 98 => ⟨S_, .f32⟩
  | 99 => ⟨S8x8, .f32⟩
  | 100 => ⟨S8x8, .f32⟩
  | 101 => ⟨S8x8, .f32⟩
  | 102 => ⟨S8x8, .f32⟩
  | 103 => ⟨S8x8, .f32⟩
  | 104 => ⟨S1x8x3, .f32⟩
  | 105 => ⟨S8x3, .f32⟩
  | 106 => ⟨S8x1, .f32⟩
  | 107 => ⟨S8, .f32⟩
  | 108 => ⟨S8, .f32⟩
  | 109 => ⟨S8x1, .f32⟩
  | 110 => ⟨S8, .f32⟩
  | 111 => ⟨S8, .f32⟩
  | 112 => ⟨S8, .f32⟩
  | 113 => ⟨S8x1, .f32⟩
  | 114 => ⟨S8, .f32⟩
  | 115 => ⟨S8, .f32⟩
  | 116 => ⟨S8x1, .f32⟩
  | 117 => ⟨S8, .f32⟩
  | 118 => ⟨S8, .f32⟩
  | 119 => ⟨S8, .f32⟩
  | 120 => ⟨S8, .f32⟩
  | 121 => ⟨S8x1, .f32⟩
  | 122 => ⟨S8, .f32⟩
  | 123 => ⟨S8, .f32⟩
  | 124 => ⟨S8x1, .f32⟩
  | 125 => ⟨S8, .f32⟩
  | 126 => ⟨S8, .f32⟩
  | 127 => ⟨S8, .f32⟩
  | _ => ⟨S64x8192x64, .f32⟩

abbrev hbmTy0_1 (i : Nat) : BufTy := match i % 128 with
  | 0 => ⟨S8, .f32⟩
  | 1 => ⟨S1x7, .f32⟩
  | 2 => ⟨S7, .f32⟩
  | 3 => ⟨S7, .f32⟩
  | 4 => ⟨S7, .f32⟩
  | 5 => ⟨S_, .f32⟩
  | 6 => ⟨S7, .f32⟩
  | 7 => ⟨S7, .f32⟩
  | 8 => ⟨S_, .f32⟩
  | 9 => ⟨S7, .f32⟩
  | 10 => ⟨S7, .f32⟩
  | 11 => ⟨S_, .f32⟩
  | 12 => ⟨S7, .f32⟩
  | 13 => ⟨S7, .f32⟩
  | 14 => ⟨S_, .f32⟩
  | 15 => ⟨S1, .f32⟩
  | 16 => ⟨S8, .f32⟩
  | 17 => ⟨S_, .f32⟩
  | 18 => ⟨S8, .f32⟩
  | 19 => ⟨S8x8, .i32⟩
  | 20 => ⟨S8x8, .i32⟩
  | 21 => ⟨S_, .i32⟩
  | 22 => ⟨S8x8, .i32⟩
  | 23 => ⟨S8x8, .i32⟩
  | 24 => ⟨S8x8, .i1⟩
  | 25 => ⟨S8x1, .f32⟩
  | 26 => ⟨S_, .f32⟩
  | 27 => ⟨S8x8, .f32⟩
  | 28 => ⟨S8x8, .f32⟩
  | 29 => ⟨S8x8, .f32⟩
  | 30 => ⟨S7, .i32⟩
  | 31 => ⟨S7, .i32⟩
  | 32 => ⟨S_, .i32⟩
  | 33 => ⟨S7, .i32⟩
  | 34 => ⟨S7, .i32⟩
  | 35 => ⟨S_, .i32⟩
  | 36 => ⟨S7, .i32⟩
  | 37 => ⟨S7, .i1⟩
  | 38 => ⟨S_, .i32⟩
  | 39 => ⟨S7, .i32⟩
  | 40 => ⟨S7, .i32⟩
  | 41 => ⟨S7, .i32⟩
  | 42 => ⟨S_, .i32⟩
  | 43 => ⟨S7, .i32⟩
  | 44 => ⟨S7, .i1⟩
  | 45 => ⟨S_, .i32⟩
  | 46 => ⟨S7, .i32⟩
  | 47 => ⟨S7, .i32⟩
  | 48 => ⟨S7, .i32⟩
  | 49 => ⟨S7x1, .i32⟩
  | 50 => ⟨S7x1, .i32⟩
  | 51 => ⟨S7x2, .i32⟩
  | 52 => ⟨S8x8, .f32⟩
  | 53 => ⟨S_, .f32⟩
  | 54 => ⟨S8, .f32⟩
  | 55 => ⟨S8x8, .i32⟩
  | 56 => ⟨S8x8, .i32⟩
  | 57 => ⟨S_, .i32⟩
  | 58 => ⟨S8x8, .i32⟩
  | 59 => ⟨S8x8, .i32⟩
  | 60 => ⟨S8x8, .i1⟩
  | 61 => ⟨S8x1, .f32⟩
  | 62 => ⟨S_, .f32⟩
  | 63 => ⟨S8x8, .f32⟩
  | 64 => ⟨S8x8, .f32⟩
  | 65 => ⟨S8x8, .f32⟩
  | 66 => ⟨S8x8, .f32⟩
  | 67 => ⟨S8x8, .f32⟩
  | 68 => ⟨S1x8x3, .f32⟩
  | 69 => ⟨S8x3, .f32⟩
  | 70 => ⟨S8x1, .f32⟩
  | 71 => ⟨S8, .f32⟩
  | 72 => ⟨S8, .f32⟩
  | 73 => ⟨S8x1, .f32⟩
  | 74 => ⟨S8, .f32⟩
  | 75 => ⟨S8, .f32⟩
  | 76 => ⟨S8, .f32⟩
  | 77 => ⟨S8x1, .f32⟩
  | 78 => ⟨S8, .f32⟩
  | 79 => ⟨S8, .f32⟩
  | 80 => ⟨S8x1, .f32⟩
  | 81 => ⟨S8, .f32⟩
  | 82 => ⟨S8, .f32⟩
  | 83 => ⟨S8, .f32⟩
  | 84 => ⟨S8, .f32⟩
  | 85 => ⟨S8x1, .f32⟩
  | 86 => ⟨S8, .f32⟩
  | 87 => ⟨S8, .f32⟩
  | 88 => ⟨S8x1, .f32⟩
  | 89 => ⟨S8, .f32⟩
  | 90 => ⟨S8, .f32⟩
  | 91 => ⟨S8, .f32⟩
  | 92 => ⟨S8, .f32⟩
  | 93 => ⟨S1x7, .f32⟩
  | 94 => ⟨S7, .f32⟩
  | 95 => ⟨S7, .f32⟩
  | 96 => ⟨S7, .f32⟩
  | 97 => ⟨S_, .f32⟩
  | 98 => ⟨S7, .f32⟩
  | 99 => ⟨S7, .f32⟩
  | 100 => ⟨S_, .f32⟩
  | 101 => ⟨S7, .f32⟩
  | 102 => ⟨S7, .f32⟩
  | 103 => ⟨S_, .f32⟩
  | 104 => ⟨S7, .f32⟩
  | 105 => ⟨S7, .f32⟩
  | 106 => ⟨S_, .f32⟩
  | 107 => ⟨S1, .f32⟩
  | 108 => ⟨S8, .f32⟩
  | 109 => ⟨S_, .f32⟩
  | 110 => ⟨S8, .f32⟩
  | 111 => ⟨S8x8, .i32⟩
  | 112 => ⟨S8x8, .i32⟩
  | 113 => ⟨S_, .i32⟩
  | 114 => ⟨S8x8, .i32⟩
  | 115 => ⟨S8x8, .i32⟩
  | 116 => ⟨S8x8, .i1⟩
  | 117 => ⟨S8x1, .f32⟩
  | 118 => ⟨S_, .f32⟩
  | 119 => ⟨S8x8, .f32⟩
  | 120 => ⟨S8x8, .f32⟩
  | 121 => ⟨S8x8, .f32⟩
  | 122 => ⟨S7, .i32⟩
  | 123 => ⟨S7, .i32⟩
  | 124 => ⟨S_, .i32⟩
  | 125 => ⟨S7, .i32⟩
  | 126 => ⟨S7, .i32⟩
  | 127 => ⟨S_, .i32⟩
  | _ => ⟨S64x8192x64, .f32⟩

abbrev hbmTy0_2 (i : Nat) : BufTy := match i % 128 with
  | 0 => ⟨S7, .i32⟩
  | 1 => ⟨S7, .i1⟩
  | 2 => ⟨S_, .i32⟩
  | 3 => ⟨S7, .i32⟩
  | 4 => ⟨S7, .i32⟩
  | 5 => ⟨S7, .i32⟩
  | 6 => ⟨S_, .i32⟩
  | 7 => ⟨S7, .i32⟩
  | 8 => ⟨S7, .i1⟩
  | 9 => ⟨S_, .i32⟩
  | 10 => ⟨S7, .i32⟩
  | 11 => ⟨S7, .i32⟩
  | 12 => ⟨S7, .i32⟩
  | 13 => ⟨S7x1, .i32⟩
  | 14 => ⟨S7x1, .i32⟩
  | 15 => ⟨S7x2, .i32⟩
  | 16 => ⟨S8x8, .f32⟩
  | 17 => ⟨S_, .f32⟩
  | 18 => ⟨S8, .f32⟩
  | 19 => ⟨S8x8, .i32⟩
  | 20 => ⟨S8x8, .i32⟩
  | 21 => ⟨S_, .i32⟩
  | 22 => ⟨S8x8, .i32⟩
  | 23 => ⟨S8x8, .i32⟩
  | 24 => ⟨S8x8, .i1⟩
  | 25 => ⟨S8x1, .f32⟩
  | 26 => ⟨S_, .f32⟩
  | 27 => ⟨S8x8, .f32⟩
  | 28 => ⟨S8x8, .f32⟩
  | 29 => ⟨S8x8, .f32⟩
  | 30 => ⟨S8x8, .f32⟩
  | 31 => ⟨S8x8, .f32⟩
  | 32 => ⟨S1x8x3, .f32⟩
  | 33 => ⟨S8x3, .f32⟩
  | 34 => ⟨S8x1, .f32⟩
  | 35 => ⟨S8, .f32⟩
  | 36 => ⟨S8, .f32⟩
  | 37 => ⟨S8x1, .f32⟩
  | 38 => ⟨S8, .f32⟩
  | 39 => ⟨S8, .f32⟩
  | 40 => ⟨S8, .f32⟩
  | 41 => ⟨S8x1, .f32⟩
  | 42 => ⟨S8, .f32⟩
  | 43 => ⟨S8, .f32⟩
  | 44 => ⟨S8x1, .f32⟩
  | 45 => ⟨S8, .f32⟩
  | 46 => ⟨S8, .f32⟩
  | 47 => ⟨S8, .f32⟩
  | 48 => ⟨S8, .f32⟩
  | 49 => ⟨S8x1, .f32⟩
  | 50 => ⟨S8, .f32⟩
  | 51 => ⟨S8, .f32⟩
  | 52 => ⟨S8x1, .f32⟩
  | 53 => ⟨S8, .f32⟩
  | 54 => ⟨S8, .f32⟩
  | 55 => ⟨S8, .f32⟩
  | 56 => ⟨S8, .f32⟩
  | 57 => ⟨S1x7, .f32⟩
  | 58 => ⟨S7, .f32⟩
  | 59 => ⟨S7, .f32⟩
  | 60 => ⟨S7, .f32⟩
  | 61 => ⟨S_, .f32⟩
  | 62 => ⟨S7, .f32⟩
  | 63 => ⟨S7, .f32⟩
  | 64 => ⟨S_, .f32⟩
  | 65 => ⟨S7, .f32⟩
  | 66 => ⟨S7, .f32⟩
  | 67 => ⟨S_, .f32⟩
  | 68 => ⟨S7, .f32⟩
  | 69 => ⟨S7, .f32⟩
  | 70 => ⟨S_, .f32⟩
  | 71 => ⟨S1, .f32⟩
  | 72 => ⟨S8, .f32⟩
  | 73 => ⟨S_, .f32⟩
  | 74 => ⟨S8, .f32⟩
  | 75 => ⟨S8x8, .i32⟩
  | 76 => ⟨S8x8, .i32⟩
  | 77 => ⟨S_, .i32⟩
  | 78 => ⟨S8x8, .i32⟩
  | 79 => ⟨S8x8, .i32⟩
  | 80 => ⟨S8x8, .i1⟩
  | 81 => ⟨S8x1, .f32⟩
  | 82 => ⟨S_, .f32⟩
  | 83 => ⟨S8x8, .f32⟩
  | 84 => ⟨S8x8, .f32⟩
  | 85 => ⟨S8x8, .f32⟩
  | 86 => ⟨S7, .i32⟩
  | 87 => ⟨S7, .i32⟩
  | 88 => ⟨S_, .i32⟩
  | 89 => ⟨S7, .i32⟩
  | 90 => ⟨S7, .i32⟩
  | 91 => ⟨S_, .i32⟩
  | 92 => ⟨S7, .i32⟩
  | 93 => ⟨S7, .i1⟩
  | 94 => ⟨S_, .i32⟩
  | 95 => ⟨S7, .i32⟩
  | 96 => ⟨S7, .i32⟩
  | 97 => ⟨S7, .i32⟩
  | 98 => ⟨S_, .i32⟩
  | 99 => ⟨S7, .i32⟩
  | 100 => ⟨S7, .i1⟩
  | 101 => ⟨S_, .i32⟩
  | 102 => ⟨S7, .i32⟩
  | 103 => ⟨S7, .i32⟩
  | 104 => ⟨S7, .i32⟩
  | 105 => ⟨S7x1, .i32⟩
  | 106 => ⟨S7x1, .i32⟩
  | 107 => ⟨S7x2, .i32⟩
  | 108 => ⟨S8x8, .f32⟩
  | 109 => ⟨S_, .f32⟩
  | 110 => ⟨S8, .f32⟩
  | 111 => ⟨S8x8, .i32⟩
  | 112 => ⟨S8x8, .i32⟩
  | 113 => ⟨S_, .i32⟩
  | 114 => ⟨S8x8, .i32⟩
  | 115 => ⟨S8x8, .i32⟩
  | 116 => ⟨S8x8, .i1⟩
  | 117 => ⟨S8x1, .f32⟩
  | 118 => ⟨S_, .f32⟩
  | 119 => ⟨S8x8, .f32⟩
  | 120 => ⟨S8x8, .f32⟩
  | 121 => ⟨S8x8, .f32⟩
  | 122 => ⟨S8x8, .f32⟩
  | 123 => ⟨S8x8, .f32⟩
  | 124 => ⟨S16x8, .f32⟩
  | 125 => ⟨S_, .f32⟩
  | 126 => ⟨S16x64, .f32⟩
  | 127 => ⟨S_, .i32⟩
  | _ => ⟨S64x8192x64, .f32⟩

abbrev hbmTy0_3 (i : Nat) : BufTy := match i % 128 with
  | 0 => ⟨S1, .i32⟩
  | 1 => ⟨S16x64, .f32⟩
  | 2 => ⟨S16x1, .f32⟩
  | 3 => ⟨S524288x64, .f32⟩
  | 4 => ⟨S16x524288, .f32⟩
  | 5 => ⟨S524288x16, .f32⟩
  | 6 => ⟨S64x8192x16, .f32⟩
  | _ => ⟨S64x8192x64, .f32⟩

abbrev hbmTy (i : Nat) : BufTy := match i / 128 with
  | 0 => hbmTy0_0 i
  | 1 => hbmTy0_1 i
  | 2 => hbmTy0_2 i
  | 3 => hbmTy0_3 i
  | _ => ⟨S64x8192x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S16x64, .f32⟩
  | .local _ .vmem, ⟨3, _⟩ => ⟨S16x1, .f32⟩
  | .local _ .vmem, ⟨4, _⟩ => ⟨S16x8192, .f32⟩
  | .local _ .vmem, ⟨5, _⟩ => ⟨S16x8192, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_v29 : Ref sig .tc := ⟨.hbm, 35, rfl⟩
abbrev main_call0_v30 : Ref sig .tc := ⟨.hbm, 36, rfl⟩
abbrev main_call0_v31 : Ref sig .tc := ⟨.hbm, 37, rfl⟩
abbrev main_call0_v32 : Ref sig .tc := ⟨.hbm, 38, rfl⟩
abbrev main_call0_v33 : Ref sig .tc := ⟨.hbm, 39, rfl⟩
abbrev main_call0_v34 : Ref sig .tc := ⟨.hbm, 40, rfl⟩
abbrev main_call0_cst : Ref sig .tc := ⟨.hbm, 41, rfl⟩
abbrev main_call0_v35 : Ref sig .tc := ⟨.hbm, 42, rfl⟩
abbrev main_call0_v36 : Ref sig .tc := ⟨.hbm, 43, rfl⟩
abbrev main_call0_cst_0 : Ref sig .tc := ⟨.hbm, 44, rfl⟩
abbrev main_call0_v37 : Ref sig .tc := ⟨.hbm, 45, rfl⟩
abbrev main_call0_v38 : Ref sig .tc := ⟨.hbm, 46, rfl⟩
abbrev main_call0_cst_1 : Ref sig .tc := ⟨.hbm, 47, rfl⟩
abbrev main_call0_v39 : Ref sig .tc := ⟨.hbm, 48, rfl⟩
abbrev main_call0_v40 : Ref sig .tc := ⟨.hbm, 49, rfl⟩
abbrev main_call0_cst_2 : Ref sig .tc := ⟨.hbm, 50, rfl⟩
abbrev main_call0_v41 : Ref sig .tc := ⟨.hbm, 51, rfl⟩
abbrev main_call0_v42 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_c : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_cst_0 : Ref sig .tc := ⟨.hbm, 62, rfl⟩
abbrev main_call0_call0_call0_v0 : Ref sig .tc := ⟨.hbm, 63, rfl⟩
abbrev main_call0_call0_call0_v1 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_c_3 : Ref sig .tc := ⟨.hbm, 68, rfl⟩
abbrev main_call0_v46 : Ref sig .tc := ⟨.hbm, 69, rfl⟩
abbrev main_call0_v47 : Ref sig .tc := ⟨.hbm, 70, rfl⟩
abbrev main_call0_c_4 : Ref sig .tc := ⟨.hbm, 71, rfl⟩
abbrev main_call0_v48 : Ref sig .tc := ⟨.hbm, 72, rfl⟩
abbrev main_call0_v49 : Ref sig .tc := ⟨.hbm, 73, rfl⟩
abbrev main_call0_c_5 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_c_6 : Ref sig .tc := ⟨.hbm, 78, rfl⟩
abbrev main_call0_v53 : Ref sig .tc := ⟨.hbm, 79, rfl⟩
abbrev main_call0_v54 : Ref sig .tc := ⟨.hbm, 80, rfl⟩
abbrev main_call0_c_7 : Ref sig .tc := ⟨.hbm, 81, rfl⟩
abbrev main_call0_v55 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_call1_cst : Ref sig .tc := ⟨.hbm, 89, rfl⟩
abbrev main_call0_call1_v0 : Ref sig .tc := ⟨.hbm, 90, rfl⟩
abbrev main_call0_call1_v1 : Ref sig .tc := ⟨.hbm, 91, rfl⟩
abbrev main_call0_call1_v2 : Ref sig .tc := ⟨.hbm, 92, rfl⟩
abbrev main_call0_call1_c : Ref sig .tc := ⟨.hbm, 93, rfl⟩
abbrev main_call0_call1_v3 : Ref sig .tc := ⟨.hbm, 94, rfl⟩
abbrev main_call0_call1_v4 : Ref sig .tc := ⟨.hbm, 95, rfl⟩
abbrev main_call0_call1_v5 : Ref sig .tc := ⟨.hbm, 96, rfl⟩
abbrev main_call0_call1_v6 : Ref sig .tc := ⟨.hbm, 97, rfl⟩
abbrev main_call0_call1_cst_0 : Ref sig .tc := ⟨.hbm, 98, rfl⟩
abbrev main_call0_call1_call0_v0 : Ref sig .tc := ⟨.hbm, 99, rfl⟩
abbrev main_call0_call1_call0_v1 : Ref sig .tc := ⟨.hbm, 100, rfl⟩
abbrev main_call0_v62 : Ref sig .tc := ⟨.hbm, 101, rfl⟩
abbrev main_call0_v63 : Ref sig .tc := ⟨.hbm, 102, rfl⟩
abbrev main_call0_v64 : Ref sig .tc := ⟨.hbm, 103, rfl⟩
abbrev main_call0_v65 : Ref sig .tc := ⟨.hbm, 104, rfl⟩
abbrev main_call0_v66 : Ref sig .tc := ⟨.hbm, 105, rfl⟩
abbrev main_call0_v67 : Ref sig .tc := ⟨.hbm, 106, rfl⟩
abbrev main_call0_v68 : Ref sig .tc := ⟨.hbm, 107, rfl⟩
abbrev main_call0_v69 : Ref sig .tc := ⟨.hbm, 108, rfl⟩
abbrev main_call0_v70 : Ref sig .tc := ⟨.hbm, 109, rfl⟩
abbrev main_call0_v71 : Ref sig .tc := ⟨.hbm, 110, rfl⟩
abbrev main_call0_v72 : Ref sig .tc := ⟨.hbm, 111, rfl⟩
abbrev main_call0_v73 : Ref sig .tc := ⟨.hbm, 112, rfl⟩
abbrev main_call0_v74 : Ref sig .tc := ⟨.hbm, 113, rfl⟩
abbrev main_call0_v75 : Ref sig .tc := ⟨.hbm, 114, rfl⟩
abbrev main_call0_v76 : Ref sig .tc := ⟨.hbm, 115, rfl⟩
abbrev main_call0_v77 : Ref sig .tc := ⟨.hbm, 116, rfl⟩
abbrev main_call0_v78 : Ref sig .tc := ⟨.hbm, 117, rfl⟩
abbrev main_call0_v79 : Ref sig .tc := ⟨.hbm, 118, rfl⟩
abbrev main_call0_v80 : Ref sig .tc := ⟨.hbm, 119, rfl⟩
abbrev main_call0_v81 : Ref sig .tc := ⟨.hbm, 120, rfl⟩
abbrev main_call0_v82 : Ref sig .tc := ⟨.hbm, 121, rfl⟩
abbrev main_call0_v83 : Ref sig .tc := ⟨.hbm, 122, rfl⟩
abbrev main_call0_v84 : Ref sig .tc := ⟨.hbm, 123, rfl⟩
abbrev main_call0_v85 : Ref sig .tc := ⟨.hbm, 124, rfl⟩
abbrev main_call0_v86 : Ref sig .tc := ⟨.hbm, 125, rfl⟩
abbrev main_call0_v87 : Ref sig .tc := ⟨.hbm, 126, rfl⟩
abbrev main_call0_v88 : Ref sig .tc := ⟨.hbm, 127, rfl⟩
abbrev main_call0_v89 : Ref sig .tc := ⟨.hbm, 128, rfl⟩
abbrev main_call0_v90 : Ref sig .tc := ⟨.hbm, 129, rfl⟩
abbrev main_call0_v91 : Ref sig .tc := ⟨.hbm, 130, rfl⟩
abbrev main_call0_v92 : Ref sig .tc := ⟨.hbm, 131, rfl⟩
abbrev main_call0_v93 : Ref sig .tc := ⟨.hbm, 132, rfl⟩
abbrev main_call0_cst_8 : Ref sig .tc := ⟨.hbm, 133, rfl⟩
abbrev main_call0_v94 : Ref sig .tc := ⟨.hbm, 134, rfl⟩
abbrev main_call0_v95 : Ref sig .tc := ⟨.hbm, 135, rfl⟩
abbrev main_call0_cst_9 : Ref sig .tc := ⟨.hbm, 136, rfl⟩
abbrev main_call0_v96 : Ref sig .tc := ⟨.hbm, 137, rfl⟩
abbrev main_call0_v97 : Ref sig .tc := ⟨.hbm, 138, rfl⟩
abbrev main_call0_cst_10 : Ref sig .tc := ⟨.hbm, 139, rfl⟩
abbrev main_call0_v98 : Ref sig .tc := ⟨.hbm, 140, rfl⟩
abbrev main_call0_v99 : Ref sig .tc := ⟨.hbm, 141, rfl⟩
abbrev main_call0_cst_11 : Ref sig .tc := ⟨.hbm, 142, rfl⟩
abbrev main_call0_v100 : Ref sig .tc := ⟨.hbm, 143, rfl⟩
abbrev main_call0_v101 : Ref sig .tc := ⟨.hbm, 144, rfl⟩
abbrev main_call0_call2_cst : Ref sig .tc := ⟨.hbm, 145, rfl⟩
abbrev main_call0_call2_v0 : Ref sig .tc := ⟨.hbm, 146, rfl⟩
abbrev main_call0_call2_v1 : Ref sig .tc := ⟨.hbm, 147, rfl⟩
abbrev main_call0_call2_v2 : Ref sig .tc := ⟨.hbm, 148, rfl⟩
abbrev main_call0_call2_c : Ref sig .tc := ⟨.hbm, 149, rfl⟩
abbrev main_call0_call2_v3 : Ref sig .tc := ⟨.hbm, 150, rfl⟩
abbrev main_call0_call2_v4 : Ref sig .tc := ⟨.hbm, 151, rfl⟩
abbrev main_call0_call2_v5 : Ref sig .tc := ⟨.hbm, 152, rfl⟩
abbrev main_call0_call2_v6 : Ref sig .tc := ⟨.hbm, 153, rfl⟩
abbrev main_call0_call2_cst_0 : Ref sig .tc := ⟨.hbm, 154, rfl⟩
abbrev main_call0_call2_call0_v0 : Ref sig .tc := ⟨.hbm, 155, rfl⟩
abbrev main_call0_call2_call0_v1 : Ref sig .tc := ⟨.hbm, 156, rfl⟩
abbrev main_call0_v102 : Ref sig .tc := ⟨.hbm, 157, rfl⟩
abbrev main_call0_v103 : Ref sig .tc := ⟨.hbm, 158, rfl⟩
abbrev main_call0_v104 : Ref sig .tc := ⟨.hbm, 159, rfl⟩
abbrev main_call0_c_12 : Ref sig .tc := ⟨.hbm, 160, rfl⟩
abbrev main_call0_v105 : Ref sig .tc := ⟨.hbm, 161, rfl⟩
abbrev main_call0_v106 : Ref sig .tc := ⟨.hbm, 162, rfl⟩
abbrev main_call0_c_13 : Ref sig .tc := ⟨.hbm, 163, rfl⟩
abbrev main_call0_v107 : Ref sig .tc := ⟨.hbm, 164, rfl⟩
abbrev main_call0_v108 : Ref sig .tc := ⟨.hbm, 165, rfl⟩
abbrev main_call0_c_14 : Ref sig .tc := ⟨.hbm, 166, rfl⟩
abbrev main_call0_v109 : Ref sig .tc := ⟨.hbm, 167, rfl⟩
abbrev main_call0_v110 : Ref sig .tc := ⟨.hbm, 168, rfl⟩
abbrev main_call0_v111 : Ref sig .tc := ⟨.hbm, 169, rfl⟩
abbrev main_call0_c_15 : Ref sig .tc := ⟨.hbm, 170, rfl⟩
abbrev main_call0_v112 : Ref sig .tc := ⟨.hbm, 171, rfl⟩
abbrev main_call0_v113 : Ref sig .tc := ⟨.hbm, 172, rfl⟩
abbrev main_call0_c_16 : Ref sig .tc := ⟨.hbm, 173, rfl⟩
abbrev main_call0_v114 : Ref sig .tc := ⟨.hbm, 174, rfl⟩
abbrev main_call0_v115 : Ref sig .tc := ⟨.hbm, 175, rfl⟩
abbrev main_call0_v116 : Ref sig .tc := ⟨.hbm, 176, rfl⟩
abbrev main_call0_v117 : Ref sig .tc := ⟨.hbm, 177, rfl⟩
abbrev main_call0_v118 : Ref sig .tc := ⟨.hbm, 178, rfl⟩
abbrev main_call0_v119 : Ref sig .tc := ⟨.hbm, 179, rfl⟩
abbrev main_call0_v120 : Ref sig .tc := ⟨.hbm, 180, rfl⟩
abbrev main_call0_call3_cst : Ref sig .tc := ⟨.hbm, 181, rfl⟩
abbrev main_call0_call3_v0 : Ref sig .tc := ⟨.hbm, 182, rfl⟩
abbrev main_call0_call3_v1 : Ref sig .tc := ⟨.hbm, 183, rfl⟩
abbrev main_call0_call3_v2 : Ref sig .tc := ⟨.hbm, 184, rfl⟩
abbrev main_call0_call3_c : Ref sig .tc := ⟨.hbm, 185, rfl⟩
abbrev main_call0_call3_v3 : Ref sig .tc := ⟨.hbm, 186, rfl⟩
abbrev main_call0_call3_v4 : Ref sig .tc := ⟨.hbm, 187, rfl⟩
abbrev main_call0_call3_v5 : Ref sig .tc := ⟨.hbm, 188, rfl⟩
abbrev main_call0_call3_v6 : Ref sig .tc := ⟨.hbm, 189, rfl⟩
abbrev main_call0_call3_cst_0 : Ref sig .tc := ⟨.hbm, 190, rfl⟩
abbrev main_call0_call3_call0_v0 : Ref sig .tc := ⟨.hbm, 191, rfl⟩
abbrev main_call0_call3_call0_v1 : Ref sig .tc := ⟨.hbm, 192, rfl⟩
abbrev main_call0_v121 : Ref sig .tc := ⟨.hbm, 193, rfl⟩
abbrev main_call0_v122 : Ref sig .tc := ⟨.hbm, 194, rfl⟩
abbrev main_call0_v123 : Ref sig .tc := ⟨.hbm, 195, rfl⟩
abbrev main_call0_v124 : Ref sig .tc := ⟨.hbm, 196, rfl⟩
abbrev main_call0_v125 : Ref sig .tc := ⟨.hbm, 197, rfl⟩
abbrev main_call0_v126 : Ref sig .tc := ⟨.hbm, 198, rfl⟩
abbrev main_call0_v127 : Ref sig .tc := ⟨.hbm, 199, rfl⟩
abbrev main_call0_v128 : Ref sig .tc := ⟨.hbm, 200, rfl⟩
abbrev main_call0_v129 : Ref sig .tc := ⟨.hbm, 201, rfl⟩
abbrev main_call0_v130 : Ref sig .tc := ⟨.hbm, 202, rfl⟩
abbrev main_call0_v131 : Ref sig .tc := ⟨.hbm, 203, rfl⟩
abbrev main_call0_v132 : Ref sig .tc := ⟨.hbm, 204, rfl⟩
abbrev main_call0_v133 : Ref sig .tc := ⟨.hbm, 205, rfl⟩
abbrev main_call0_v134 : Ref sig .tc := ⟨.hbm, 206, rfl⟩
abbrev main_call0_v135 : Ref sig .tc := ⟨.hbm, 207, rfl⟩
abbrev main_call0_v136 : Ref sig .tc := ⟨.hbm, 208, rfl⟩
abbrev main_call0_v137 : Ref sig .tc := ⟨.hbm, 209, rfl⟩
abbrev main_call0_v138 : Ref sig .tc := ⟨.hbm, 210, rfl⟩
abbrev main_call0_v139 : Ref sig .tc := ⟨.hbm, 211, rfl⟩
abbrev main_call0_v140 : Ref sig .tc := ⟨.hbm, 212, rfl⟩
abbrev main_call0_v141 : Ref sig .tc := ⟨.hbm, 213, rfl⟩
abbrev main_call0_v142 : Ref sig .tc := ⟨.hbm, 214, rfl⟩
abbrev main_call0_v143 : Ref sig .tc := ⟨.hbm, 215, rfl⟩
abbrev main_call0_v144 : Ref sig .tc := ⟨.hbm, 216, rfl⟩
abbrev main_call0_v145 : Ref sig .tc := ⟨.hbm, 217, rfl⟩
abbrev main_call0_v146 : Ref sig .tc := ⟨.hbm, 218, rfl⟩
abbrev main_call0_v147 : Ref sig .tc := ⟨.hbm, 219, rfl⟩
abbrev main_call0_v148 : Ref sig .tc := ⟨.hbm, 220, rfl⟩
abbrev main_call0_v149 : Ref sig .tc := ⟨.hbm, 221, rfl⟩
abbrev main_call0_v150 : Ref sig .tc := ⟨.hbm, 222, rfl⟩
abbrev main_call0_v151 : Ref sig .tc := ⟨.hbm, 223, rfl⟩
abbrev main_call0_v152 : Ref sig .tc := ⟨.hbm, 224, rfl⟩
abbrev main_call0_cst_17 : Ref sig .tc := ⟨.hbm, 225, rfl⟩
abbrev main_call0_v153 : Ref sig .tc := ⟨.hbm, 226, rfl⟩
abbrev main_call0_v154 : Ref sig .tc := ⟨.hbm, 227, rfl⟩
abbrev main_call0_cst_18 : Ref sig .tc := ⟨.hbm, 228, rfl⟩
abbrev main_call0_v155 : Ref sig .tc := ⟨.hbm, 229, rfl⟩
abbrev main_call0_v156 : Ref sig .tc := ⟨.hbm, 230, rfl⟩
abbrev main_call0_cst_19 : Ref sig .tc := ⟨.hbm, 231, rfl⟩
abbrev main_call0_v157 : Ref sig .tc := ⟨.hbm, 232, rfl⟩
abbrev main_call0_v158 : Ref sig .tc := ⟨.hbm, 233, rfl⟩
abbrev main_call0_cst_20 : Ref sig .tc := ⟨.hbm, 234, rfl⟩
abbrev main_call0_v159 : Ref sig .tc := ⟨.hbm, 235, rfl⟩
abbrev main_call0_v160 : Ref sig .tc := ⟨.hbm, 236, rfl⟩
abbrev main_call0_call4_cst : Ref sig .tc := ⟨.hbm, 237, rfl⟩
abbrev main_call0_call4_v0 : Ref sig .tc := ⟨.hbm, 238, rfl⟩
abbrev main_call0_call4_v1 : Ref sig .tc := ⟨.hbm, 239, rfl⟩
abbrev main_call0_call4_v2 : Ref sig .tc := ⟨.hbm, 240, rfl⟩
abbrev main_call0_call4_c : Ref sig .tc := ⟨.hbm, 241, rfl⟩
abbrev main_call0_call4_v3 : Ref sig .tc := ⟨.hbm, 242, rfl⟩
abbrev main_call0_call4_v4 : Ref sig .tc := ⟨.hbm, 243, rfl⟩
abbrev main_call0_call4_v5 : Ref sig .tc := ⟨.hbm, 244, rfl⟩
abbrev main_call0_call4_v6 : Ref sig .tc := ⟨.hbm, 245, rfl⟩
abbrev main_call0_call4_cst_0 : Ref sig .tc := ⟨.hbm, 246, rfl⟩
abbrev main_call0_call4_call0_v0 : Ref sig .tc := ⟨.hbm, 247, rfl⟩
abbrev main_call0_call4_call0_v1 : Ref sig .tc := ⟨.hbm, 248, rfl⟩
abbrev main_call0_v161 : Ref sig .tc := ⟨.hbm, 249, rfl⟩
abbrev main_call0_v162 : Ref sig .tc := ⟨.hbm, 250, rfl⟩
abbrev main_call0_v163 : Ref sig .tc := ⟨.hbm, 251, rfl⟩
abbrev main_call0_c_21 : Ref sig .tc := ⟨.hbm, 252, rfl⟩
abbrev main_call0_v164 : Ref sig .tc := ⟨.hbm, 253, rfl⟩
abbrev main_call0_v165 : Ref sig .tc := ⟨.hbm, 254, rfl⟩
abbrev main_call0_c_22 : Ref sig .tc := ⟨.hbm, 255, rfl⟩
abbrev main_call0_v166 : Ref sig .tc := ⟨.hbm, 256, rfl⟩
abbrev main_call0_v167 : Ref sig .tc := ⟨.hbm, 257, rfl⟩
abbrev main_call0_c_23 : Ref sig .tc := ⟨.hbm, 258, rfl⟩
abbrev main_call0_v168 : Ref sig .tc := ⟨.hbm, 259, rfl⟩
abbrev main_call0_v169 : Ref sig .tc := ⟨.hbm, 260, rfl⟩
abbrev main_call0_v170 : Ref sig .tc := ⟨.hbm, 261, rfl⟩
abbrev main_call0_c_24 : Ref sig .tc := ⟨.hbm, 262, rfl⟩
abbrev main_call0_v171 : Ref sig .tc := ⟨.hbm, 263, rfl⟩
abbrev main_call0_v172 : Ref sig .tc := ⟨.hbm, 264, rfl⟩
abbrev main_call0_c_25 : Ref sig .tc := ⟨.hbm, 265, rfl⟩
abbrev main_call0_v173 : Ref sig .tc := ⟨.hbm, 266, rfl⟩
abbrev main_call0_v174 : Ref sig .tc := ⟨.hbm, 267, rfl⟩
abbrev main_call0_v175 : Ref sig .tc := ⟨.hbm, 268, rfl⟩
abbrev main_call0_v176 : Ref sig .tc := ⟨.hbm, 269, rfl⟩
abbrev main_call0_v177 : Ref sig .tc := ⟨.hbm, 270, rfl⟩
abbrev main_call0_v178 : Ref sig .tc := ⟨.hbm, 271, rfl⟩
abbrev main_call0_v179 : Ref sig .tc := ⟨.hbm, 272, rfl⟩
abbrev main_call0_call5_cst : Ref sig .tc := ⟨.hbm, 273, rfl⟩
abbrev main_call0_call5_v0 : Ref sig .tc := ⟨.hbm, 274, rfl⟩
abbrev main_call0_call5_v1 : Ref sig .tc := ⟨.hbm, 275, rfl⟩
abbrev main_call0_call5_v2 : Ref sig .tc := ⟨.hbm, 276, rfl⟩
abbrev main_call0_call5_c : Ref sig .tc := ⟨.hbm, 277, rfl⟩
abbrev main_call0_call5_v3 : Ref sig .tc := ⟨.hbm, 278, rfl⟩
abbrev main_call0_call5_v4 : Ref sig .tc := ⟨.hbm, 279, rfl⟩
abbrev main_call0_call5_v5 : Ref sig .tc := ⟨.hbm, 280, rfl⟩
abbrev main_call0_call5_v6 : Ref sig .tc := ⟨.hbm, 281, rfl⟩
abbrev main_call0_call5_cst_0 : Ref sig .tc := ⟨.hbm, 282, rfl⟩
abbrev main_call0_call5_call0_v0 : Ref sig .tc := ⟨.hbm, 283, rfl⟩
abbrev main_call0_call5_call0_v1 : Ref sig .tc := ⟨.hbm, 284, rfl⟩
abbrev main_call0_v180 : Ref sig .tc := ⟨.hbm, 285, rfl⟩
abbrev main_call0_v181 : Ref sig .tc := ⟨.hbm, 286, rfl⟩
abbrev main_call0_v182 : Ref sig .tc := ⟨.hbm, 287, rfl⟩
abbrev main_call0_v183 : Ref sig .tc := ⟨.hbm, 288, rfl⟩
abbrev main_call0_v184 : Ref sig .tc := ⟨.hbm, 289, rfl⟩
abbrev main_call0_v185 : Ref sig .tc := ⟨.hbm, 290, rfl⟩
abbrev main_call0_v186 : Ref sig .tc := ⟨.hbm, 291, rfl⟩
abbrev main_call0_v187 : Ref sig .tc := ⟨.hbm, 292, rfl⟩
abbrev main_call0_v188 : Ref sig .tc := ⟨.hbm, 293, rfl⟩
abbrev main_call0_v189 : Ref sig .tc := ⟨.hbm, 294, rfl⟩
abbrev main_call0_v190 : Ref sig .tc := ⟨.hbm, 295, rfl⟩
abbrev main_call0_v191 : Ref sig .tc := ⟨.hbm, 296, rfl⟩
abbrev main_call0_v192 : Ref sig .tc := ⟨.hbm, 297, rfl⟩
abbrev main_call0_v193 : Ref sig .tc := ⟨.hbm, 298, rfl⟩
abbrev main_call0_v194 : Ref sig .tc := ⟨.hbm, 299, rfl⟩
abbrev main_call0_v195 : Ref sig .tc := ⟨.hbm, 300, rfl⟩
abbrev main_call0_v196 : Ref sig .tc := ⟨.hbm, 301, rfl⟩
abbrev main_call0_v197 : Ref sig .tc := ⟨.hbm, 302, rfl⟩
abbrev main_call0_v198 : Ref sig .tc := ⟨.hbm, 303, rfl⟩
abbrev main_call0_v199 : Ref sig .tc := ⟨.hbm, 304, rfl⟩
abbrev main_call0_v200 : Ref sig .tc := ⟨.hbm, 305, rfl⟩
abbrev main_call0_v201 : Ref sig .tc := ⟨.hbm, 306, rfl⟩
abbrev main_call0_v202 : Ref sig .tc := ⟨.hbm, 307, rfl⟩
abbrev main_call0_v203 : Ref sig .tc := ⟨.hbm, 308, rfl⟩
abbrev main_call0_v204 : Ref sig .tc := ⟨.hbm, 309, rfl⟩
abbrev main_call0_v205 : Ref sig .tc := ⟨.hbm, 310, rfl⟩
abbrev main_call0_v206 : Ref sig .tc := ⟨.hbm, 311, rfl⟩
abbrev main_call0_v207 : Ref sig .tc := ⟨.hbm, 312, rfl⟩
abbrev main_call0_v208 : Ref sig .tc := ⟨.hbm, 313, rfl⟩
abbrev main_call0_v209 : Ref sig .tc := ⟨.hbm, 314, rfl⟩
abbrev main_call0_v210 : Ref sig .tc := ⟨.hbm, 315, rfl⟩
abbrev main_call0_v211 : Ref sig .tc := ⟨.hbm, 316, rfl⟩
abbrev main_call0_cst_26 : Ref sig .tc := ⟨.hbm, 317, rfl⟩
abbrev main_call0_v212 : Ref sig .tc := ⟨.hbm, 318, rfl⟩
abbrev main_call0_v213 : Ref sig .tc := ⟨.hbm, 319, rfl⟩
abbrev main_call0_cst_27 : Ref sig .tc := ⟨.hbm, 320, rfl⟩
abbrev main_call0_v214 : Ref sig .tc := ⟨.hbm, 321, rfl⟩
abbrev main_call0_v215 : Ref sig .tc := ⟨.hbm, 322, rfl⟩
abbrev main_call0_cst_28 : Ref sig .tc := ⟨.hbm, 323, rfl⟩
abbrev main_call0_v216 : Ref sig .tc := ⟨.hbm, 324, rfl⟩
abbrev main_call0_v217 : Ref sig .tc := ⟨.hbm, 325, rfl⟩
abbrev main_call0_cst_29 : Ref sig .tc := ⟨.hbm, 326, rfl⟩
abbrev main_call0_v218 : Ref sig .tc := ⟨.hbm, 327, rfl⟩
abbrev main_call0_v219 : Ref sig .tc := ⟨.hbm, 328, rfl⟩
abbrev main_call0_call6_cst : Ref sig .tc := ⟨.hbm, 329, rfl⟩
abbrev main_call0_call6_v0 : Ref sig .tc := ⟨.hbm, 330, rfl⟩
abbrev main_call0_call6_v1 : Ref sig .tc := ⟨.hbm, 331, rfl⟩
abbrev main_call0_call6_v2 : Ref sig .tc := ⟨.hbm, 332, rfl⟩
abbrev main_call0_call6_c : Ref sig .tc := ⟨.hbm, 333, rfl⟩
abbrev main_call0_call6_v3 : Ref sig .tc := ⟨.hbm, 334, rfl⟩
abbrev main_call0_call6_v4 : Ref sig .tc := ⟨.hbm, 335, rfl⟩
abbrev main_call0_call6_v5 : Ref sig .tc := ⟨.hbm, 336, rfl⟩
abbrev main_call0_call6_v6 : Ref sig .tc := ⟨.hbm, 337, rfl⟩
abbrev main_call0_call6_cst_0 : Ref sig .tc := ⟨.hbm, 338, rfl⟩
abbrev main_call0_call6_call0_v0 : Ref sig .tc := ⟨.hbm, 339, rfl⟩
abbrev main_call0_call6_call0_v1 : Ref sig .tc := ⟨.hbm, 340, rfl⟩
abbrev main_call0_v220 : Ref sig .tc := ⟨.hbm, 341, rfl⟩
abbrev main_call0_v221 : Ref sig .tc := ⟨.hbm, 342, rfl⟩
abbrev main_call0_v222 : Ref sig .tc := ⟨.hbm, 343, rfl⟩
abbrev main_call0_c_30 : Ref sig .tc := ⟨.hbm, 344, rfl⟩
abbrev main_call0_v223 : Ref sig .tc := ⟨.hbm, 345, rfl⟩
abbrev main_call0_v224 : Ref sig .tc := ⟨.hbm, 346, rfl⟩
abbrev main_call0_c_31 : Ref sig .tc := ⟨.hbm, 347, rfl⟩
abbrev main_call0_v225 : Ref sig .tc := ⟨.hbm, 348, rfl⟩
abbrev main_call0_v226 : Ref sig .tc := ⟨.hbm, 349, rfl⟩
abbrev main_call0_c_32 : Ref sig .tc := ⟨.hbm, 350, rfl⟩
abbrev main_call0_v227 : Ref sig .tc := ⟨.hbm, 351, rfl⟩
abbrev main_call0_v228 : Ref sig .tc := ⟨.hbm, 352, rfl⟩
abbrev main_call0_v229 : Ref sig .tc := ⟨.hbm, 353, rfl⟩
abbrev main_call0_c_33 : Ref sig .tc := ⟨.hbm, 354, rfl⟩
abbrev main_call0_v230 : Ref sig .tc := ⟨.hbm, 355, rfl⟩
abbrev main_call0_v231 : Ref sig .tc := ⟨.hbm, 356, rfl⟩
abbrev main_call0_c_34 : Ref sig .tc := ⟨.hbm, 357, rfl⟩
abbrev main_call0_v232 : Ref sig .tc := ⟨.hbm, 358, rfl⟩
abbrev main_call0_v233 : Ref sig .tc := ⟨.hbm, 359, rfl⟩
abbrev main_call0_v234 : Ref sig .tc := ⟨.hbm, 360, rfl⟩
abbrev main_call0_v235 : Ref sig .tc := ⟨.hbm, 361, rfl⟩
abbrev main_call0_v236 : Ref sig .tc := ⟨.hbm, 362, rfl⟩
abbrev main_call0_v237 : Ref sig .tc := ⟨.hbm, 363, rfl⟩
abbrev main_call0_v238 : Ref sig .tc := ⟨.hbm, 364, rfl⟩
abbrev main_call0_call7_cst : Ref sig .tc := ⟨.hbm, 365, rfl⟩
abbrev main_call0_call7_v0 : Ref sig .tc := ⟨.hbm, 366, rfl⟩
abbrev main_call0_call7_v1 : Ref sig .tc := ⟨.hbm, 367, rfl⟩
abbrev main_call0_call7_v2 : Ref sig .tc := ⟨.hbm, 368, rfl⟩
abbrev main_call0_call7_c : Ref sig .tc := ⟨.hbm, 369, rfl⟩
abbrev main_call0_call7_v3 : Ref sig .tc := ⟨.hbm, 370, rfl⟩
abbrev main_call0_call7_v4 : Ref sig .tc := ⟨.hbm, 371, rfl⟩
abbrev main_call0_call7_v5 : Ref sig .tc := ⟨.hbm, 372, rfl⟩
abbrev main_call0_call7_v6 : Ref sig .tc := ⟨.hbm, 373, rfl⟩
abbrev main_call0_call7_cst_0 : Ref sig .tc := ⟨.hbm, 374, rfl⟩
abbrev main_call0_call7_call0_v0 : Ref sig .tc := ⟨.hbm, 375, rfl⟩
abbrev main_call0_call7_call0_v1 : Ref sig .tc := ⟨.hbm, 376, rfl⟩
abbrev main_call0_v239 : Ref sig .tc := ⟨.hbm, 377, rfl⟩
abbrev main_call0_v240 : Ref sig .tc := ⟨.hbm, 378, rfl⟩
abbrev main_call0_v241 : Ref sig .tc := ⟨.hbm, 379, rfl⟩
abbrev main_call0_v242 : Ref sig .tc := ⟨.hbm, 380, rfl⟩
abbrev main_call0_cst_35 : Ref sig .tc := ⟨.hbm, 381, rfl⟩
abbrev main_call0_v243 : Ref sig .tc := ⟨.hbm, 382, rfl⟩
abbrev main_call0_c_36 : Ref sig .tc := ⟨.hbm, 383, rfl⟩
abbrev main_call0_v244 : Ref sig .tc := ⟨.hbm, 384, rfl⟩
abbrev main_call0_v245 : Ref sig .tc := ⟨.hbm, 385, rfl⟩
abbrev main_call0_v246 : Ref sig .tc := ⟨.hbm, 386, rfl⟩
abbrev main_call0_v247 : Ref sig .tc := ⟨.hbm, 387, rfl⟩
abbrev main_call0_v248 : Ref sig .tc := ⟨.hbm, 388, rfl⟩
abbrev main_call0_v249 : Ref sig .tc := ⟨.hbm, 389, rfl⟩
abbrev main_v0 : Ref sig .tc := ⟨.hbm, 390, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x8 : S_.BroadcastsInDim S8x8 (![] : Fin 0 → Fin S8x8.rank)
  slices_S4x8x3_S1x8x3_0_0_0 : S4x8x3.Slices ![0, 0, 0] S1x8x3
  shapeCasts_S1x8x3_S8x3 : S1x8x3.ShapeCasts S8x3
  slices_S8x3_S8x1_0_0 : S8x3.Slices ![0, 0] S8x1
  shapeCasts_S8x1_S8 : S8x1.ShapeCasts S8
  slices_S8x3_S8x1_0_1 : S8x3.Slices ![0, 1] S8x1
  slices_S8x3_S8x1_0_2 : S8x3.Slices ![0, 2] S8x1
  slices_S4x7_S1x7_0_0 : S4x7.Slices ![0, 0] S1x7
  shapeCasts_S1x7_S7 : S1x7.ShapeCasts S7
  bcast_S_S7 : S_.BroadcastsInDim S7 (![] : Fin 0 → Fin S7.rank)
  bcast_S_S1 : S_.BroadcastsInDim S1 (![] : Fin 0 → Fin S1.rank)
  concatenates_S7_S1_S8_d0 : Shape.Concatenates [S7, S1] S8 0
  pads_S8_S8_000 : S8.Pads (![0] : Fin 1 → Nat) ![0] ![0] S8
  h_S_ : 0 < S_.numel
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  bcast_S7_S7x1_0 : S7.BroadcastsInDim S7x1 (![0] : Fin 1 → Fin S7x1.rank)
  concatenates_S7x1_S7x1_S7x2_d1 : Shape.Concatenates [S7x1, S7x1] S7x2 1
  slices_S4x8x3_S1x8x3_1_0_0 : S4x8x3.Slices ![1, 0, 0] S1x8x3
  slices_S4x7_S1x7_1_0 : S4x7.Slices ![1, 0] S1x7
  slices_S4x8x3_S1x8x3_2_0_0 : S4x8x3.Slices ![2, 0, 0] S1x8x3
  slices_S4x7_S1x7_2_0 : S4x7.Slices ![2, 0] S1x7
  slices_S4x8x3_S1x8x3_3_0_0 : S4x8x3.Slices ![3, 0, 0] S1x8x3
  slices_S4x7_S1x7_3_0 : S4x7.Slices ![3, 0] S1x7
  bcast_S_S16x64 : S_.BroadcastsInDim S16x64 (![] : Fin 0 → Fin S16x64.rank)
  shapeCasts_S16_S16x1 : S16.ShapeCasts S16x1
  shapeCasts_S64x8192x64_S524288x64 : S64x8192x64.ShapeCasts S524288x64
  transposes_S16x524288_S524288x16_1_0 : S16x524288.Transposes [1, 0] S524288x16
  shapeCasts_S524288x16_S64x8192x16 : S524288x16.ShapeCasts S64x8192x16
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x8192 : S16x1.Broadcasts S16x8192
  inb_S16x8192_S16x8192_0_0 : ∀ a, (![0, 0] : Fin 2 → Nat) a + S16x8192.size a ≤ S16x8192.size a
  h_S16x8192 : 0 < S16x8192.numel
  scatter_S8x8_S7x2_S7_n_01_01_1_wf : ScatterDims.WF S8x8 S7x2 S7 [] [0, 1] [0, 1] 1
  dot_S8x8_S8x8_S8x8_1_0_0_1_n_n_wf : DotDims.WF S8x8 S8x8 S8x8 [1] [0] [0] [1] [] []
  dot_S16x8_S8x8_S16x8_1_0_0_1_n_n_wf : DotDims.WF S16x8 S8x8 S16x8 [1] [0] [0] [1] [] []
  scatter_S16x64_S1_S16x8_01_n_1_0_wf : ScatterDims.WF S16x64 S1 S16x8 [0, 1] [] [1] 0
  dot_S16x64_S8192x64_S16x8192_1_1_0_0_n_n_wf : DotDims.WF S16x64 S8192x64 S16x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8192.size a ≤ S16x524288.size a
  hwx0_3 : ∀ i : grid0.Coords, EltTy.bits .f32 = 32 ∨ (Rect.block (s := S16x524288) S16x8192.size (cc0_transform_3 i) (hinb0_3 i)).WholeWords (EltTy.packing .f32)

variable [Facts₀]

def scatter_S8x8_S7x2_S7_n_01_01_1 : ScatterDims S8x8 S7x2 S7 where
  updateWindowDims := []
  insertedWindowDims := [0, 1]
  scatterDimsToOperandDims := [0, 1]
  indexVectorDim := 1
  wf := scatter_S8x8_S7x2_S7_n_01_01_1_wf
def dot_S8x8_S8x8_S8x8_1_0_0_1_n_n : DotDims S8x8 S8x8 S8x8 where
  lhsContracting := [1]
  rhsContracting := [0]
  lhsNonContracting := [0]
  rhsNonContracting := [1]
  lhsBatch := []
  rhsBatch := []
  wf := dot_S8x8_S8x8_S8x8_1_0_0_1_n_n_wf
def dot_S16x8_S8x8_S16x8_1_0_0_1_n_n : DotDims S16x8 S8x8 S16x8 where
  lhsContracting := [1]
  rhsContracting := [0]
  lhsNonContracting := [0]
  rhsNonContracting := [1]
  lhsBatch := []
  rhsBatch := []
  wf := dot_S16x8_S8x8_S16x8_1_0_0_1_n_n_wf
def scatter_S16x64_S1_S16x8_01_n_1_0 : ScatterDims S16x64 S1 S16x8 where
  updateWindowDims := [0, 1]
  insertedWindowDims := []
  scatterDimsToOperandDims := [1]
  indexVectorDim := 0
  wf := scatter_S16x64_S1_S16x8_01_n_1_0_wf
def dot_S16x64_S8192x64_S16x8192_1_1_0_0_n_n : DotDims S16x64 S8192x64 S16x8192 where
  lhsContracting := [1]
  rhsContracting := [1]
  lhsNonContracting := [0]
  rhsNonContracting := [0]
  lhsBatch := []
  rhsBatch := []
  wf := dot_S16x64_S8192x64_S16x8192_1_1_0_0_n_n_wf

abbrev win0_0 : Pipeline.Window sig grid0 :=
  Pipeline.Window.ofSpec (Memref.whole main_call0_v247) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v245) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v246) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v248) S16x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S64x8192x8 : Shape := ⟨3, ![64, 8192, 8]⟩
abbrev S1x8x3 : Shape := ⟨3, ![1, 8, 3]⟩
abbrev S8x3 : Shape := ⟨2, ![8, 3]⟩
abbrev S8x1 : Shape := ⟨2, ![8, 1]⟩
abbrev S8 : Shape := ⟨1, ![8]⟩
abbrev S1x1x8 : Shape := ⟨3, ![1, 1, 8]⟩
abbrev S1x7 : Shape := ⟨2, ![1, 7]⟩
abbrev S7 : Shape := ⟨1, ![7]⟩
abbrev S_ : Shape := ⟨0, ![]⟩
abbrev S64x8192x7 : Shape := ⟨3, ![64, 8192, 7]⟩
abbrev S1x1x7 : Shape := ⟨3, ![1, 1, 7]⟩
abbrev S64x8192x1 : Shape := ⟨3, ![64, 8192, 1]⟩
abbrev S64x8192x16 : Shape := ⟨3, ![64, 8192, 16]⟩
abbrev S1x1x16 : Shape := ⟨3, ![1, 1, 16]⟩

abbrev nBuf : Space → Nat
  | .hbm => 219
  | .vmem => 0
  | .smem => 0
  | _ => 0

abbrev hbmTy0_0 (i : Nat) : BufTy := match i % 128 with
  | 0 => ⟨S64x8192x64, .f32⟩
  | 1 => ⟨S4x8x3, .f32⟩
  | 2 => ⟨S4x7, .f32⟩
  | 3 => ⟨S16x8, .f32⟩
  | 4 => ⟨S16, .f32⟩
  | 5 => ⟨S64x8192x8, .f32⟩
  | 6 => ⟨S64x8192x8, .f32⟩
  | 7 => ⟨S1x8x3, .f32⟩
  | 8 => ⟨S8x3, .f32⟩
  | 9 => ⟨S8x1, .f32⟩
  | 10 => ⟨S8, .f32⟩
  | 11 => ⟨S8, .f32⟩
  | 12 => ⟨S8x1, .f32⟩
  | 13 => ⟨S8, .f32⟩
  | 14 => ⟨S8, .f32⟩
  | 15 => ⟨S8, .f32⟩
  | 16 => ⟨S8x1, .f32⟩
  | 17 => ⟨S8, .f32⟩
  | 18 => ⟨S8, .f32⟩
  | 19 => ⟨S8x1, .f32⟩
  | 20 => ⟨S8, .f32⟩
  | 21 => ⟨S8, .f32⟩
  | 22 => ⟨S8, .f32⟩
  | 23 => ⟨S8, .f32⟩
  | 24 => ⟨S8x1, .f32⟩
  | 25 => ⟨S8, .f32⟩
  | 26 => ⟨S8, .f32⟩
  | 27 => ⟨S8x1, .f32⟩
  | 28 => ⟨S8, .f32⟩
  | 29 => ⟨S8, .f32⟩
  | 30 => ⟨S8, .f32⟩
  | 31 => ⟨S8, .f32⟩
  | 32 => ⟨S1x1x8, .f32⟩
  | 33 => ⟨S64x8192x8, .f32⟩
  | 34 => ⟨S64x8192x8, .f32⟩
  | 35 => ⟨S1x7, .f32⟩
  | 36 => ⟨S7, .f32⟩
  | 37 => ⟨S7, .f32⟩
  | 38 => ⟨S7, .f32⟩
  | 39 => ⟨S_, .f32⟩
  | 40 => ⟨S7, .f32⟩
  | 41 => ⟨S7, .f32⟩
  | 42 => ⟨S_, .f32⟩
  | 43 => ⟨S7, .f32⟩
  | 44 => ⟨S7, .f32⟩
  | 45 => ⟨S64x8192x7, .f32⟩
  | 46 => ⟨S_, .f32⟩
  | 47 => ⟨S7, .f32⟩
  | 48 => ⟨S7, .f32⟩
  | 49 => ⟨S1x1x7, .f32⟩
  | 50 => ⟨S64x8192x7, .f32⟩
  | 51 => ⟨S64x8192x7, .f32⟩
  | 52 => ⟨S64x8192x7, .f32⟩
  | 53 => ⟨S1x1x7, .f32⟩
  | 54 => ⟨S64x8192x7, .f32⟩
  | 55 => ⟨S64x8192x7, .f32⟩
  | 56 => ⟨S64x8192x7, .f32⟩
  | 57 => ⟨S64x8192x1, .f32⟩
  | 58 => ⟨S64x8192x8, .f32⟩
  | 59 => ⟨S1x8x3, .f32⟩
  | 60 => ⟨S8x3, .f32⟩
  | 61 => ⟨S8x1, .f32⟩
  | 62 => ⟨S8, .f32⟩
  | 63 => ⟨S8, .f32⟩
  | 64 => ⟨S8x1, .f32⟩
  | 65 => ⟨S8, .f32⟩
  | 66 => ⟨S8, .f32⟩
  | 67 => ⟨S8, .f32⟩
  | 68 => ⟨S8x1, .f32⟩
  | 69 => ⟨S8, .f32⟩
  | 70 => ⟨S8, .f32⟩
  | 71 => ⟨S8x1, .f32⟩
  | 72 => ⟨S8, .f32⟩
  | 73 => ⟨S8, .f32⟩
  | 74 => ⟨S8, .f32⟩
  | 75 => ⟨S8, .f32⟩
  | 76 => ⟨S8x1, .f32⟩
  | 77 => ⟨S8, .f32⟩
  | 78 => ⟨S8, .f32⟩
  | 79 => ⟨S8x1, .f32⟩
  | 80 => ⟨S8, .f32⟩
  | 81 => ⟨S8, .f32⟩
  | 82 => ⟨S8, .f32⟩
  | 83 => ⟨S8, .f32⟩
  | 84 => ⟨S1x1x8, .f32⟩
  | 85 => ⟨S64x8192x8, .f32⟩
  | 86 => ⟨S64x8192x8, .f32⟩
  | 87 => ⟨S1x7, .f32⟩
  | 88 => ⟨S7, .f32⟩
  | 89 => ⟨S7, .f32⟩
  | 90 => ⟨S7, .f32⟩
  | 91 => ⟨S_, .f32⟩
  | 92 => ⟨S7, .f32⟩
  | 93 => ⟨S7, .f32⟩
  | 94 => ⟨S_, .f32⟩
  | 95 => ⟨S7, .f32⟩
  | 96 => ⟨S7, .f32⟩
  | 97 => ⟨S64x8192x7, .f32⟩
  | 98 => ⟨S_, .f32⟩
  | 99 => ⟨S7, .f32⟩
  | 100 => ⟨S7, .f32⟩
  | 101 => ⟨S1x1x7, .f32⟩
  | 102 => ⟨S64x8192x7, .f32⟩
  | 103 => ⟨S64x8192x7, .f32⟩
  | 104 => ⟨S64x8192x7, .f32⟩
  | 105 => ⟨S1x1x7, .f32⟩
  | 106 => ⟨S64x8192x7, .f32⟩
  | 107 => ⟨S64x8192x7, .f32⟩
  | 108 => ⟨S64x8192x7, .f32⟩
  | 109 => ⟨S64x8192x1, .f32⟩
  | 110 => ⟨S64x8192x8, .f32⟩
  | 111 => ⟨S1x8x3, .f32⟩
  | 112 => ⟨S8x3, .f32⟩
  | 113 => ⟨S8x1, .f32⟩
  | 114 => ⟨S8, .f32⟩
  | 115 => ⟨S8, .f32⟩
  | 116 => ⟨S8x1, .f32⟩
  | 117 => ⟨S8, .f32⟩
  | 118 => ⟨S8, .f32⟩
  | 119 => ⟨S8, .f32⟩
  | 120 => ⟨S8x1, .f32⟩
  | 121 => ⟨S8, .f32⟩
  | 122 => ⟨S8, .f32⟩
  | 123 => ⟨S8x1, .f32⟩
  | 124 => ⟨S8, .f32⟩
  | 125 => ⟨S8, .f32⟩
  | 126 => ⟨S8, .f32⟩
  | 127 => ⟨S8, .f32⟩
  | _ => ⟨S64x8192x64, .f32⟩

abbrev hbmTy0_1 (i : Nat) : BufTy := match i % 128 with
  | 0 => ⟨S8x1, .f32⟩
  | 1 => ⟨S8, .f32⟩
  | 2 => ⟨S8, .f32⟩
  | 3 => ⟨S8x1, .f32⟩
  | 4 => ⟨S8, .f32⟩
  | 5 => ⟨S8, .f32⟩
  | 6 => ⟨S8, .f32⟩
  | 7 => ⟨S8, .f32⟩
  | 8 => ⟨S1x1x8, .f32⟩
  | 9 => ⟨S64x8192x8, .f32⟩
  | 10 => ⟨S64x8192x8, .f32⟩
  | 11 => ⟨S1x7, .f32⟩
  | 12 => ⟨S7, .f32⟩
  | 13 => ⟨S7, .f32⟩
  | 14 => ⟨S7, .f32⟩
  | 15 => ⟨S_, .f32⟩
  | 16 => ⟨S7, .f32⟩
  | 17 => ⟨S7, .f32⟩
  | 18 => ⟨S_, .f32⟩
  | 19 => ⟨S7, .f32⟩
  | 20 => ⟨S7, .f32⟩
  | 21 => ⟨S64x8192x7, .f32⟩
  | 22 => ⟨S_, .f32⟩
  | 23 => ⟨S7, .f32⟩
  | 24 => ⟨S7, .f32⟩
  | 25 => ⟨S1x1x7, .f32⟩
  | 26 => ⟨S64x8192x7, .f32⟩
  | 27 => ⟨S64x8192x7, .f32⟩
  | 28 => ⟨S64x8192x7, .f32⟩
  | 29 => ⟨S1x1x7, .f32⟩
  | 30 => ⟨S64x8192x7, .f32⟩
  | 31 => ⟨S64x8192x7, .f32⟩
  | 32 => ⟨S64x8192x7, .f32⟩
  | 33 => ⟨S64x8192x1, .f32⟩
  | 34 => ⟨S64x8192x8, .f32⟩
  | 35 => ⟨S1x8x3, .f32⟩
  | 36 => ⟨S8x3, .f32⟩
  | 37 => ⟨S8x1, .f32⟩
  | 38 => ⟨S8, .f32⟩
  | 39 => ⟨S8, .f32⟩
  | 40 => ⟨S8x1, .f32⟩
  | 41 => ⟨S8, .f32⟩
  | 42 => ⟨S8, .f32⟩
  | 43 => ⟨S8, .f32⟩
  | 44 => ⟨S8x1, .f32⟩
  | 45 => ⟨S8, .f32⟩
  | 46 => ⟨S8, .f32⟩
  | 47 => ⟨S8x1, .f32⟩
  | 48 => ⟨S8, .f32⟩
  | 49 => ⟨S8, .f32⟩
  | 50 => ⟨S8, .f32⟩
  | 51 => ⟨S8, .f32⟩
  | 52 => ⟨S8x1, .f32⟩
  | 53 => ⟨S8, .f32⟩
  | 54 => ⟨S8, .f32⟩
  | 55 => ⟨S8x1, .f32⟩
  | 56 => ⟨S8, .f32⟩
  | 57 => ⟨S8, .f32⟩
  | 58 => ⟨S8, .f32⟩
  | 59 => ⟨S8, .f32⟩
  | 60 => ⟨S1x1x8, .f32⟩
  | 61 => ⟨S64x8192x8, .f32⟩
  | 62 => ⟨S64x8192x8, .f32⟩
  | 63 => ⟨S1x7, .f32⟩
  | 64 => ⟨S7, .f32⟩
  | 65 => ⟨S7, .f32⟩
  | 66 => ⟨S7, .f32⟩
  | 67 => ⟨S_, .f32⟩
  | 68 => ⟨S7, .f32⟩
  | 69 => ⟨S7, .f32⟩
  | 70 => ⟨S_, .f32⟩
  | 71 => ⟨S7, .f32⟩
  | 72 => ⟨S7, .f32⟩
  | 73 => ⟨S64x8192x7, .f32⟩
  | 74 => ⟨S_, .f32⟩
  | 75 => ⟨S7, .f32⟩
  | 76 => ⟨S7, .f32⟩
  | 77 => ⟨S1x1x7, .f32⟩
  | 78 => ⟨S64x8192x7, .f32⟩
  | 79 => ⟨S64x8192x7, .f32⟩
  | 80 => ⟨S64x8192x7, .f32⟩
  | 81 => ⟨S1x1x7, .f32⟩
  | 82 => ⟨S64x8192x7, .f32⟩
  | 83 => ⟨S64x8192x7, .f32⟩
  | 84 => ⟨S64x8192x7, .f32⟩
  | 85 => ⟨S64x8192x1, .f32⟩
  | 86 => ⟨S64x8192x8, .f32⟩
  | 87 => ⟨S64x8192x16, .f32⟩
  | 88 => ⟨S1x1x16, .f32⟩
  | 89 => ⟨S64x8192x16, .f32⟩
  | 90 => ⟨S64x8192x16, .f32⟩
  | _ => ⟨S64x8192x64, .f32⟩

abbrev hbmTy (i : Nat) : BufTy := match i / 128 with
  | 0 => hbmTy0_0 i
  | 1 => hbmTy0_1 i
  | _ => ⟨S64x8192x64, .f32⟩

abbrev bufTy : (tb : Table) → Fin (tcTables nBuf tb) → BufTy
  | .hbm, ⟨i, _⟩ => hbmTy i
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_2 : Ref sig .tc := ⟨.hbm, 91, rfl⟩
abbrev main_v83 : Ref sig .tc := ⟨.hbm, 92, rfl⟩
abbrev main_v84 : Ref sig .tc := ⟨.hbm, 93, rfl⟩
abbrev main_cst_3 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_4 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_cst_5 : Ref sig .tc := ⟨.hbm, 143, rfl⟩
abbrev main_v132 : Ref sig .tc := ⟨.hbm, 144, rfl⟩
abbrev main_v133 : Ref sig .tc := ⟨.hbm, 145, rfl⟩
abbrev main_cst_6 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_7 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_cst_8 : Ref sig .tc := ⟨.hbm, 195, rfl⟩
abbrev main_v181 : Ref sig .tc := ⟨.hbm, 196, rfl⟩
abbrev main_v182 : Ref sig .tc := ⟨.hbm, 197, rfl⟩
abbrev main_cst_9 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_cst_10 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩

abbrev nD : Nat := 1
abbrev τ : Topo := Topo.v7x

variable {F : FTy → Type} [FloatOps F]

class Facts₀ : Prop where
  slices_S64x8192x64_S64x8192x8_0_0_0 : S64x8192x64.Slices ![0, 0, 0] S64x8192x8
  slices_S4x8x3_S1x8x3_0_0_0 : S4x8x3.Slices ![0, 0, 0] S1x8x3
  shapeCasts_S1x8x3_S8x3 : S1x8x3.ShapeCasts S8x3
  slices_S8x3_S8x1_0_0 : S8x3.Slices ![0, 0] S8x1
  shapeCasts_S8x1_S8 : S8x1.ShapeCasts S8
  slices_S8x3_S8x1_0_1 : S8x3.Slices ![0, 1] S8x1
  slices_S8x3_S8x1_0_2 : S8x3.Slices ![0, 2] S8x1
  bcast_S8_S1x1x8_2 : S8.BroadcastsInDim S1x1x8 (![2] : Fin 1 → Fin S1x1x8.rank)
  bcast_S1x1x8_S64x8192x8_0_1_2 : S1x1x8.BroadcastsInDim S64x8192x8 (![0, 1, 2] : Fin 3 → Fin S64x8192x8.rank)
  slices_S4x7_S1x7_0_0 : S4x7.Slices ![0, 0] S1x7
  shapeCasts_S1x7_S7 : S1x7.ShapeCasts S7
  bcast_S_S7 : S_.BroadcastsInDim S7 (![] : Fin 0 → Fin S7.rank)
  slices_S64x8192x8_S64x8192x7_0_0_0 : S64x8192x8.Slices ![0, 0, 0] S64x8192x7
  bcast_S7_S1x1x7_2 : S7.BroadcastsInDim S1x1x7 (![2] : Fin 1 → Fin S1x1x7.rank)
  bcast_S1x1x7_S64x8192x7_0_1_2 : S1x1x7.BroadcastsInDim S64x8192x7 (![0, 1, 2] : Fin 3 → Fin S64x8192x7.rank)
  slices_S64x8192x8_S64x8192x7_0_0_1 : S64x8192x8.Slices ![0, 0, 1] S64x8192x7
  slices_S64x8192x8_S64x8192x1_0_0_7 : S64x8192x8.Slices ![0, 0, 7] S64x8192x1
  concatenates_S64x8192x7_S64x8192x1_S64x8192x8_d2 : Shape.Concatenates [S64x8192x7, S64x8192x1] S64x8192x8 2
  slices_S4x8x3_S1x8x3_1_0_0 : S4x8x3.Slices ![1, 0, 0] S1x8x3
  slices_S4x7_S1x7_1_0 : S4x7.Slices ![1, 0] S1x7
  slices_S4x8x3_S1x8x3_2_0_0 : S4x8x3.Slices ![2, 0, 0] S1x8x3
  slices_S4x7_S1x7_2_0 : S4x7.Slices ![2, 0] S1x7
  slices_S4x8x3_S1x8x3_3_0_0 : S4x8x3.Slices ![3, 0, 0] S1x8x3
  slices_S4x7_S1x7_3_0 : S4x7.Slices ![3, 0] S1x7
  bcast_S16_S1x1x16_2 : S16.BroadcastsInDim S1x1x16 (![2] : Fin 1 → Fin S1x1x16.rank)
  bcast_S1x1x16_S64x8192x16_0_1_2 : S1x1x16.BroadcastsInDim S64x8192x16 (![0, 1, 2] : Fin 3 → Fin S64x8192x16.rank)
  dot_S64x8192x8_S16x8_S64x8192x16_2_1_01_0_n_n_wf : DotDims.WF S64x8192x8 S16x8 S64x8192x16 [2] [1] [0, 1] [0] [] []

variable [Facts₀]

def dot_S64x8192x8_S16x8_S64x8192x16_2_1_01_0_n_n : DotDims S64x8192x8 S16x8 S64x8192x16 where
  lhsContracting := [2]
  rhsContracting := [1]
  lhsNonContracting := [0, 1]
  rhsNonContracting := [0]
  lhsBatch := []
  rhsBatch := []
  wf := dot_S64x8192x8_S16x8_S64x8192x16_2_1_01_0_n_n_wf

class Facts : Prop extends Facts₀ where

variable [Facts]
-- ==== Proof.LibDotRhsLast.lean ====
/-
  A matrix product against a right operand contracted on its LAST axis, read at an entry, over the extended reals.

  The product of an [M, K] array x with an [N, K] array w into [M, N] — the second axis of BOTH operands contracted, no
  batch axes, no transpose written out — has at (p, q) the value  Σ_k x(p, k) · w(q, k):  row p of x against row q of w.
  For the device's product into the zero accumulator this is the exact finite sum over the contracted coordinate, and the
  contraction index of a one-axis contraction is that coordinate.
-/
import Idealize.ShloMosaic.Lib.ValueIdx
import Idealize.ShloMosaic.PureOps.Ideal.Laws

namespace Cert.LibDotRhsLast

open Idealize.ShloMosaic Idealize.ShloMosaic.ValueIdx

variable {M K N : ℕ}

/-- The left operand's row coordinate is the result's row coordinate. -/
theorem lhs_row (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column coordinate. -/
theorem rhs_row (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At the k-th contraction coordinate the left operand is read at (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => exact lhs_row _ _
  | ⟨1, _⟩ => exact (lhs_col _ _).trans hk

/-- At the k-th contraction coordinate the right operand is read at (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => exact rhs_row _ _
  | ⟨1, _⟩ => exact (rhs_col _ _).trans hk

/-- The device's product into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    matmul (DotDims.transposedRhs M K N) prec x w (constant (F := Ideal) ⟨2, ![M, N]⟩ .f32 0x00000000#32) (ix2 p q)
      = ∑ k : Fin K, x (ix2 p k) * w (ix2 q k) := by
  refine (Ideal.matmul_constant_zero_apply (DotDims.transposedRhs M K N) prec x w (ix2 p q)).trans ?_
  refine (Equiv.sum_comp (contrEquiv1 (DotDims.transposedRhs M K N) K rfl rfl).symm _).symm.trans ?_
  exact Finset.sum_congr rfl fun k _ => by rw [lhsIdx_eq p q k, rhsIdx_eq p q k]

end Cert.LibDotRhsLast
-- ==== Proof.Payload.lean ====
/-
  The arithmetic the kernel does on one block, read at an entry, over the extended reals.

  A block of 8192 rows of the encoded table (each row 64 entries) meets the 16 × 64 weight block and the 16 × 1 bias
  block. Every entry of the row block goes through tanh; the two roundings to the short format are the identity on the
  extended reals; the product contracts the last axis of BOTH operands into a zero accumulator, so its (o, r) entry is
  row o of the weights against row r of the tanh'd block; the bias column is repeated along the 8192 lanes. Hence

      result(o, r) = Σ_{k<64} W(o, k) · tanh X(r, k) + B(o, 0).
-/
import proofs.«115779_j15375982920210_2_alg».proof.Proof.Gen.KernelIdeal.Frame
import proofs.«115779_j15375982920210_2_alg».proof.Proof.LibDotRhsLast
import Idealize.ShloMosaic.Lib.ValueIdx
import Idealize.ShloMosaic.Lib.Pipeline.Value
import Idealize.ShloMosaic.PureOps.Ideal

namespace Cert.KernelRead

open Idealize.ShloMosaic Idealize.ShloMosaic.ValueIdx Cert.KernelIdeal Cert.KernelIdeal.Gen

/-- The product's dimension record: both operands contracted on their last axis, no batch axes. -/
theorem dot_eq : dot_S16x64_S8192x64_S16x8192_1_1_0_0_n_n = DotDims.transposedRhs 16 64 8192 := rfl

/-- The bias column repeated along the lanes, at (o, r): the column's entry o. -/
theorem bias_apply (x2 : Vec Ideal S16x1 .f32) (o : Fin 16) (r : Fin 8192) :
    broadcastTo S16x8192 (shapeCast S16x1 x2 shapeCasts_S16x1_S16x1) broadcasts_S16x1_S16x8192 (ix2 o r)
      = x2 (ix2 o (0 : Fin 1)) := by
  rw [shapeCast_self]
  exact broadcastTo_apply x2 _ _ _ fun a => match a with | ⟨0, _⟩ => rfl | ⟨1, _⟩ => rfl

/-- One block's result at (o, r): row o of the weights against the tanh of row r of the block, plus the bias of o. -/
theorem pay_apply (x0 : Vec Ideal S8192x64 .f32) (x1 : Vec Ideal S16x64 .f32) (x2 : Vec Ideal S16x1 .f32)
    (o : Fin 16) (r : Fin 8192) :
    k0_pay1 x0 x1 x2 (ix2 o r)
      = (∑ k : Fin 64, x1 (ix2 o k) * Ideal.tanh (x0 (ix2 r k))) + x2 (ix2 o (0 : Fin 1)) := by
  unfold k0_pay1
  refine (addf_apply _ _ _).trans ?_
  refine congrArg₂ (· + ·) ?_ (bias_apply x2 o r)
  rw [dot_eq]
  refine (Cert.LibDotRhsLast.matmul_zero_apply none _ _ o r).trans ?_
  refine Finset.sum_congr rfl fun k _ => ?_
  exact congrArg₂ (· * ·) (congrFun (shapeCast_self x1 _) _)
    (congrArg Ideal.tanh (congrFun (shapeCast_self x0 _) _))

end Cert.KernelRead
-- ==== Proof.LibFlattenRows.lean ====
/-
  Flattening the two leading axes of a rank-3 array, read at an index given by coordinates.

  An [a, b, c] array reshaped to [a·b, c] keeps its row-major order: row n·b + s of the flat array is row s of slab n.
  So the flat array at (n·b + s, e) is the array at (n, s, e), and conversely a flat array reshaped to [a, b, c] reads,
  at (n, s, e), the flat array at (n·b + s, e).
-/
import Idealize.ShloMosaic.Lib.Pipeline.Value
import Idealize.ShloMosaic.Lib.ValueIdx

namespace Cert.LibFlattenRows

open Idealize.ShloMosaic Idealize.ShloMosaic.ValueIdx

variable {α : Type}

/-- Row s of slab n is a row of the flat array. -/
theorem row_lt {a b ab : ℕ} (hab : a * b = ab) (n : Fin a) (s : Fin b) : n.val * b + s.val < ab :=
  calc n.val * b + s.val < n.val * b + b := Nat.add_lt_add_left s.isLt _
    _ = (n.val + 1) * b := by rw [Nat.add_mul, Nat.one_mul]
    _ ≤ a * b := Nat.mul_le_mul_right _ n.isLt
    _ = ab := hab

/-- The flat row of row s of slab n. -/
def flatRow {a b ab : ℕ} (hab : a * b = ab) (n : Fin a) (s : Fin b) : Fin ab := ⟨n.val * b + s.val, row_lt hab n s⟩

/-- An [a, b, c] array flattened to [a·b, c], at (n·b + s, e): the array at (n, s, e). -/
theorem flatten_apply {a b c ab : ℕ} (hab : a * b = ab) (x : (⟨3, ![a, b, c]⟩ : Shape).Idx → α)
    (h : (⟨3, ![a, b, c]⟩ : Shape).ShapeCasts ⟨2, ![ab, c]⟩) (n : Fin a) (s : Fin b) (e : Fin c) :
    shapeCast ⟨2, ![ab, c]⟩ x h (ix2 (flatRow hab n s) e) = x (ix3 n s e) :=
  shapeCast_apply x h _ _ (by
    rw [Shape.rowMajor_val_three, Shape.rowMajor_val_two]
    rfl)

/-- A flat [a·b, c] array reshaped to [a, b, c], at (n, s, e): the flat array at (n·b + s, e). -/
theorem unflatten_apply {a b c ab : ℕ} (hab : a * b = ab) (y : (⟨2, ![ab, c]⟩ : Shape).Idx → α)
    (h : (⟨2, ![ab, c]⟩ : Shape).ShapeCasts ⟨3, ![a, b, c]⟩) (n : Fin a) (s : Fin b) (e : Fin c) :
    shapeCast ⟨3, ![a, b, c]⟩ y h (ix3 n s e) = y (ix2 (flatRow hab n s) e) :=
  shapeCast_apply y h _ _ (by
    rw [Shape.rowMajor_val_three, Shape.rowMajor_val_two]
    rfl)

end Cert.LibFlattenRows
-- ==== Proof.LibStretches.lean ====
/-
  A straight line of host operations read stretch by stretch, and contents carried to a typed reference and back.

  The buffer contents after a line of operations are a fold of the operations' results over the contents it starts
  from. Cut the line in two: the contents after the whole line are the fold over the second stretch of the contents
  after the first. A long line is read this way one stretch at a time, each stretch from what the one before left, a
  buffer a stretch does not write keeping its contents.

  Inside a function the program calls, a buffer is reached through a reference that carries its tensor type; contents
  are moved to the buffer's own type along an equation of types and back along its inverse. There and back is the
  identity, whatever the reference: with the pairs removed this way, a read-back of such a function's operations
  compares with a plain term without unfolding any operation.
-/
import Idealize.ShloMosaic.Lib.StableHlo.Run

namespace Cert.LibStretches

open Idealize.ShloMosaic Idealize.ShloMosaic.StableHlo

variable {τ : Topo} {sig : RefSig} {Val : EltTy → Type}

/-- The contents after two stretches run in turn: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {T : BufTy} (x : TRef sig T) (v : T.Contents Val) : x.ofBuf (x.toBuf v) = v := by
  obtain ⟨r, h, _, _⟩ := x
  subst h
  rfl

/-- Contents carried from a typed reference's buffer and back to it are the contents. -/
theorem toBuf_ofBuf {T : BufTy} (x : TRef sig T) (v : x.ref.ty.Contents Val) : x.toBuf (x.ofBuf v) = v := by
  obtain ⟨r, h, _, _⟩ := x
  subst h
  rfl

end Cert.LibStretches
-- ==== Proof.Blocks.lean ====
/-
  The kernel's result array, and the program's result after the two layout operations that follow the kernel, read at
  an index.

  The kernel runs over 64 points. Point t takes rows 8192·t … 8192·t + 8191 of the encoded table X (each row 64
  entries) together with the whole 16 × 64 weight array W and the whole 16 × 1 bias array B, and writes columns
  8192·t … 8192·t + 8191 of a [16, 524288] array: column n of the result is computed from row n of the table, whatever
  the point, so the blocks are restrictions of ONE function of (W, X, B),

      A(o, n) = Σ_{k<64} W(o, k) · tanh X(n, k) + B(o, 0),

  and the 64 blocks tile the array. After the kernel the array is transposed to [524288, 16] and its rows are regrouped
  as [64, 8192, 16]: the entry (b, s, o) of the program's result is A(o, 8192·b + s).
-/
import proofs.«115779_j15375982920210_2_alg».proof.Proof.Gen.KernelIdeal.Frame
import proofs.«115779_j15375982920210_2_alg».proof.Proof.Payload
import proofs.«115779_j15375982920210_2_alg».proof.Proof.LibFlattenRows
import proofs.«115779_j15375982920210_2_alg».proof.Proof.LibStretches
import Idealize.ShloMosaic.Lib.Pipeline.Value
import Idealize.ShloMosaic.Lib.ValueLayout
import Idealize.ShloMosaic.Lib.ValueIdx

set_option maxRecDepth 16384

noncomputable section

namespace Cert.KernelRead

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The result array as one function of the three arrays the kernel reads -/

/-- Entry (o, n) of the [16, 524288] array: row o of the weights against the tanh of row n of the table, plus the
    bias of o. -/
def outArr (W : S16x64.Idx → EReal) (X : S524288x64.Idx → EReal) (B : S16x1.Idx → EReal) : S16x524288.Idx → EReal :=
  fun i => (∑ k : Fin 64, W (ix2 (i 0) k) * Ideal.tanh (X (ix2 (i 1) k))) + B (ix2 (i 0) (0 : Fin 1))

theorem outArr_apply (W : S16x64.Idx → EReal) (X : S524288x64.Idx → EReal) (B : S16x1.Idx → EReal)
    (o : Fin 16) (n : Fin 524288) :
    outArr W X B (ix2 o n) = (∑ k : Fin 64, W (ix2 o k) * Ideal.tanh (X (ix2 n k))) + B (ix2 o (0 : Fin 1)) := rfl

/-- One block's result at a block index y is the array's entry at i, as soon as the block's operands are the arrays
    read where i says: row (y 1) of the row block is row (i 1) of the table, and row (y 0) of the weight and bias
    blocks is row (i 0) of the weights and of the bias. -/
theorem block_entry (W : S16x64.Idx → EReal) (X : S524288x64.Idx → EReal) (B : S16x1.Idx → EReal)
    (x0 : Vec Ideal S8192x64 .f32) (x1 : Vec Ideal S16x64 .f32) (x2 : Vec Ideal S16x1 .f32)
    (y : S16x8192.Idx) (i : S16x524288.Idx)
    (h0 : ∀ k : Fin 64, x0 (ix2 (y 1) k) = X (ix2 (i 1) k))
    (h1 : ∀ k : Fin 64, x1 (ix2 (y 0) k) = W (ix2 (i 0) k))
    (h2 : x2 (ix2 (y 0) (0 : Fin 1)) = B (ix2 (i 0) (0 : Fin 1))) :
    k0_pay1 x0 x1 x2 y = outArr W X B i := by
  refine (congrArg (k0_pay1 x0 x1 x2) (eq_ix2 y)).trans ((pay_apply x0 x1 x2 (y 0) (y 1)).trans ?_)
  unfold outArr
  exact congrArg₂ (· + ·) (Finset.sum_congr rfl fun k _ => by rw [h1 k, h0 k]) h2

/-! ## The index maps over the grid -/

theorem zero_offsets : (![0, 0] : Fin 2 → Nat) = fun _ => 0 := funext fun a => by fin_cases a <;> rfl

/-- Point t reads row block t of the table, the one block of the weights and of the bias, and writes column block t. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- An index of the result array is in point t's block iff each coordinate is in the block's range on its axis. -/
theorem mem_block (t : Fin cfg0.N) (i : S16x524288.Idx) :
    i ∈ ((cfg0.win 3).blk t).view.set ↔ ∀ a : Fin 2, win0_3.index t a * S16x8192.size a ≤ (i a).val
      ∧ (i a).val < win0_3.index t a * S16x8192.size a + S16x8192.size a := by
  show i ∈ ((View.whole main_call0_v248).slice (win0_3.rect t)).set ↔ _
  rw [View.set_slice_whole, Rect.mem_set_unit]
  exact Iff.rfl

/-! ## The three arrays the kernel reads, as it finds them -/

/-- The 16 × 64 weights. -/
abbrev weights (c : Dev nD) : S16x64.Idx → EReal := V m c main_call0_v245
/-- The 524288 × 64 encoded table. -/
abbrev table (c : Dev nD) : S524288x64.Idx → EReal := V m c main_call0_v247
/-- The 16 × 1 bias. -/
abbrev bias (c : Dev nD) : S16x1.Idx → EReal := V m c main_call0_v246

/-! ## What a point writes back -/

/-- What point t writes back is block t of the one array: each operand block is its array read where the output
    block's index says. -/
theorem flushed_eq (c : Dev nD) (t : Fin cfg0.N) :
    (dats m 0 c).flushed 3 t = ((cfg0.win 3).blk t).view.read (Elt Ideal)
      (outArr (weights m c) (table m c) (bias m c)) := by
  show (cfg0.win 3).cut (grid0.coords t) ((dats m 0 c).after 3 t) = _
  rw [after0_3]
  unfold out0_3
  rw [View.canon_unit_zero zero_offsets]
  simp only [View.ld_unit_zero (S := S8192x64) zero_offsets, View.ld_unit_zero (S := S16x64) zero_offsets,
    View.ld_unit_zero (S := S16x1) zero_offsets]
  funext j
  show k0_pay1 (iblk m c 0 t) (iblk m c 1 t) (iblk m c 2 t) j
      = outArr (weights m c) (table m c) (bias m c) (((cfg0.win 3).blk t).view.emb j)
  obtain ⟨e00, e01, e10, e11, e20, e21, e30, e31⟩ := index_maps t
  refine block_entry _ _ _ _ _ _ j _ (fun k => ?_) (fun k => ?_) ?_
  · show V m c main_call0_v247 (((cfg0.win 0).blk t).view.emb _) = V m c main_call0_v247 _
    refine congrArg _ (funext fun a => Fin.ext ?_)
    match a with
    | ⟨0, _⟩ =>
      show win0_0.index t (0 : Fin 2) * 8192 + 1 * (j 1).val = win0_3.index t (1 : Fin 2) * 8192 + 1 * (j 1).val
      omega
    | ⟨1, _⟩ =>
      show win0_0.index t (1 : Fin 2) * 64 + 1 * k.val = k.val
      omega
  · show V m c main_call0_v245 (((cfg0.win 1).blk t).view.emb _) = V m c main_call0_v245 _
    refine congrArg _ (funext fun a => Fin.ext ?_)
    match a with
    | ⟨0, _⟩ =>
      show win0_1.index t (0 : Fin 2) * 16 + 1 * (j 0).val = win0_3.index t (0 : Fin 2) * 16 + 1 * (j 0).val
      omega
    | ⟨1, _⟩ =>
      show win0_1.index t (1 : Fin 2) * 64 + 1 * k.val = k.val
      omega
  · show V m c main_call0_v246 (((cfg0.win 2).blk t).view.emb _) = V m c main_call0_v246 _
    refine congrArg _ (funext fun a => Fin.ext ?_)
    match a with
    | ⟨0, _⟩ =>
      show win0_2.index t (0 : Fin 2) * 16 + 1 * (j 0).val = win0_3.index t (0 : Fin 2) * 16 + 1 * (j 0).val
      omega
    | ⟨1, _⟩ =>
      show win0_2.index t (1 : Fin 2) * 1 + 1 * 0 = 0
      omega

/-! ## The blocks tile the array -/

/-- Column n of the result array is in the block of point n / 8192. -/
theorem covered (i : S16x524288.Idx) :
    ∃ t : Fin cfg0.N, (cfg0.win 3).flush t = true ∧ i ∈ ((cfg0.win 3).blk t).view.set := by
  have hi0 : (i 0).val < 16 := (i 0).isLt
  have hi1 : (i 1).val < 524288 := (i 1).isLt
  have hN : cfg0.N = 64 := N_0
  obtain ⟨t, ht⟩ : ∃ t : Fin cfg0.N, t.val = (i 1).val / 8192 := ⟨⟨(i 1).val / 8192, by rw [hN]; omega⟩, rfl⟩
  obtain ⟨e00, e01, e10, e11, e20, e21, e30, e31⟩ := index_maps t
  refine ⟨t, flush0_3 t, ?_⟩
  rw [mem_block]
  intro a
  match a with
  | ⟨0, _⟩ =>
    show win0_3.index t (0 : Fin 2) * 16 ≤ (i 0).val ∧ (i 0).val < win0_3.index t (0 : Fin 2) * 16 + 16
    omega
  | ⟨1, _⟩ =>
    show win0_3.index t (1 : Fin 2) * 8192 ≤ (i 1).val ∧ (i 1).val < win0_3.index t (1 : Fin 2) * 8192 + 8192
    omega

/-- The result array after the run is the one function of the weights, the table and the bias as the kernel finds
    them. -/
theorem final (c : Dev nD) :
    (dats m 0 c).arrAt 3 cfg0.N
      = outArr (weights m c) (table m c) (bias m c) :=
  (dats m 0 c).arrAt_eq_of_cover 3 _ (fun t _ => flushed_eq m c t) covered

/-! ## After the kernel: the transpose and the regrouping of rows -/

/-- The kernel's result buffer when the region ends. -/
theorem arr_eq (c : Dev nD) :
    (Pipeline.withArrays spec0 c (V0 m c) (fun w => (dats m 0 c).arrAt w cfg0.N)
        (Proc.devRef .tc main_call0_v248) : S16x524288.Idx → EReal)
      = outArr (weights m c) (table m c) (bias m c) :=
  (Pipeline.withArrays_arr spec0 launch0.win.arr_inj c _ _ 3).trans (final m c)

/-- The program's result: the kernel's array transposed to [524288, 16], its rows regrouped as [64, 8192, 16]. -/
theorem tail_eq (c : Dev nD) :
    (Pipeline.afterTail₀ cfgs (dats m) 0 (V0 m) [hostOps1] c main_v0 : S64x8192x16.Idx → EReal)
      = shapeCast S64x8192x16 (transpose S524288x16 [1, 0] (outArr (weights m c) (table m c) (bias m c))
          transposes_S16x524288_S524288x16_1_0) shapeCasts_S524288x16_S64x8192x16 := by
  unfold Pipeline.afterTail₀
  show StableHlo.after hostOps1 _ (Proc.devRef .tc main_v0) = _
  after_results
  generalize hA : Pipeline.withArrays _ _ _ _ _ = A
  have hA' : A = outArr (weights m c) (table m c) (bias m c) := hA.symm.trans (arr_eq m c)
  subst hA'
  rfl

/-- THE PROGRAM'S RESULT AT (b, s, o): row o of the weights against the tanh of row 8192·b + s of the table, plus the
    bias of o — the weights, the table and the bias being what the kernel finds in its three operand arrays. -/
theorem out_apply (c : Dev nD) (b : Fin 64) (s : Fin 8192) (o : Fin 16) :
    (Pipeline.afterTail₀ cfgs (dats m) 0 (V0 m) [hostOps1] c main_v0 : S64x8192x16.Idx → EReal) (ix3 b s o)
      = (∑ k : Fin 64, weights m c (ix2 o k)
            * Ideal.tanh (table m c (ix2 (Cert.LibFlattenRows.flatRow (by norm_num : 64 * 8192 = 524288) b s) k)))
        + bias m c (ix2 o (0 : Fin 1)) := by
  refine (congrFun (tail_eq m c) (ix3 b s o)).trans ?_
  refine (Cert.LibFlattenRows.unflatten_apply (by norm_num : 64 * 8192 = 524288) _ _ b s o).trans ?_
  refine (transpose_ix2_apply _ _ (Cert.LibFlattenRows.flatRow _ b s) o).trans ?_
  exact outArr_apply _ _ _ o _

end Cert.KernelRead

end
-- ==== Proof.Circuit.lean ====
/-
  A four-layer linear circuit on eight amplitudes, followed by a projection to sixteen outputs, written two ways.

  Every layer l has a rotation scale s_l(q) for each of the eight amplitudes and an entangling weight w_l(j) for each of
  the seven neighbouring pairs, both functions of the layer's parameters only:

      s_l(q) = (cos r_l(q,0) + sin r_l(q,0)) (cos r_l(q,1) + sin r_l(q,1)) (cos r_l(q,2) + sin r_l(q,2)),
      w_l(j) = 1 / (1 + exp (-e_l(j))).

  STEP BY STEP. A layer scales the amplitudes, z(q) = t(q) s_l(q), and mixes each with its successor,
      t'(q) = z(q) (1 - w_l(q)) + z(q+1) w_l(q)   for q < 7,      t'(7) = z(7);
  after four layers the output o is  Σ_q t⁗(q) p(o,q) + β(o).

  AS ONE MATRIX. Layer l is the matrix  L_l = E_l · diag(s_l),  where E_l has 1 - w_l(i) (and 1 in the last row) on the
  diagonal and w_l(i) just above it; the four layers fold into  L_3 L_2 L_1 L_0 I,  the projection into
  W = p · (L_3 L_2 L_1 L_0 I), and W is padded with zero columns to width 64, so that output o is
  Σ_{k<64} W(o,k) t(k) + β(o)  with t now all 64 entries of a row.

  Both are polynomial in s, w, p, β, t, so they are written over ANY scalars with a sum, a product, a difference and a
  one; over a commutative ring the two agree (module Fold), and on the extended reals they are read at the scales and
  weights above. Here are only the definitions.
-/
import Idealize.ShloMosaic.PureOps.Ideal
import Idealize.ShloMosaic.Lib.ValueIdx

noncomputable section

namespace Cert.Circuit

open Idealize.ShloMosaic Idealize.ShloMosaic.ValueIdx

/-- Amplitude q < 7 as a pair number. -/
def low (q : Fin 8) (h : q.val < 7) : Fin 7 := ⟨q.val, h⟩
/-- The successor of amplitude q < 7. -/
def nxt (q : Fin 8) (h : q.val < 7) : Fin 8 := ⟨q.val + 1, by omega⟩

section Scalars
variable {K : Type} [AddCommMonoid K] [Mul K] [One K] [Sub K]

/-! ## Step by step -/

/-- The entangling mix of scaled amplitudes z with weights w. -/
def mix (w : Fin 7 → K) (z : Fin 8 → K) (q : Fin 8) : K :=
  if h : q.val < 7 then z q * (1 - w (low q h)) + z (nxt q h) * w (low q h) else z q

/-- The scaled amplitudes of layers 0, 1, 2, 3 from the encoded amplitudes t. -/
def rz0 (s : Fin 4 → Fin 8 → K) (t : Fin 8 → K) (q : Fin 8) : K := t q * s 0 q
def rz1 (s : Fin 4 → Fin 8 → K) (w : Fin 4 → Fin 7 → K) (t : Fin 8 → K) (q : Fin 8) : K := mix (w 0) (rz0 s t) q * s 1 q
def rz2 (s : Fin 4 → Fin 8 → K) (w : Fin 4 → Fin 7 → K) (t : Fin 8 → K) (q : Fin 8) : K := mix (w 1) (rz1 s w t) q * s 2 q
def rz3 (s : Fin 4 → Fin 8 → K) (w : Fin 4 → Fin 7 → K) (t : Fin 8 → K) (q : Fin 8) : K := mix (w 2) (rz2 s w t) q * s 3 q

/-- Output o, layer after layer. -/
def stepOutG (s : Fin 4 → Fin 8 → K) (w : Fin 4 → Fin 7 → K) (p : Fin 16 → Fin 8 → K) (β : Fin 16 → K)
    (t : Fin 8 → K) (o : Fin 16) : K :=
  (∑ q : Fin 8, mix (w 3) (rz3 s w t) q * p o q) + β o

/-! ## As one matrix -/

/-- The identity matrix. -/
def eye (i j : Fin 8) : K := if i = j then 1 else 0
/-- The diagonal matrix of a vector. -/
def diag (v : Fin 8 → K) (i j : Fin 8) : K := if i = j then v i else 0
/-- The diagonal of a layer's entangling matrix. -/
def dmain (w : Fin 7 → K) (i : Fin 8) : K := if h : i.val < 7 then 1 - w (low i h) else 1
/-- A layer's entangling matrix: its diagonal plus the weights just above it. -/
def ent (w : Fin 7 → K) (i j : Fin 8) : K :=
  diag (dmain w) i j + ∑ e ∈ Finset.univ.filter (fun e : Fin 7 => e.val = i.val ∧ e.val + 1 = j.val), w e
/-- The product of two 8×8 matrices. -/
def mul8 (A B : Fin 8 → Fin 8 → K) (i k : Fin 8) : K := ∑ j : Fin 8, A i j * B j k
/-- Layer l as a matrix. -/
def layer (s : Fin 4 → Fin 8 → K) (w : Fin 4 → Fin 7 → K) (l : Fin 4) : Fin 8 → Fin 8 → K := mul8 (ent (w l)) (diag (s l))
/-- The four layers folded, the first innermost. -/
def fold (s : Fin 4 → Fin 8 → K) (w : Fin 4 → Fin 7 → K) : Fin 8 → Fin 8 → K :=
  mul8 (layer s w 3) (mul8 (layer s w 2) (mul8 (layer s w 1) (mul8 (layer s w 0) eye)))
/-- The projection folded into the layers. -/
def weff (s : Fin 4 → Fin 8 → K) (w : Fin 4 → Fin 7 → K) (p : Fin 16 → Fin 8 → K) (o : Fin 16) (k : Fin 8) : K :=
  ∑ j : Fin 8, p o j * fold s w j k
/-- The same padded with zero columns to width 64. -/
def wpad (s : Fin 4 → Fin 8 → K) (w : Fin 4 → Fin 7 → K) (p : Fin 16 → Fin 8 → K) (o : Fin 16) (k : Fin 64) : K :=
  if h : k.val < 8 then weff s w p o ⟨k.val, h⟩ else 0

/-- Output o, as one product against all 64 entries of a row. -/
def foldOutG (s : Fin 4 → Fin 8 → K) (w : Fin 4 → Fin 7 → K) (p : Fin 16 → Fin 8 → K) (β : Fin 16 → K)
    (t : Fin 64 → K) (o : Fin 16) : K :=
  (∑ k : Fin 64, wpad s w p o k * t k) + β o

end Scalars

/-! ## On the extended reals, from the parameter arrays -/

/-- Rotation parameters [layer, amplitude, angle]. -/
abbrev Rot := (⟨3, ![4, 8, 3]⟩ : Shape).Idx → EReal
/-- Entangling parameters [layer, pair]. -/
abbrev Ent := (⟨2, ![4, 7]⟩ : Shape).Idx → EReal
/-- The projection [output, amplitude]. -/
abbrev Proj := (⟨2, ![16, 8]⟩ : Shape).Idx → EReal
/-- The bias [output]. -/
abbrev Bias := (⟨1, ![16]⟩ : Shape).Idx → EReal

/-- The rotation scale of amplitude q in layer l. -/
def scale (R : Rot) (l : Fin 4) (q : Fin 8) : EReal :=
  (Ideal.cos (R (ix3 l q (0 : Fin 3))) + Ideal.sin (R (ix3 l q (0 : Fin 3))))
    * (Ideal.cos (R (ix3 l q (1 : Fin 3))) + Ideal.sin (R (ix3 l q (1 : Fin 3))))
    * (Ideal.cos (R (ix3 l q (2 : Fin 3))) + Ideal.sin (R (ix3 l q (2 : Fin 3))))

/-- The entangling weight of pair j in layer l: the logistic of its parameter. -/
def gate (E : Ent) (l : Fin 4) (j : Fin 7) : EReal :=
  Ideal.div 1 (1 + Ideal.exp (-(E (ix2 l j))))

/-- The projection and the bias by coordinates. -/
def proj (P : Proj) (o : Fin 16) (q : Fin 8) : EReal := P (ix2 o q)
def bias (B : Bias) (o : Fin 16) : EReal := B (ix1 o)

/-- Output o layer after layer, from the parameter arrays and the encoded amplitudes t. -/
def stepOut (R : Rot) (E : Ent) (P : Proj) (B : Bias) (t : Fin 8 → EReal) (o : Fin 16) : EReal :=
  stepOutG (scale R) (gate E) (proj P) (bias B) t o

/-- Output o as one product, from the parameter arrays and a row t of 64 encoded entries. -/
def foldOut (R : Rot) (E : Ent) (P : Proj) (B : Bias) (t : Fin 64 → EReal) (o : Fin 16) : EReal :=
  foldOutG (scale R) (gate E) (proj P) (bias B) t o

end Cert.Circuit

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibJoinVec.lean ====
/-
  Two vectors joined end to end, read at an index, and a sum over the joined index range split into the two pieces.

  The join of a vector x₁ of length n₁ and a vector x₂ of length n₂ is the vector of length n₁ + n₂ whose entry at a
  position below n₁ is x₁ there, and whose entry at position n₁ + j is x₂ at j:

      join(x₁, x₂)(e)      = x₁(e)    for e < n₁,
      join(x₁, x₂)(n₁ + j) = x₂(j)    for j < n₂.

  A sum over the positions of the join that satisfy a predicate is the sum over the positions of the first piece that
  satisfy it plus the sum over those of the second piece: the index range [0, n₁ + n₂) is the disjoint union of
  [0, n₁) and its complement, which j ↦ n₁ + j enumerates.
-/
import Idealize.ShloMosaic.Lib.ValueIdx
import Idealize.ShloMosaic.Lib.Pipeline.Value
import Mathlib.Algebra.BigOperators.Fin

noncomputable section

namespace Cert.JoinVec

open Idealize.ShloMosaic Idealize.ShloMosaic.ValueIdx

variable {α : Type} {n₁ n₂ n : ℕ}

/-- Position e of the first piece, as a position of the join. -/
def inl (h : n₁ + n₂ = n) (e : Fin n₁) : Fin n := ⟨e.val, by have := e.isLt; omega⟩

/-- Position j of the second piece, as a position of the join: the first piece's length further on. -/
def inr (h : n₁ + n₂ = n) (j : Fin n₂) : Fin n := ⟨n₁ + j.val, by have := j.isLt; omega⟩

@[simp] theorem inl_val (h : n₁ + n₂ = n) (e : Fin n₁) : (inl h e).val = e.val := rfl
@[simp] theorem inr_val (h : n₁ + n₂ = n) (j : Fin n₂) : (inr h j).val = n₁ + j.val := rfl

/-- THE JOIN READ IN ITS FIRST PIECE. -/
theorem join_inl (x₁ : (⟨1, ![n₁]⟩ : Shape).Idx → α) (x₂ : (⟨1, ![n₂]⟩ : Shape).Idx → α)
    (hc : Shape.Concatenates [(⟨1, ![n₁]⟩ : Shape), ⟨1, ![n₂]⟩] ⟨1, ![n]⟩ 0) (h : n₁ + n₂ = n) (e : Fin n₁) :
    concatenate (⟨1, ![n]⟩ : Shape) 0 [⟨⟨1, ![n₁]⟩, x₁⟩, ⟨⟨1, ![n₂]⟩, x₂⟩] hc (ix1 (inl h e)) = x₁ (ix1 e) :=
  concatenate_pair_apply_left (t := ⟨1, ![n]⟩) (s₁ := ⟨1, ![n₁]⟩) (s₂ := ⟨1, ![n₂]⟩) 0 x₁ x₂ hc (ix1 (inl h e)) rfl (ix1 e)
    (fun b => by
      match b with
      | ⟨0, _⟩ => rfl)

/-- THE JOIN READ IN ITS SECOND PIECE. -/
theorem join_inr (x₁ : (⟨1, ![n₁]⟩ : Shape).Idx → α) (x₂ : (⟨1, ![n₂]⟩ : Shape).Idx → α)
    (hc : Shape.Concatenates [(⟨1, ![n₁]⟩ : Shape), ⟨1, ![n₂]⟩] ⟨1, ![n]⟩ 0) (h : n₁ + n₂ = n) (j : Fin n₂) :
    concatenate (⟨1, ![n]⟩ : Shape) 0 [⟨⟨1, ![n₁]⟩, x₁⟩, ⟨⟨1, ![n₂]⟩, x₂⟩] hc (ix1 (inr h j)) = x₂ (ix1 j) :=
  concatenate_pair_apply_right (t := ⟨1, ![n]⟩) (s₁ := ⟨1, ![n₁]⟩) (s₂ := ⟨1, ![n₂]⟩) 0 x₁ x₂ hc (ix1 (inr h j)) rfl rfl (ix1 j)
    (fun b hb => by
      match b with
      | ⟨0, _⟩ => exact absurd rfl hb)
    (by show j.val + n₁ = n₁ + j.val; omega)

/-- A SUM OVER THE JOIN'S POSITIONS THAT SATISFY P, SPLIT INTO THE TWO PIECES. -/
theorem sum_filter_join {M : Type*} [AddCommMonoid M] (h : n₁ + n₂ = n) (P : Fin n → Prop) [DecidablePred P]
    (f : Fin n → M) :
    ∑ i ∈ Finset.univ.filter P, f i
      = ∑ e ∈ Finset.univ.filter (fun e : Fin n₁ => P (inl h e)), f (inl h e)
        + ∑ j ∈ Finset.univ.filter (fun j : Fin n₂ => P (inr h j)), f (inr h j) := by
  subst h
  rw [Finset.sum_filter, Fin.sum_univ_add, Finset.sum_filter, Finset.sum_filter]
  rfl

end Cert.JoinVec

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.LibScatterLast.lean ====
/-
  A scatter whose body returns the update, read at one index of its result.

  `Host.scatter d (fun _ b => b) x idx upd` is a left fold over the update positions in row-major order; each step
  overwrites the element its update lands on. Hence the result at `i` is the update at the LAST position landing on
  `i` (in row-major order), and the operand's element when no position lands on `i`.
-/
import Idealize.ShloMosaic.PureOps.ShapeOps

namespace Cert.Proof.LibScatter

open Idealize.ShloMosaic

section Fold
variable {κ ι α : Type} (g : κ → Option ι) (v : κ → α) (step : (ι → α) → κ → (ι → α))
  (hit : ∀ (r : ι → α) (n : κ) (i : ι), g n = some i → step r n i = v n)
  (miss : ∀ (r : ι → α) (n : κ) (i : ι), g n ≠ some i → step r n i = r i)

include miss in
/-- A fold of overwriting steps none of which lands on `i` leaves the element at `i`. -/
theorem foldl_miss (i : ι) : ∀ (l : List κ) (x : ι → α), (∀ n ∈ l, g n ≠ some i) → l.foldl step x i = x i := by
  intro l
  induction l with
  | nil => intro x _; rfl
  | cons a t ih =>
    intro x h
    rw [List.foldl_cons, ih (step x a) (fun n hn => h n (List.mem_cons_of_mem _ hn)), miss x a i (h a List.mem_cons_self)]

include hit miss in
/-- After the last step landing on `i`, the element at `i` is that step's update. -/
theorem foldl_last (i : ι) (l1 : List κ) (n0 : κ) (l2 : List κ) (x : ι → α) (h0 : g n0 = some i)
    (h2 : ∀ n ∈ l2, g n ≠ some i) : (l1 ++ n0 :: l2).foldl step x i = v n0 := by
  rw [List.foldl_append, List.foldl_cons, foldl_miss g step miss i l2 _ h2, hit _ n0 i h0]

end Fold

/-- The positions of `List.finRange N` after a given one are the larger ones. -/
theorem finRange_split {N : Nat} (n0 : Fin N) :
    ∃ l1 l2 : List (Fin N), List.finRange N = l1 ++ n0 :: l2 ∧ ∀ n ∈ l2, n0 < n := by
  obtain ⟨l1, l2, h⟩ := List.append_of_mem (List.mem_finRange n0)
  refine ⟨l1, l2, h, ?_⟩
  have hp : (List.finRange N).Pairwise (· < ·) := List.pairwise_lt_finRange N
  rw [h, List.pairwise_append] at hp
  exact fun n hn => (List.pairwise_cons.1 hp.2.1).1 n hn

section Scatter
variable {α : Type} {s si u : Shape} {w : Nat} (d : ScatterDims s si u) (x : s.Idx → α) (idx : IVec si w) (upd : u.Idx → α)

/-- No update position lands on `i`: the operand's element. -/
theorem scatter_set_miss (i : s.Idx) (h : ∀ j : u.Idx, d.resultIdx? j idx ≠ some i) :
    Host.scatter d (fun _ b => b) x idx upd i = x i := by
  unfold Host.scatter
  refine foldl_miss (fun n => d.resultIdx? (u.rowMajor.symm n) idx) _ ?_ i _ x (fun n _ => h _)
  intro r n i' hn
  generalize d.resultIdx? (u.rowMajor.symm n) idx = o at hn
  cases o with
  | none => rfl
  | some i'' =>
    show (if i' = i'' then _ else r i') = r i'
    rw [if_neg (fun e => hn (by rw [e]))]

/-- Position `j0` lands on `i` and no later position (in row-major order) does: the update at `j0`. -/
theorem scatter_set_last (i : s.Idx) (j0 : u.Idx) (h0 : d.resultIdx? j0 idx = some i)
    (hlast : ∀ j : u.Idx, u.rowMajor j0 < u.rowMajor j → d.resultIdx? j idx ≠ some i) :
    Host.scatter d (fun _ b => b) x idx upd i = upd j0 := by
  unfold Host.scatter
  obtain ⟨l1, l2, hl, hgt⟩ := finRange_split (u.rowMajor j0)
  rw [hl]
  refine (foldl_last (fun n => d.resultIdx? (u.rowMajor.symm n) idx) (fun n => upd (u.rowMajor.symm n)) _ ?_ ?_ i l1
    (u.rowMajor j0) l2 x (by rw [Equiv.symm_apply_apply]; exact h0) (fun n hn => hlast _ (by
      rw [Equiv.apply_symm_apply]; exact hgt n hn))).trans (by rw [Equiv.symm_apply_apply])
  · intro r n i' hn
    generalize d.resultIdx? (u.rowMajor.symm n) idx = o at hn
    cases o with
    | none => exact absurd hn (by simp)
    | some i'' =>
      have e : i' = i'' := (Option.some.inj hn).symm
      show (if i' = i'' then upd (u.rowMajor.symm n) else r i') = _
      rw [if_pos e]
  · intro r n i' hn
    generalize d.resultIdx? (u.rowMajor.symm n) idx = o at hn
    cases o with
    | none => rfl
    | some i'' =>
      show (if i' = i'' then _ else r i') = r i'
      rw [if_neg (fun e => hn (by rw [e]))]

end Scatter

end Cert.Proof.LibScatter
-- ==== Proof.HostOps.lean ====
/-
  The host's small operations of the weight computation, read at an index.

  Each layer's parameters are cut out of the parameter arrays by slices and reshapes; the rotation scale is a product of
  three (cos + sin) factors, the entangling weight a logistic spelt with a negation, an exponential, a sum and a quotient.
  The diagonal of a layer's entangling matrix is the vector (1 - w) with a 1 joined behind it; a vector is made a diagonal
  matrix by selecting it where the row number equals the column number, and the identity matrix is that test converted to
  a float. The weights above the diagonal are added by a scatter-add whose index pairs are (e, e + 1). The folded matrix
  is written into the first eight columns of a zero [16, 64] array by a scatter that replaces.
-/
import Idealize.ShloMosaic.Lib.Pipeline.Value
import Idealize.ShloMosaic.Lib.ValueIdx
import Idealize.ShloMosaic.Lib.IdealHost
import Idealize.ShloMosaic.PureOps.Ideal.Laws
import proofs.«115779_j15375982920210_2_alg».proof.Proof.Circuit
import proofs.«115779_j15375982920210_2_alg».proof.Proof.LibPlainDot
import proofs.«115779_j15375982920210_2_alg».proof.Proof.LibJoinVec
import proofs.«115779_j15375982920210_2_alg».proof.Proof.LibBroadcastInDim
import proofs.«115779_j15375982920210_2_alg».proof.Proof.LibScatterLast

noncomputable section

namespace Cert.HostOps

open Idealize.ShloMosaic Idealize.ShloMosaic.ValueIdx Cert.Circuit

abbrev S_ : Shape := ⟨0, ![]⟩
abbrev S1 : Shape := ⟨1, ![1]⟩
abbrev S7 : Shape := ⟨1, ![7]⟩
abbrev S8 : Shape := ⟨1, ![8]⟩
abbrev S1x7 : Shape := ⟨2, ![1, 7]⟩
abbrev S4x7 : Shape := ⟨2, ![4, 7]⟩
abbrev S8x1 : Shape := ⟨2, ![8, 1]⟩
abbrev S8x3 : Shape := ⟨2, ![8, 3]⟩
abbrev S8x8 : Shape := ⟨2, ![8, 8]⟩
abbrev S7x1 : Shape := ⟨2, ![7, 1]⟩
abbrev S7x2 : Shape := ⟨2, ![7, 2]⟩
abbrev S16x8 : Shape := ⟨2, ![16, 8]⟩
abbrev S16x64 : Shape := ⟨2, ![16, 64]⟩
abbrev S1x8x3 : Shape := ⟨3, ![1, 8, 3]⟩
abbrev S4x8x3 : Shape := ⟨3, ![4, 8, 3]⟩

/-! ## Cutting a layer's parameters out -/

/-- Layer l's [8, 3] slab of the rotation parameters. -/
theorem slab_apply {α : Type} (R : S4x8x3.Idx → α) (l : Fin 4) (q : Fin 8) (a : Fin 3)
    (hs : S4x8x3.Slices ![l.val, 0, 0] S1x8x3 := by decide) (hc : S1x8x3.ShapeCasts S8x3 := by decide) :
    shapeCast S8x3 (extractStridedSlice S1x8x3 ![l.val, 0, 0] R hs) hc (ix2 q a) = R (ix3 l q a) := by
  refine (shapeCast_apply _ hc (ix2 q a) (ix3 (0 : Fin 1) q a) ?_).trans ?_
  · rw [Shape.rowMajor_val_three, Shape.rowMajor_val_two]
    show ((0 : ℕ) * 8 + q.val) * 3 + a.val = q.val * 3 + a.val
    omega
  · exact extractStridedSlice_apply _ R hs _ (ix3 l q a) fun ax => by
      match ax with
      | ⟨0, _⟩ => exact (Nat.add_zero _).symm
      | ⟨1, _⟩ => exact (Nat.zero_add _).symm
      | ⟨2, _⟩ => exact (Nat.zero_add _).symm

/-- Column a of a slab, as a vector. -/
theorem col_apply {α : Type} (A : S8x3.Idx → α) (a : Fin 3) (q : Fin 8)
    (hs : S8x3.Slices ![0, a.val] S8x1 := by decide) (hc : S8x1.ShapeCasts S8 := by decide) :
    shapeCast S8 (extractStridedSlice S8x1 ![0, a.val] A hs) hc (ix1 q) = A (ix2 q a) := by
  refine (shapeCast_apply _ hc (ix1 q) (ix2 q (0 : Fin 1)) ?_).trans ?_
  · rw [Shape.rowMajor_val_two, Shape.rowMajor_val_one]
    show q.val * 1 + 0 = q.val
    omega
  · exact extractStridedSlice_apply _ A hs _ (ix2 q a) fun ax => by
      match ax with
      | ⟨0, _⟩ => exact (Nat.zero_add _).symm
      | ⟨1, _⟩ => exact (Nat.add_zero _).symm

/-- Layer l's row of the entangling parameters, as a vector. -/
theorem row_apply {α : Type} (E : S4x7.Idx → α) (l : Fin 4) (j : Fin 7)
    (hs : S4x7.Slices ![l.val, 0] S1x7 := by decide) (hc : S1x7.ShapeCasts S7 := by decide) :
    shapeCast S7 (extractStridedSlice S1x7 ![l.val, 0] E hs) hc (ix1 j) = E (ix2 l j) := by
  refine (shapeCast_apply _ hc (ix1 j) (ix2 (0 : Fin 1) j) ?_).trans ?_
  · rw [Shape.rowMajor_val_two, Shape.rowMajor_val_one]
    show (0 : ℕ) * 7 + j.val = j.val
    omega
  · exact extractStridedSlice_apply _ E hs _ (ix2 l j) fun ax => by
      match ax with
      | ⟨0, _⟩ => exact (Nat.add_zero _).symm
      | ⟨1, _⟩ => exact (Nat.zero_add _).symm

/-! ## The scale and the weight -/

/-- The product of three (cos + sin) factors at an entry. -/
theorem scale_of (c0 s0 c1 s1 c2 s2 : FVec Ideal S8 .f32) (q : Fin 8) (x0 x1 x2 : EReal)
    (hc0 : c0 (ix1 q) = x0) (hs0 : s0 (ix1 q) = x0) (hc1 : c1 (ix1 q) = x1) (hs1 : s1 (ix1 q) = x1)
    (hc2 : c2 (ix1 q) = x2) (hs2 : s2 (ix1 q) = x2) :
    mulf (mulf (addf (Host.cos c0) (Host.sin s0)) (addf (Host.cos c1) (Host.sin s1))) (addf (Host.cos c2) (Host.sin s2)) (ix1 q)
      = (Ideal.cos x0 + Ideal.sin x0) * (Ideal.cos x1 + Ideal.sin x1) * (Ideal.cos x2 + Ideal.sin x2) := by
  show (Ideal.cos (c0 (ix1 q)) + Ideal.sin (s0 (ix1 q))) * (Ideal.cos (c1 (ix1 q)) + Ideal.sin (s1 (ix1 q)))
      * (Ideal.cos (c2 (ix1 q)) + Ideal.sin (s2 (ix1 q))) = _
  rw [hc0, hs0, hc1, hs1, hc2, hs2]

/-- The float word 0x3F800000 spread over a shape is 1 everywhere. -/
theorem ones_apply {t : Shape} (h : S_.BroadcastsInDim t ![]) (j : t.Idx) :
    broadcastInDim t ![] h (constant (F := Ideal) S_ .f32 0x3F800000#32) j = (1 : EReal) := by
  rw [broadcastInDim_scalar_apply]
  exact Ideal.ofBits_one_f32

/-- The float word 0 spread over a shape is 0 everywhere. -/
theorem zeros_apply {t : Shape} (h : S_.BroadcastsInDim t ![]) (j : t.Idx) :
    broadcastInDim t ![] h (constant (F := Ideal) S_ .f32 0x00000000#32) j = (0 : EReal) := by
  rw [broadcastInDim_scalar_apply]
  exact Ideal.ofBits_zero_f32

/-- The logistic, spelt 1 / (1 + exp (-x)), at an entry. -/
theorem gate_of (g : FVec Ideal S7 .f32) (j : Fin 7) (x : EReal) (hg : g (ix1 j) = x)
    (hb : S_.BroadcastsInDim S7 ![] := by decide) (hb' : S_.BroadcastsInDim S7 ![] := by decide) :
    Host.divf (broadcastInDim S7 ![] hb (constant (F := Ideal) S_ .f32 0x3F800000#32))
        (addf (broadcastInDim S7 ![] hb' (constant (F := Ideal) S_ .f32 0x3F800000#32)) (Host.exp (Host.negf g))) (ix1 j)
      = Ideal.div 1 (1 + Ideal.exp (-x)) := by
  show Ideal.div (broadcastInDim S7 ![] hb (constant (F := Ideal) S_ .f32 0x3F800000#32) (ix1 j))
      (broadcastInDim S7 ![] hb' (constant (F := Ideal) S_ .f32 0x3F800000#32) (ix1 j) + Ideal.exp (-(g (ix1 j)))) = _
  rw [ones_apply, hg]

/-! ## The diagonal of the entangling matrix: (1 - w) with a 1 joined behind -/

/-- A vector of length 7 and a vector of length 1 joined end to end. -/
def joinVec {α : Type} (h : Shape.Concatenates [S7, S1] S8 0) (a : S7.Idx → α) (b : S1.Idx → α) : S8.Idx → α :=
  concatenate S8 0 [⟨S7, a⟩, ⟨S1, b⟩] h

theorem joinVec_def {α : Type} (h : Shape.Concatenates [S7, S1] S8 0) (a : S7.Idx → α) (b : S1.Idx → α) :
    concatenate S8 0 [⟨S7, a⟩, ⟨S1, b⟩] h = joinVec h a b := rfl

theorem dmain_of (g : FVec Ideal S7 .f32) (w : Fin 7 → EReal) (hg : ∀ j, g (ix1 j) = w j) (i : Fin 8)
    (h : Shape.Concatenates [S7, S1] S8 0 := by decide) (hb : S_.BroadcastsInDim S7 ![] := by decide)
    (hb1 : S_.BroadcastsInDim S1 ![] := by decide) :
    joinVec h (subf (broadcastInDim S7 ![] hb (constant (F := Ideal) S_ .f32 0x3F800000#32)) g)
        (broadcastInDim S1 ![] hb1 (constant (F := Ideal) S_ .f32 0x3F800000#32)) (ix1 i) = dmain w i := by
  unfold joinVec dmain
  by_cases hi : i.val < 7
  · have e : (ix1 i : S8.Idx) = ix1 (Cert.JoinVec.inl (by norm_num : 7 + 1 = 8) (low i hi)) := congrArg ix1 (Fin.ext rfl)
    rw [e, Cert.JoinVec.join_inl, dif_pos hi]
    show broadcastInDim S7 ![] hb (constant (F := Ideal) S_ .f32 0x3F800000#32) (ix1 (low i hi)) - g (ix1 (low i hi)) = _
    rw [ones_apply, hg]
  · have e : (ix1 i : S8.Idx) = ix1 (Cert.JoinVec.inr (by norm_num : 7 + 1 = 8) (0 : Fin 1)) :=
      congrArg ix1 (Fin.ext (by show i.val = 7 + 0; have := i.isLt; omega))
    rw [e, Cert.JoinVec.join_inr, dif_neg hi, ones_apply]

/-- A pad by nothing is the vector. -/
theorem pad_id {α : Type} (x : S8.Idx → α) {u : Shape} (v : u.Idx → α) (hp : S8.Pads ![0] ![0] ![0] S8 := by decide)
    (hu : 0 < u.numel := by decide) :
    pad S8 ![0] ![0] ![0] x v hp hu = x := by
  funext j
  unfold pad
  rw [dif_pos (fun a => by
    match a with
    | ⟨0, _⟩ =>
      refine ⟨Nat.zero_le _, Nat.mod_one _, ?_⟩
      show ((j 0).val - 0) / (0 + 1) < 8
      have := (j 0).isLt
      simp only [Nat.sub_zero, Nat.zero_add, Nat.div_one]
      exact this)]
  refine congrArg x (funext fun a => Fin.ext ?_)
  match a with
  | ⟨0, _⟩ =>
    show ((j 0).val - 0) / (0 + 1) = (j 0).val
    simp only [Nat.sub_zero, Nat.zero_add, Nat.div_one]

/-! ## A vector as a diagonal matrix, and the identity matrix -/

/-- The test "row number = column number" of an 8×8 array, as a bit. -/
theorem eq_bit (i j : Fin 8) (hb0 : S_.BroadcastsInDim S8x8 ![] := by decide) :
    cmpi .eq (addi (iotaInDim S8x8 32 0) (broadcastInDim S8x8 ![] hb0 (constantI S_ 32 0#32))) (iotaInDim S8x8 32 1) (ix2 i j)
      = if i = j then 1#1 else 0#1 := by
  show IntOp.cmpi .eq (IntOp.addi (BitVec.ofNat 32 i.val) (broadcastInDim S8x8 ![] hb0 (constantI S_ 32 0#32) (ix2 i j)))
      (BitVec.ofNat 32 j.val) = _
  rw [broadcastInDim_scalar_apply]
  show IntOp.cmpi .eq (IntOp.addi (BitVec.ofNat 32 i.val) 0#32) (BitVec.ofNat 32 j.val) = _
  revert i j
  decide

theorem diag_of (v : FVec Ideal S8 .f32) (d : Fin 8 → EReal) (hv : ∀ q, v (ix1 q) = d q) (i j : Fin 8)
    (hb0 : S_.BroadcastsInDim S8x8 ![] := by decide) (hb1 : S8.BroadcastsInDim S8x1 ![0] := by decide)
    (hb2 : S8x1.BroadcastsInDim S8x8 ![0, 1] := by decide) (hb3 : S_.BroadcastsInDim S8x8 ![] := by decide) :
    select (cmpi .eq (addi (iotaInDim S8x8 32 0) (broadcastInDim S8x8 ![] hb0 (constantI S_ 32 0#32))) (iotaInDim S8x8 32 1))
        (broadcastInDim S8x8 ![0, 1] hb2 (broadcastInDim S8x1 ![0] hb1 v))
        (broadcastInDim S8x8 ![] hb3 (constant (F := Ideal) S_ .f32 0x00000000#32)) (ix2 i j) = diag d i j := by
  rw [select_apply, eq_bit i j hb0]
  unfold diag
  by_cases h : i = j
  · rw [if_pos h, if_pos h, select_one, Cert.LibBroadcastInDim.col_to_mat_apply _ rfl rfl,
      Cert.LibBroadcastInDim.vec_to_col_apply _ rfl, hv]
  · rw [if_neg h, if_neg h, select_zero, zeros_apply]

theorem eye_of (i j : Fin 8) (hb0 : S_.BroadcastsInDim S8x8 ![] := by decide) :
    uitofp (F := Ideal) .f32
        (cmpi .eq (addi (iotaInDim S8x8 32 0) (broadcastInDim S8x8 ![] hb0 (constantI S_ 32 0#32))) (iotaInDim S8x8 32 1)) (ix2 i j)
      = eye i j := by
  show FloatOps.uitofp (F := Ideal) .f32
      (cmpi .eq (addi (iotaInDim S8x8 32 0) (broadcastInDim S8x8 ![] hb0 (constantI S_ 32 0#32))) (iotaInDim S8x8 32 1) (ix2 i j)) = _
  rw [eq_bit i j hb0]
  unfold eye
  by_cases h : i = j
  · rw [if_pos h, if_pos h]
    show (((1#1 : BitVec 1).toNat : ℝ) : EReal) = 1
    simp
  · rw [if_neg h, if_neg h]
    show (((0#1 : BitVec 1).toNat : ℝ) : EReal) = 0
    simp

/-! ## Products -/

theorem dot8_of (A B : FVec Ideal S8x8 .f32) (a b : Fin 8 → Fin 8 → EReal) (ha : ∀ i j, A (ix2 i j) = a i j)
    (hb : ∀ i j, B (ix2 i j) = b i j) (d : DotDims S8x8 S8x8 S8x8) (hd : d = DotDims.plain 8 8 8) (i k : Fin 8) :
    Host.dotGeneral d none A B (ix2 i k) = mul8 a b i k := by
  subst hd
  rw [Cert.LibPlainDot.hostDot_apply]
  unfold mul8
  exact Finset.sum_congr rfl fun j _ => by rw [ha, hb]

theorem dot16_of (P : FVec Ideal S16x8 .f32) (M : FVec Ideal S8x8 .f32) (f : Fin 8 → Fin 8 → EReal)
    (hM : ∀ j k, M (ix2 j k) = f j k) (d : DotDims S16x8 S8x8 S16x8) (hd : d = DotDims.plain 16 8 8) (o : Fin 16) (k : Fin 8) :
    Host.dotGeneral d none P M (ix2 o k) = ∑ j : Fin 8, P (ix2 o j) * f j k := by
  subst hd
  rw [Cert.LibPlainDot.hostDot_apply]
  exact Finset.sum_congr rfl fun j _ => by rw [hM]

/-! ## The weights above the diagonal: a scatter-add at the index pairs (e, e + 1) -/

/-- The dimension numbers of the scatter-add: every update is one element, its index pair (row, column). -/
def entDims : ScatterDims S8x8 S7x2 S7 where
  updateWindowDims := []
  insertedWindowDims := [0, 1]
  scatterDimsToOperandDims := [0, 1]
  indexVectorDim := 1

/-- The index normalisation (a negative index word gets the extent 8 added) of the word e is e. -/
theorem wrap0 (e : Fin 7) (hb : S_.BroadcastsInDim S7 ![] := by decide) (hb8 : S_.BroadcastsInDim S7 ![] := by decide) :
    select (cmpi .slt (iotaInDim S7 32 0) (broadcastInDim S7 ![] hb (constantI S_ 32 0#32)))
        (addi (iotaInDim S7 32 0) (broadcastInDim S7 ![] hb8 (constantI S_ 32 8#32))) (iotaInDim S7 32 0) (ix1 e)
      = BitVec.ofNat 32 e.val := by
  show Scalar.select (IntOp.cmpi .slt (BitVec.ofNat 32 e.val) (broadcastInDim S7 ![] hb (constantI S_ 32 0#32) (ix1 e)))
      (IntOp.addi (BitVec.ofNat 32 e.val) (broadcastInDim S7 ![] hb8 (constantI S_ 32 8#32) (ix1 e))) (BitVec.ofNat 32 e.val) = _
  rw [broadcastInDim_scalar_apply, broadcastInDim_scalar_apply]
  show Scalar.select (IntOp.cmpi .slt (BitVec.ofNat 32 e.val) 0#32) (IntOp.addi (BitVec.ofNat 32 e.val) 8#32)
      (BitVec.ofNat 32 e.val) = _
  revert e
  decide

/-- The same of the word 1 + e is e + 1. -/
theorem wrap1 (e : Fin 7) (hb1 : S_.BroadcastsInDim S7 ![] := by decide) (hb : S_.BroadcastsInDim S7 ![] := by decide)
    (hb8 : S_.BroadcastsInDim S7 ![] := by decide) :
    select (cmpi .slt (addi (broadcastInDim S7 ![] hb1 (constantI S_ 32 1#32)) (iotaInDim S7 32 0))
          (broadcastInDim S7 ![] hb (constantI S_ 32 0#32)))
        (addi (addi (broadcastInDim S7 ![] hb1 (constantI S_ 32 1#32)) (iotaInDim S7 32 0))
          (broadcastInDim S7 ![] hb8 (constantI S_ 32 8#32)))
        (addi (broadcastInDim S7 ![] hb1 (constantI S_ 32 1#32)) (iotaInDim S7 32 0)) (ix1 e)
      = BitVec.ofNat 32 (e.val + 1) := by
  show Scalar.select (IntOp.cmpi .slt (IntOp.addi (broadcastInDim S7 ![] hb1 (constantI S_ 32 1#32) (ix1 e)) (BitVec.ofNat 32 e.val))
        (broadcastInDim S7 ![] hb (constantI S_ 32 0#32) (ix1 e)))
      (IntOp.addi (IntOp.addi (broadcastInDim S7 ![] hb1 (constantI S_ 32 1#32) (ix1 e)) (BitVec.ofNat 32 e.val))
        (broadcastInDim S7 ![] hb8 (constantI S_ 32 8#32) (ix1 e)))
      (IntOp.addi (broadcastInDim S7 ![] hb1 (constantI S_ 32 1#32) (ix1 e)) (BitVec.ofNat 32 e.val)) = _
  rw [broadcastInDim_scalar_apply, broadcastInDim_scalar_apply, broadcastInDim_scalar_apply]
  show Scalar.select (IntOp.cmpi .slt (IntOp.addi 1#32 (BitVec.ofNat 32 e.val)) 0#32)
      (IntOp.addi (IntOp.addi 1#32 (BitVec.ofNat 32 e.val)) 8#32) (IntOp.addi 1#32 (BitVec.ofNat 32 e.val)) = _
  revert e
  decide

/-- Two index columns joined side by side. -/
def joinIdx {α : Type} (h : Shape.Concatenates [S7x1, S7x1] S7x2 1) (a b : S7x1.Idx → α) : S7x2.Idx → α :=
  concatenate S7x2 1 [⟨S7x1, a⟩, ⟨S7x1, b⟩] h

theorem joinIdx_def {α : Type} (h : Shape.Concatenates [S7x1, S7x1] S7x2 1) (a b : S7x1.Idx → α) :
    concatenate S7x2 1 [⟨S7x1, a⟩, ⟨S7x1, b⟩] h = joinIdx h a b := rfl

theorem joinIdx_left {α : Type} (h : Shape.Concatenates [S7x1, S7x1] S7x2 1) (a b : S7x1.Idx → α) (e : Fin 7) :
    joinIdx h a b (ix2 e (0 : Fin 2)) = a (ix2 e (0 : Fin 1)) :=
  concatenate_pair_apply_left (t := S7x2) (s₁ := S7x1) (s₂ := S7x1) 1 a b h (ix2 e (0 : Fin 2)) rfl (ix2 e (0 : Fin 1))
    (fun ax => by
      match ax with
      | ⟨0, _⟩ => rfl
      | ⟨1, _⟩ => rfl)

theorem joinIdx_right {α : Type} (h : Shape.Concatenates [S7x1, S7x1] S7x2 1) (a b : S7x1.Idx → α) (e : Fin 7) :
    joinIdx h a b (ix2 e (1 : Fin 2)) = b (ix2 e (0 : Fin 1)) :=
  concatenate_pair_apply_right (t := S7x2) (s₁ := S7x1) (s₂ := S7x1) 1 a b h (ix2 e (1 : Fin 2)) rfl rfl (ix2 e (0 : Fin 1))
    (fun ax hax => by
      match ax with
      | ⟨0, _⟩ => rfl
      | ⟨1, _⟩ => exact absurd rfl hax)
    rfl

/-- The index pairs (e, e + 1), as the host builds them. -/
theorem pairs_left (x y : IVec S7 32) (e : Fin 7) (h : Shape.Concatenates [S7x1, S7x1] S7x2 1 := by decide)
    (hc : S7.BroadcastsInDim S7x1 ![0] := by decide) (hc' : S7.BroadcastsInDim S7x1 ![0] := by decide) : joinIdx h (broadcastInDim S7x1 ![0] hc x) (broadcastInDim S7x1 ![0] hc' y) (ix2 e (0 : Fin 2)) = x (ix1 e) := by
  rw [joinIdx_left, Cert.LibBroadcastInDim.vec_to_col_apply _ rfl]

theorem pairs_right (x y : IVec S7 32) (e : Fin 7) (h : Shape.Concatenates [S7x1, S7x1] S7x2 1 := by decide)
    (hc : S7.BroadcastsInDim S7x1 ![0] := by decide) (hc' : S7.BroadcastsInDim S7x1 ![0] := by decide) : joinIdx h (broadcastInDim S7x1 ![0] hc x) (broadcastInDim S7x1 ![0] hc' y) (ix2 e (1 : Fin 2)) = y (ix1 e) := by
  rw [joinIdx_right, Cert.LibBroadcastInDim.vec_to_col_apply _ rfl]

theorem toInt_word (e : Fin 7) : (BitVec.ofNat 32 e.val).toInt = (e.val : Int) := by
  revert e; decide

theorem toInt_word_succ (e : Fin 7) : (BitVec.ofNat 32 (e.val + 1)).toInt = ((e.val + 1 : ℕ) : Int) := by
  revert e; decide

/-- Update e lands on (e, e + 1). -/
theorem ent_lands (idx : IVec S7x2 32) (h0 : ∀ e : Fin 7, idx (ix2 e (0 : Fin 2)) = BitVec.ofNat 32 e.val)
    (h1 : ∀ e : Fin 7, idx (ix2 e (1 : Fin 2)) = BitVec.ofNat 32 (e.val + 1)) (e : Fin 7) :
    entDims.resultIdx? (ix1 e) idx = some (ix2 e.castSucc e.succ) := by
  have m0 : (0 : Fin 2) ∈ entDims.scatterDimsToOperandDims := List.mem_cons_self
  have m1 : (1 : Fin 2) ∈ entDims.scatterDimsToOperandDims := List.mem_cons_of_mem _ (List.mem_singleton.mpr rfl)
  have hsi0 : entDims.siIdx (ix1 e) ⟨List.idxOf (0 : Fin 2) entDims.scatterDimsToOperandDims,
      List.idxOf_lt_length_iff.2 m0⟩ = ix2 e (0 : Fin 2) := by
    funext b; refine Fin.ext ?_
    match b with
    | ⟨0, _⟩ => rfl
    | ⟨1, _⟩ => rfl
  have hsi1 : entDims.siIdx (ix1 e) ⟨List.idxOf (1 : Fin 2) entDims.scatterDimsToOperandDims,
      List.idxOf_lt_length_iff.2 m1⟩ = ix2 e (1 : Fin 2) := by
    funext b; refine Fin.ext ?_
    match b with
    | ⟨0, _⟩ => rfl
    | ⟨1, _⟩ => rfl
  have hs0 : entDims.start (ix1 e) idx (0 : Fin 2) = (e.val : Int) := by
    unfold ScatterDims.start
    rw [dif_pos m0, hsi0, h0]
    exact toInt_word e
  have hs1 : entDims.start (ix1 e) idx (1 : Fin 2) = ((e.val + 1 : ℕ) : Int) := by
    unfold ScatterDims.start
    rw [dif_pos m1, hsi1, h1]
    exact toInt_word_succ e
  have hw : ∀ a : Fin 2, entDims.window (ix1 e) a = 0 := fun a => by
    unfold ScatterDims.window
    rw [dif_neg (show ¬ a ∈ entDims.sKept from by
      revert a; decide)]
  have hin : ∀ a : Fin 2, 0 ≤ entDims.start (ix1 e) idx a + entDims.window (ix1 e) a ∧
      entDims.start (ix1 e) idx a + entDims.window (ix1 e) a < S8x8.size a := fun a => by
    have := e.isLt
    match a with
    | ⟨0, _⟩ =>
      show 0 ≤ entDims.start (ix1 e) idx 0 + ((entDims.window (ix1 e) 0 : ℕ) : Int) ∧
        entDims.start (ix1 e) idx 0 + ((entDims.window (ix1 e) 0 : ℕ) : Int) < ((8 : ℕ) : Int)
      rw [hw, hs0]; omega
    | ⟨1, _⟩ =>
      show 0 ≤ entDims.start (ix1 e) idx 1 + ((entDims.window (ix1 e) 1 : ℕ) : Int) ∧
        entDims.start (ix1 e) idx 1 + ((entDims.window (ix1 e) 1 : ℕ) : Int) < ((8 : ℕ) : Int)
      rw [hw, hs1]; omega
  unfold ScatterDims.resultIdx?
  rw [dif_pos hin]
  refine congrArg some (funext fun a => Fin.ext ?_)
  match a with
  | ⟨0, _⟩ =>
    show (entDims.start (ix1 e) idx 0 + ((entDims.window (ix1 e) 0 : ℕ) : Int)).toNat = e.val
    rw [hw, hs0]; simp
  | ⟨1, _⟩ =>
    show (entDims.start (ix1 e) idx 1 + ((entDims.window (ix1 e) 1 : ℕ) : Int)).toNat = e.val + 1
    rw [hw, hs1]; simp

/-- THE ENTANGLING MATRIX: the scatter-add of the weights at the pairs (e, e + 1) onto a diagonal matrix. -/
theorem ent_of (D : FVec Ideal S8x8 .f32) (g : FVec Ideal S7 .f32) (idx : IVec S7x2 32) (dm : Fin 8 → EReal)
    (w : Fin 7 → EReal) (hD : ∀ i j, D (ix2 i j) = diag dm i j) (hg : ∀ e, g (ix1 e) = w e)
    (h0 : ∀ e : Fin 7, idx (ix2 e (0 : Fin 2)) = BitVec.ofNat 32 e.val)
    (h1 : ∀ e : Fin 7, idx (ix2 e (1 : Fin 2)) = BitVec.ofNat 32 (e.val + 1))
    (d : ScatterDims S8x8 S7x2 S7) (hd : d = entDims) (i j : Fin 8) :
    Host.scatterAdd d D idx g (ix2 i j)
      = diag dm i j + ∑ e ∈ Finset.univ.filter (fun e : Fin 7 => e.val = i.val ∧ e.val + 1 = j.val), w e := by
  subst hd
  show D (ix2 i j) + ∑ u ∈ Finset.univ.filter (fun u : S7.Idx => entDims.resultIdx? u idx = some (ix2 i j)), g u = _
  rw [hD]
  congr 1
  refine Finset.sum_bij (fun u _ => (u 0 : Fin 7)) ?_ ?_ ?_ ?_
  · intro u hu
    obtain ⟨e, rfl⟩ : ∃ e : Fin 7, u = ix1 e := ⟨u 0, eq_ix1 u⟩
    have hu' := (Finset.mem_filter.mp hu).2
    rw [ent_lands idx h0 h1 e] at hu'
    have ee := Option.some.inj hu'
    refine Finset.mem_filter.mpr ⟨Finset.mem_univ _, ?_, ?_⟩
    · exact congrArg (fun f : S8x8.Idx => (f 0).val) ee
    · exact congrArg (fun f : S8x8.Idx => (f 1).val) ee
  · intro u _ u' _ huu
    obtain ⟨e, rfl⟩ : ∃ e : Fin 7, u = ix1 e := ⟨u 0, eq_ix1 u⟩
    obtain ⟨e', rfl⟩ : ∃ e : Fin 7, u' = ix1 e := ⟨u' 0, eq_ix1 u'⟩
    exact congrArg ix1 huu
  · intro e he
    have he' := (Finset.mem_filter.mp he).2
    refine ⟨ix1 e, Finset.mem_filter.mpr ⟨Finset.mem_univ _, ?_⟩, rfl⟩
    rw [ent_lands idx h0 h1 e]
    refine congrArg some (funext fun a => Fin.ext ?_)
    match a with
    | ⟨0, _⟩ => exact he'.1
    | ⟨1, _⟩ => exact he'.2
  · intro u _
    obtain ⟨e, rfl⟩ : ∃ e : Fin 7, u = ix1 e := ⟨u 0, eq_ix1 u⟩
    exact hg e

/-! ## Writing the folded matrix into the first eight columns of a zero array -/

/-- The dimension numbers of the replacing scatter: the one update window is the whole [16, 8] matrix, its start column
    the one index word. -/
def padDims : ScatterDims S16x64 S1 S16x8 where
  updateWindowDims := [0, 1]
  insertedWindowDims := []
  scatterDimsToOperandDims := [1]
  indexVectorDim := 0

/-- Column q < 8 among the 64. -/
def col64 (q : Fin 8) : Fin 64 := ⟨q.val, by omega⟩

/-- Update (o, q) lands on (o, q). -/
theorem pad_lands (idx : IVec S1 32) (hi : idx (ix1 (0 : Fin 1)) = 0#32) (o : Fin 16) (q : Fin 8) :
    padDims.resultIdx? (ix2 o q) idx = some (ix2 o (col64 q)) := by
  have m1 : (1 : Fin 2) ∈ padDims.scatterDimsToOperandDims := List.mem_singleton.mpr rfl
  have hsi : padDims.siIdx (ix2 o q) ⟨List.idxOf (1 : Fin 2) padDims.scatterDimsToOperandDims,
      List.idxOf_lt_length_iff.2 m1⟩ = ix1 (0 : Fin 1) := by
    funext b; refine Fin.ext ?_
    match b with
    | ⟨0, _⟩ => rfl
  have hs0 : padDims.start (ix2 o q) idx (0 : Fin 2) = 0 := by
    unfold ScatterDims.start
    rw [dif_neg (show ¬ (0 : Fin 2) ∈ padDims.scatterDimsToOperandDims from by decide)]
  have hs1 : padDims.start (ix2 o q) idx (1 : Fin 2) = 0 := by
    unfold ScatterDims.start
    rw [dif_pos m1, hsi, hi]
    rfl
  have hw0 : padDims.window (ix2 o q) (0 : Fin 2) = o.val := by
    unfold ScatterDims.window
    rw [dif_pos (show (0 : Fin 2) ∈ padDims.sKept from by decide)]
    rfl
  have hw1 : padDims.window (ix2 o q) (1 : Fin 2) = q.val := by
    unfold ScatterDims.window
    rw [dif_pos (show (1 : Fin 2) ∈ padDims.sKept from by decide)]
    rfl
  have hin : ∀ a : Fin 2, 0 ≤ padDims.start (ix2 o q) idx a + padDims.window (ix2 o q) a ∧
      padDims.start (ix2 o q) idx a + padDims.window (ix2 o q) a < S16x64.size a := fun a => by
    have := o.isLt
    have := q.isLt
    match a with
    | ⟨0, _⟩ =>
      show 0 ≤ padDims.start (ix2 o q) idx 0 + ((padDims.window (ix2 o q) 0 : ℕ) : Int) ∧
        padDims.start (ix2 o q) idx 0 + ((padDims.window (ix2 o q) 0 : ℕ) : Int) < ((16 : ℕ) : Int)
      rw [hw0, hs0]; omega
    | ⟨1, _⟩ =>
      show 0 ≤ padDims.start (ix2 o q) idx 1 + ((padDims.window (ix2 o q) 1 : ℕ) : Int) ∧
        padDims.start (ix2 o q) idx 1 + ((padDims.window (ix2 o q) 1 : ℕ) : Int) < ((64 : ℕ) : Int)
      rw [hw1, hs1]; omega
  unfold ScatterDims.resultIdx?
  rw [dif_pos hin]
  refine congrArg some (funext fun a => Fin.ext ?_)
  match a with
  | ⟨0, _⟩ =>
    show (padDims.start (ix2 o q) idx 0 + ((padDims.window (ix2 o q) 0 : ℕ) : Int)).toNat = o.val
    rw [hw0, hs0]; simp
  | ⟨1, _⟩ =>
    show (padDims.start (ix2 o q) idx 1 + ((padDims.window (ix2 o q) 1 : ℕ) : Int)).toNat = q.val
    rw [hw1, hs1]; simp

/-- THE PADDED MATRIX: the first eight columns hold the written matrix, the rest stay zero. -/
theorem pad_of (W : FVec Ideal S16x8 .f32) (f : Fin 16 → Fin 8 → EReal) (hW : ∀ o q, W (ix2 o q) = f o q)
    (idx : IVec S1 32) (hi : idx (ix1 (0 : Fin 1)) = 0#32) (Z : FVec Ideal S16x64 .f32) (hZ : ∀ i, Z i = 0)
    (d : ScatterDims S16x64 S1 S16x8) (hd : d = padDims) (o : Fin 16) (k : Fin 64) :
    Host.scatter d (fun _ b => b) Z idx W (ix2 o k) = if h : k.val < 8 then f o ⟨k.val, h⟩ else 0 := by
  subst hd
  by_cases h : k.val < 8
  · rw [dif_pos h]
    refine (Cert.Proof.LibScatter.scatter_set_last padDims Z idx W (ix2 o k) (ix2 o (⟨k.val, h⟩ : Fin 8)) ?_ ?_).trans (hW _ _)
    · rw [pad_lands idx hi]
      exact congrArg some (congrArg (ix2 o) (Fin.ext rfl))
    · intro j hlt hj
      obtain ⟨o', q', rfl⟩ : ∃ (o' : Fin 16) (q' : Fin 8), j = ix2 o' q' := ⟨j 0, j 1, eq_ix2 j⟩
      rw [pad_lands idx hi] at hj
      have e := Option.some.inj hj
      have e0 : o'.val = o.val := congrArg (fun f : S16x64.Idx => (f 0).val) e
      have e1 : q'.val = k.val := congrArg (fun f : S16x64.Idx => (f 1).val) e
      obtain rfl : o' = o := Fin.ext e0
      obtain rfl : q' = ⟨k.val, h⟩ := Fin.ext e1
      exact lt_irrefl _ hlt
  · rw [dif_neg h]
    refine (Cert.Proof.LibScatter.scatter_set_miss padDims Z idx W (ix2 o k) ?_).trans (hZ _)
    intro j hj
    obtain ⟨o', q', rfl⟩ : ∃ (o' : Fin 16) (q' : Fin 8), j = ix2 o' q' := ⟨j 0, j 1, eq_ix2 j⟩
    rw [pad_lands idx hi] at hj
    have e1 : q'.val = k.val := congrArg (fun f : S16x64.Idx => (f 1).val) (Option.some.inj hj)
    have := q'.isLt
    omega

end Cert.HostOps

end
-- ==== Proof.HostRead.lean ====
/-
  What the region finds in its three operand arrays.

  Before the region the host computes, from the parameter arrays, the padded weight matrix (383 operations: per layer
  the scale vector, the weight vector, the entangling matrix by a scatter-add onto a diagonal matrix, its product with
  the diagonal matrix of the scales, the product with the layers before; then the projection's product and the write
  into a zero [16, 64] array), the bias as a column, and the input flattened to rows. Read at an index these are the
  padded folded matrix of the circuit, the bias entry, and the input entry.
-/
import proofs.«115779_j15375982920210_2_alg».proof.Proof.Gen.KernelIdeal.Frame
import proofs.«115779_j15375982920210_2_alg».proof.Proof.LibStretches
import proofs.«115779_j15375982920210_2_alg».proof.Proof.LibFlattenRows
import proofs.«115779_j15375982920210_2_alg».proof.Proof.HostOps
import Idealize.ShloMosaic.Lib.StableHlo.Run
import Idealize.ShloMosaic.PureOps.Ideal

set_option maxRecDepth 16384

noncomputable section

namespace Cert.HostRead

open Idealize.ShloMosaic Idealize.ShloMosaic.TcCoe Idealize.SL.Sem Idealize.ShloMosaic.StableHlo
open Idealize.ShloMosaic.ValueIdx
open Cert.KernelIdeal Cert.KernelIdeal.Gen Cert.Circuit Cert.HostOps

variable (m : (ℓ : Loc nD τ sig) → Buf (Elt Ideal) ℓ)

/-- The five argument arrays of core c as launched. -/
abbrev argX (c : Dev nD) : Cert.KernelIdeal.S64x8192x64.Idx → EReal := m ((c : Thread nD τ).loc main_arg0)
abbrev argR (c : Dev nD) : Cert.KernelIdeal.S4x8x3.Idx → EReal := m ((c : Thread nD τ).loc main_arg1)
abbrev argE (c : Dev nD) : Cert.KernelIdeal.S4x7.Idx → EReal := m ((c : Thread nD τ).loc main_arg2)
abbrev argP (c : Dev nD) : Cert.KernelIdeal.S16x8.Idx → EReal := m ((c : Thread nD τ).loc main_arg3)
abbrev argB (c : Dev nD) : Cert.KernelIdeal.S16.Idx → EReal := m ((c : Thread nD τ).loc main_arg4)

set_option maxHeartbeats 4000000 in
/-- The input flattened to rows. -/
theorem table_eq (c : Dev nD) :
    (V m c main_call0_v247 : Cert.KernelIdeal.S524288x64.Idx → EReal)
      = shapeCast _ (argX m c) shapeCasts_S64x8192x64_S524288x64 := by
  dsimp only [Gen.V, Gen.V0]
  simp only [Gen.hostOps0, List.flatten_cons, List.flatten_nil, List.append_nil, List.cons_append, List.nil_append]
  after_results_simp
  rfl

theorem table_apply (c : Dev nD) (b : Fin 64) (s : Fin 8192) (k : Fin 64) :
    (V m c main_call0_v247 : Cert.KernelIdeal.S524288x64.Idx → EReal)
        (ix2 (Cert.LibFlattenRows.flatRow (by norm_num : 64 * 8192 = 524288) b s) k) = argX m c (ix3 b s k) := by
  rw [table_eq]
  exact Cert.LibFlattenRows.flatten_apply (by norm_num : 64 * 8192 = 524288) (argX m c) _ b s k

set_option maxHeartbeats 4000000 in
/-- The bias as a column. -/
theorem bias_eq (c : Dev nD) :
    (V m c main_call0_v246 : Cert.KernelIdeal.S16x1.Idx → EReal) = shapeCast _ (argB m c) shapeCasts_S16_S16x1 := by
  dsimp only [Gen.V, Gen.V0]
  simp only [Gen.hostOps0, List.flatten_cons, List.flatten_nil, List.append_nil, List.cons_append, List.nil_append]
  after_results_simp
  rfl

theorem bias_apply (c : Dev nD) (o : Fin 16) :
    (V m c main_call0_v246 : Cert.KernelIdeal.S16x1.Idx → EReal) (ix2 o (0 : Fin 1)) = argB m c (ix1 o) := by
  rw [bias_eq]
  refine shapeCast_apply _ _ (ix2 o (0 : Fin 1)) (ix1 o) ?_
  rw [Shape.rowMajor_val_two, Shape.rowMajor_val_one]
  show o.val = o.val * 1 + 0
  omega

/-! ## The weight array -/

/-- One layer's scale vector at an entry: three columns of the layer's slab of the rotation parameters. -/
macro "read_scale" R:term "," l:term "," q:ident : tactic =>
  `(tactic| exact scale_of _ _ _ _ _ _ $q _ _ _
      ((col_apply _ 0 $q).trans (slab_apply $R $l $q 0)) ((col_apply _ 0 $q).trans (slab_apply $R $l $q 0))
      ((col_apply _ 1 $q).trans (slab_apply $R $l $q 1)) ((col_apply _ 1 $q).trans (slab_apply $R $l $q 1))
      ((col_apply _ 2 $q).trans (slab_apply $R $l $q 2)) ((col_apply _ 2 $q).trans (slab_apply $R $l $q 2)))

/-- One layer's matrix at an entry: the entangling matrix times the diagonal matrix of the scales. -/
macro "read_layer" R:term "," E:term "," l:term : tactic =>
  `(tactic| (
    intro i j
    refine dot8_of _ _ (ent (gate $E $l)) (diag (scale $R $l)) ?_ ?_ _ rfl i j
    · intro i j
      refine ent_of _ _ _ (dmain (gate $E $l)) (gate $E $l) ?_ ?_ ?_ ?_ _ rfl i j
      · intro i j
        refine diag_of _ (dmain (gate $E $l)) ?_ i j
        intro q
        refine (congrFun (pad_id _ _) (ix1 q)).trans ?_
        exact dmain_of _ (gate $E $l) (fun e => gate_of _ e _ (row_apply $E $l e)) q
      · intro e
        exact gate_of _ e _ (row_apply $E $l e)
      · intro e
        exact (pairs_left _ _ e).trans (wrap0 e)
      · intro e
        exact (pairs_right _ _ e).trans (wrap1 e)
    · intro i j
      refine diag_of _ (scale $R $l) ?_ i j
      intro q
      refine (congrFun (pad_id _ _) (ix1 q)).trans ?_
      read_scale $R , $l , q))

set_option maxHeartbeats 32000000 in
/-- THE WEIGHT ARRAY the region finds is the padded folded matrix of the circuit. -/
theorem weights_apply (c : Dev nD) (o : Fin 16) (k : Fin 64) :
    (V m c main_call0_v245 : Cert.KernelIdeal.S16x64.Idx → EReal) (ix2 o k)
      = wpad (scale (argR m c)) (gate (argE m c)) (proj (argP m c)) o k := by
  dsimp only [Gen.V, Gen.V0]
  simp only [Gen.hostOps0, List.flatten_cons, List.flatten_nil, List.append_nil, List.cons_append, List.nil_append]
  simp only [joinVec_def, joinIdx_def]
  after_results_simp
  simp only [Cert.LibStretches.ofBuf_toBuf]
  refine (congrFun (eq_of_heq (cast_heq _ _)) (ix2 o k)).trans ?_
  refine (pad_of _ (weff (scale (argR m c)) (gate (argE m c)) (proj (argP m c))) ?_ _ ?_ _ ?_ _ rfl o k).trans rfl
  · intro o q
    refine (dot16_of _ _ (fold (scale (argR m c)) (gate (argE m c))) ?_ _ rfl o q).trans rfl
    intro j k
    refine dot8_of _ _ (layer (scale (argR m c)) (gate (argE m c)) 3) _ ?_ ?_ _ rfl j k
    · read_layer (argR m c) , (argE m c) , 3
    · intro j k
      refine dot8_of _ _ (layer (scale (argR m c)) (gate (argE m c)) 2) _ ?_ ?_ _ rfl j k
      · read_layer (argR m c) , (argE m c) , 2
      · intro j k
        refine dot8_of _ _ (layer (scale (argR m c)) (gate (argE m c)) 1) _ ?_ ?_ _ rfl j k
        · read_layer (argR m c) , (argE m c) , 1
        · intro j k
          refine dot8_of _ _ (layer (scale (argR m c)) (gate (argE m c)) 0) eye ?_ ?_ _ rfl j k
          · read_layer (argR m c) , (argE m c) , 0
          · intro i j
            exact eye_of i j
  · exact broadcastInDim_scalar_apply _ _ _
  · intro i
    exact zeros_apply _ i

end Cert.HostRead

end
-- ==== Proof.RefLayout.lean ====
/-
  The layout operations of one layer of the step-by-step circuit, read at an index given by coordinates.

  A layer of the reference is built from a few array operations: a slab of the [4, 8, 3] rotation parameters taken as an
  [8, 3] array, one of its columns taken as a vector of length 8, a row of the [4, 7] entangling parameters taken as a
  vector of length 7, a vector spread over two leading axes, the scalar one spread over a vector, and the join along the
  last axis of a [.., 7] array with a [.., 1] array. Each reads, at an index, its operand at one index; the lemmas here
  name that index by coordinates.
-/
import Idealize.ShloMosaic.Lib.Pipeline.Value
import Idealize.ShloMosaic.Lib.ValueIdx
import Idealize.ShloMosaic.Lib.IdealHost
import Idealize.ShloMosaic.PureOps.Ideal.Laws
import proofs.«115779_j15375982920210_2_alg».proof.Proof.Circuit

noncomputable section

namespace Cert.RefRead

open Idealize.ShloMosaic Idealize.ShloMosaic.ValueIdx

section Layout
variable {α : Type}

/-- Slab l of a [4, 8, 3] array, taken as an [8, 3] array, at (q, a): the array at (l, q, a). -/
theorem slab_apply (l : ℕ) (hl : l < 4) (R : (⟨3, ![4, 8, 3]⟩ : Shape).Idx → α)
    (h1 : (⟨3, ![4, 8, 3]⟩ : Shape).Slices ![l, 0, 0] ⟨3, ![1, 8, 3]⟩)
    (h2 : (⟨3, ![1, 8, 3]⟩ : Shape).ShapeCasts ⟨2, ![8, 3]⟩) (q : Fin 8) (a : Fin 3) :
    shapeCast ⟨2, ![8, 3]⟩ (extractStridedSlice ⟨3, ![1, 8, 3]⟩ ![l, 0, 0] R h1) h2 (ix2 q a) = R (ix3 ⟨l, hl⟩ q a) := by
  refine (shapeCast_apply _ h2 (ix2 q a) (ix3 (0 : Fin 1) q a) ?_).trans ?_
  · rw [Shape.rowMajor_val_three, Shape.rowMajor_val_two]
    show ((0 : ℕ) * 8 + q.val) * 3 + a.val = q.val * 3 + a.val
    omega
  · refine extractStridedSlice_apply _ R h1 _ (ix3 ⟨l, hl⟩ q a) fun ax => ?_
    match ax with
    | ⟨0, _⟩ => show l = l + 0; rfl
    | ⟨1, _⟩ => show q.val = 0 + q.val; omega
    | ⟨2, _⟩ => show a.val = 0 + a.val; omega

/-- Column c of an [8, 3] array, taken as a vector of length 8, at q: the array at (q, c). -/
theorem col_apply (c : ℕ) (hc : c < 3) (r : (⟨2, ![8, 3]⟩ : Shape).Idx → α)
    (h1 : (⟨2, ![8, 3]⟩ : Shape).Slices ![0, c] ⟨2, ![8, 1]⟩)
    (h2 : (⟨2, ![8, 1]⟩ : Shape).ShapeCasts ⟨1, ![8]⟩) (q : Fin 8) :
    shapeCast ⟨1, ![8]⟩ (extractStridedSlice ⟨2, ![8, 1]⟩ ![0, c] r h1) h2 (ix1 q) = r (ix2 q ⟨c, hc⟩) := by
  refine (shapeCast_apply _ h2 (ix1 q) (ix2 q (0 : Fin 1)) ?_).trans ?_
  · rw [Shape.rowMajor_val_two, Shape.rowMajor_val_one]
    show q.val * 1 + 0 = q.val
    omega
  · refine extractStridedSlice_apply _ r h1 _ (ix2 q ⟨c, hc⟩) fun ax => ?_
    match ax with
    | ⟨0, _⟩ => show q.val = 0 + q.val; omega
    | ⟨1, _⟩ => show c = c + 0; rfl

/-- Row l of a [4, 7] array, taken as a vector of length 7, at j: the array at (l, j). -/
theorem row_apply (l : ℕ) (hl : l < 4) (E : (⟨2, ![4, 7]⟩ : Shape).Idx → α)
    (h1 : (⟨2, ![4, 7]⟩ : Shape).Slices ![l, 0] ⟨2, ![1, 7]⟩)
    (h2 : (⟨2, ![1, 7]⟩ : Shape).ShapeCasts ⟨1, ![7]⟩) (j : Fin 7) :
    shapeCast ⟨1, ![7]⟩ (extractStridedSlice ⟨2, ![1, 7]⟩ ![l, 0] E h1) h2 (ix1 j) = E (ix2 ⟨l, hl⟩ j) := by
  refine (shapeCast_apply _ h2 (ix1 j) (ix2 (0 : Fin 1) j) ?_).trans ?_
  · rw [Shape.rowMajor_val_two, Shape.rowMajor_val_one]
    show (0 : ℕ) * 7 + j.val = j.val
    omega
  · refine extractStridedSlice_apply _ E h1 _ (ix2 ⟨l, hl⟩ j) fun ax => ?_
    match ax with
    | ⟨0, _⟩ => show l = l + 0; rfl
    | ⟨1, _⟩ => show j.val = 0 + j.val; omega

/-- A vector of length k set as [1, 1, k] and spread over [m, n, k], at (b, s, q): the vector at q. -/
theorem spread_apply {m n k : ℕ} (v : (⟨1, ![k]⟩ : Shape).Idx → α)
    (h1 : (⟨1, ![k]⟩ : Shape).BroadcastsInDim ⟨3, ![1, 1, k]⟩ (![2] : Fin 1 → Fin 3))
    (h2 : (⟨3, ![1, 1, k]⟩ : Shape).BroadcastsInDim ⟨3, ![m, n, k]⟩ (![0, 1, 2] : Fin 3 → Fin 3))
    (b : Fin m) (s : Fin n) (q : Fin k) :
    broadcastInDim ⟨3, ![m, n, k]⟩ ![0, 1, 2] h2 (broadcastInDim ⟨3, ![1, 1, k]⟩ ![2] h1 v) (ix3 b s q) = v (ix1 q) := by
  refine (broadcastInDim_apply _ h2 _ (ix3 b s q) (ix3 (0 : Fin 1) (0 : Fin 1) q) fun ax => ?_).trans ?_
  · match ax with
    | ⟨0, _⟩ => show 0 = if (1 : ℕ) = 1 then 0 else _; rw [if_pos rfl]
    | ⟨1, _⟩ => show 0 = if (1 : ℕ) = 1 then 0 else _; rw [if_pos rfl]
    | ⟨2, _⟩ =>
      show q.val = if k = 1 then 0 else q.val
      split
      · have := q.isLt; omega
      · rfl
  · refine broadcastInDim_apply _ h1 v _ (ix1 q) fun ax => ?_
    match ax with
    | ⟨0, _⟩ =>
      show q.val = if k = 1 then 0 else q.val
      split
      · have := q.isLt; omega
      · rfl

end Layout

section AtIdeal

/-- The scalar one spread over a vector reads one everywhere. -/
theorem one_apply {n : ℕ} (h : (⟨0, ![]⟩ : Shape).BroadcastsInDim ⟨1, ![n]⟩ ![]) (j : (⟨1, ![n]⟩ : Shape).Idx) :
    broadcastInDim ⟨1, ![n]⟩ ![] h (constant (F := Ideal) ⟨0, ![]⟩ .f32 0x3F800000#32) j = 1 :=
  (broadcastInDim_scalar_apply h _ j).trans ((constant_apply _ _).trans Ideal.ofBits_one_f32)

/-- The logistic of row l of the entangling parameters, at j: the weight of pair j in layer l. -/
theorem gate_apply (l : ℕ) (hl : l < 4) (E : FVec Ideal ⟨2, ![4, 7]⟩ .f32)
    (h0 : (⟨0, ![]⟩ : Shape).BroadcastsInDim ⟨1, ![7]⟩ ![])
    (h1 : (⟨2, ![4, 7]⟩ : Shape).Slices ![l, 0] ⟨2, ![1, 7]⟩)
    (h2 : (⟨2, ![1, 7]⟩ : Shape).ShapeCasts ⟨1, ![7]⟩) (j : Fin 7) :
    Host.divf (broadcastInDim ⟨1, ![7]⟩ ![] h0 (constant (F := Ideal) ⟨0, ![]⟩ .f32 0x3F800000#32))
        (addf (broadcastInDim ⟨1, ![7]⟩ ![] h0 (constant (F := Ideal) ⟨0, ![]⟩ .f32 0x3F800000#32))
          (Host.exp (Host.negf (shapeCast ⟨1, ![7]⟩ (extractStridedSlice ⟨2, ![1, 7]⟩ ![l, 0] E h1) h2)))) (ix1 j)
      = Circuit.gate E ⟨l, hl⟩ j := by
  show Ideal.div (broadcastInDim ⟨1, ![7]⟩ ![] h0 (constant (F := Ideal) ⟨0, ![]⟩ .f32 0x3F800000#32) (ix1 j))
      (broadcastInDim ⟨1, ![7]⟩ ![] h0 (constant (F := Ideal) ⟨0, ![]⟩ .f32 0x3F800000#32) (ix1 j)
        + Ideal.exp (-(shapeCast ⟨1, ![7]⟩ (extractStridedSlice ⟨2, ![1, 7]⟩ ![l, 0] E h1) h2 (ix1 j)))) = _
  rw [one_apply, row_apply l hl E h1 h2 j]
  rfl

/-- The product over the three angles of cos + sin of an [8, 3] slab's columns, at q. -/
theorem scale_apply (r : FVec Ideal ⟨2, ![8, 3]⟩ .f32)
    (h0 : (⟨2, ![8, 3]⟩ : Shape).Slices ![0, 0] ⟨2, ![8, 1]⟩)
    (h1 : (⟨2, ![8, 3]⟩ : Shape).Slices ![0, 1] ⟨2, ![8, 1]⟩)
    (h2 : (⟨2, ![8, 3]⟩ : Shape).Slices ![0, 2] ⟨2, ![8, 1]⟩)
    (hc : (⟨2, ![8, 1]⟩ : Shape).ShapeCasts ⟨1, ![8]⟩) (q : Fin 8) :
    mulf (mulf
        (addf (Host.cos (shapeCast ⟨1, ![8]⟩ (extractStridedSlice ⟨2, ![8, 1]⟩ ![0, 0] r h0) hc))
          (Host.sin (shapeCast ⟨1, ![8]⟩ (extractStridedSlice ⟨2, ![8, 1]⟩ ![0, 0] r h0) hc)))
        (addf (Host.cos (shapeCast ⟨1, ![8]⟩ (extractStridedSlice ⟨2, ![8, 1]⟩ ![0, 1] r h1) hc))
          (Host.sin (shapeCast ⟨1, ![8]⟩ (extractStridedSlice ⟨2, ![8, 1]⟩ ![0, 1] r h1) hc))))
        (addf (Host.cos (shapeCast ⟨1, ![8]⟩ (extractStridedSlice ⟨2, ![8, 1]⟩ ![0, 2] r h2) hc))
          (Host.sin (shapeCast ⟨1, ![8]⟩ (extractStridedSlice ⟨2, ![8, 1]⟩ ![0, 2] r h2) hc))) (ix1 q)
      = (Ideal.cos (r (ix2 q (0 : Fin 3))) + Ideal.sin (r (ix2 q (0 : Fin 3))))
        * (Ideal.cos (r (ix2 q (1 : Fin 3))) + Ideal.sin (r (ix2 q (1 : Fin 3))))
        * (Ideal.cos (r (ix2 q (2 : Fin 3))) + Ideal.sin (r (ix2 q (2 : Fin 3)))) := by
  show (Ideal.cos (shapeCast ⟨1, ![8]⟩ (extractStridedSlice ⟨2, ![8, 1]⟩ ![0, 0] r h0) hc (ix1 q))
        + Ideal.sin (shapeCast ⟨1, ![8]⟩ (extractStridedSlice ⟨2, ![8, 1]⟩ ![0, 0] r h0) hc (ix1 q)))
      * (Ideal.cos (shapeCast ⟨1, ![8]⟩ (extractStridedSlice ⟨2, ![8, 1]⟩ ![0, 1] r h1) hc (ix1 q))
        + Ideal.sin (shapeCast ⟨1, ![8]⟩ (extractStridedSlice ⟨2, ![8, 1]⟩ ![0, 1] r h1) hc (ix1 q)))
      * (Ideal.cos (shapeCast ⟨1, ![8]⟩ (extractStridedSlice ⟨2, ![8, 1]⟩ ![0, 2] r h2) hc (ix1 q))
        + Ideal.sin (shapeCast ⟨1, ![8]⟩ (extractStridedSlice ⟨2, ![8, 1]⟩ ![0, 2] r h2) hc (ix1 q))) = _
  rw [col_apply 0 (by omega) r h0 hc q, col_apply 1 (by omega) r h1 hc q, col_apply 2 (by omega) r h2 hc q]
  rfl

/-- One layer's entangling step: the join along the last axis of the mixed first seven amplitudes with the eighth,
    at (b, s, q), is the mix of the row's amplitudes with the weights. -/
theorem mix_apply {m n : ℕ} (Z : FVec Ideal ⟨3, ![m, n, 8]⟩ .f32) (w : FVec Ideal ⟨1, ![7]⟩ .f32)
    (hs0 : (⟨3, ![m, n, 8]⟩ : Shape).Slices ![0, 0, 0] ⟨3, ![m, n, 7]⟩)
    (hs1 : (⟨3, ![m, n, 8]⟩ : Shape).Slices ![0, 0, 1] ⟨3, ![m, n, 7]⟩)
    (hs7 : (⟨3, ![m, n, 8]⟩ : Shape).Slices ![0, 0, 7] ⟨3, ![m, n, 1]⟩)
    (hb0 : (⟨0, ![]⟩ : Shape).BroadcastsInDim ⟨1, ![7]⟩ ![])
    (hb1 : (⟨1, ![7]⟩ : Shape).BroadcastsInDim ⟨3, ![1, 1, 7]⟩ (![2] : Fin 1 → Fin 3))
    (hb2 : (⟨3, ![1, 1, 7]⟩ : Shape).BroadcastsInDim ⟨3, ![m, n, 7]⟩ (![0, 1, 2] : Fin 3 → Fin 3))
    (hc : Shape.Concatenates [(⟨3, ![m, n, 7]⟩ : Shape), ⟨3, ![m, n, 1]⟩] ⟨3, ![m, n, 8]⟩ 2)
    (b : Fin m) (s : Fin n) (q : Fin 8) :
    concatenate ⟨3, ![m, n, 8]⟩ 2
        [⟨⟨3, ![m, n, 7]⟩,
            addf
              (mulf (extractStridedSlice ⟨3, ![m, n, 7]⟩ ![0, 0, 0] Z hs0)
                (broadcastInDim ⟨3, ![m, n, 7]⟩ ![0, 1, 2] hb2 (broadcastInDim ⟨3, ![1, 1, 7]⟩ ![2] hb1
                  (subf (broadcastInDim ⟨1, ![7]⟩ ![] hb0 (constant (F := Ideal) ⟨0, ![]⟩ .f32 0x3F800000#32)) w))))
              (mulf (extractStridedSlice ⟨3, ![m, n, 7]⟩ ![0, 0, 1] Z hs1)
                (broadcastInDim ⟨3, ![m, n, 7]⟩ ![0, 1, 2] hb2 (broadcastInDim ⟨3, ![1, 1, 7]⟩ ![2] hb1 w)))⟩,
          ⟨⟨3, ![m, n, 1]⟩, extractStridedSlice ⟨3, ![m, n, 1]⟩ ![0, 0, 7] Z hs7⟩] hc (ix3 b s q)
      = Circuit.mix (fun j : Fin 7 => w (ix1 j)) (fun q' : Fin 8 => Z (ix3 b s q')) q := by
  unfold Circuit.mix
  split
  · next hq =>
    refine (concatenate_pair_apply_left (t := ⟨3, ![m, n, 8]⟩) (s₁ := ⟨3, ![m, n, 7]⟩) (s₂ := ⟨3, ![m, n, 1]⟩)
      (2 : Fin 3) _ _ hc (ix3 b s q) rfl (ix3 b s (Circuit.low q hq)) fun ax => ?_).trans ?_
    · match ax with
      | ⟨0, _⟩ => rfl
      | ⟨1, _⟩ => rfl
      | ⟨2, _⟩ => rfl
    · have e0 : extractStridedSlice ⟨3, ![m, n, 7]⟩ ![0, 0, 0] Z hs0 (ix3 b s (Circuit.low q hq)) = Z (ix3 b s q) :=
        extractStridedSlice_apply _ Z hs0 _ (ix3 b s q) fun ax => by
          match ax with
          | ⟨0, _⟩ => show b.val = 0 + b.val; omega
          | ⟨1, _⟩ => show s.val = 0 + s.val; omega
          | ⟨2, _⟩ => show q.val = 0 + q.val; omega
      have e1 : extractStridedSlice ⟨3, ![m, n, 7]⟩ ![0, 0, 1] Z hs1 (ix3 b s (Circuit.low q hq)) = Z (ix3 b s (Circuit.nxt q hq)) :=
        extractStridedSlice_apply _ Z hs1 _ (ix3 b s (Circuit.nxt q hq)) fun ax => by
          match ax with
          | ⟨0, _⟩ => show b.val = 0 + b.val; omega
          | ⟨1, _⟩ => show s.val = 0 + s.val; omega
          | ⟨2, _⟩ => show q.val + 1 = 1 + q.val; omega
      rw [addf_apply, mulf_apply, mulf_apply, e0, e1, spread_apply, spread_apply, subf_apply, one_apply]
  · next hq =>
    have hq7 : q.val = 7 := by have := q.isLt; omega
    refine (concatenate_pair_apply_right (t := ⟨3, ![m, n, 8]⟩) (s₁ := ⟨3, ![m, n, 7]⟩) (s₂ := ⟨3, ![m, n, 1]⟩)
      (2 : Fin 3) _ _ hc (ix3 b s q) rfl rfl (ix3 b s (0 : Fin 1)) (fun ax hax => ?_) ?_).trans ?_
    · match ax with
      | ⟨0, _⟩ => rfl
      | ⟨1, _⟩ => rfl
      | ⟨2, _⟩ => exact absurd rfl hax
    · show 0 + 7 = q.val
      omega
    · exact extractStridedSlice_apply _ Z hs7 _ (ix3 b s q) fun ax => by
        match ax with
        | ⟨0, _⟩ => show b.val = 0 + b.val; omega
        | ⟨1, _⟩ => show s.val = 0 + s.val; omega
        | ⟨2, _⟩ => show q.val = 7 + 0; omega

end AtIdeal

section Dot

/-- A rank-3 by rank-2 product contracting the left operand's last axis with the right operand's last axis, the left
    operand's two leading axes and the right operand's leading axis kept in that order: at (b, s, o) it is
    Σ_q x(b, s, q) · p(o, q). -/
theorem dot_apply {m n : ℕ} (D : DotDims ⟨3, ![m, n, 8]⟩ ⟨2, ![16, 8]⟩ ⟨3, ![m, n, 16]⟩)
    (hlc : D.lhsContracting = [2]) (hrc : D.rhsContracting = [1])
    (hln : D.lhsNonContracting = [0, 1]) (hrn : D.rhsNonContracting = [0])
    (hlb : D.lhsBatch = []) (hrb : D.rhsBatch = [])
    (prec : Option ContractPrecision) (x : FVec Ideal ⟨3, ![m, n, 8]⟩ .f32) (p : FVec Ideal ⟨2, ![16, 8]⟩ .f32)
    (b : Fin m) (s : Fin n) (o : Fin 16) :
    Host.dotGeneral D prec x p (ix3 b s o) = ∑ q : Fin 8, x (ix3 b s q) * p (ix2 o q) := by
  obtain ⟨lc, rc, ln, rn, lb, rb, wf⟩ := D
  dsimp only at hlc hrc hln hrn hlb hrb
  subst hlc hrc hln hrn hlb hrb
  -- the record is now literal: every list below computes
  -- the kept coordinates, at any contraction index
  have lhs0 : ∀ (j : (⟨3, ![m, n, 16]⟩ : Shape).Idx)
      (c : (⟨[2], [1], [0, 1], [0], [], [], wf⟩ : DotDims ⟨3, ![m, n, 8]⟩ ⟨2, ![16, 8]⟩ ⟨3, ![m, n, 16]⟩).contr.Idx),
      (DotDims.lhsIdx ⟨[2], [1], [0, 1], [0], [], [], wf⟩ j c 0).val = (j 0).val := fun j c => by
    unfold DotDims.lhsIdx
    rw [dif_neg List.not_mem_nil, dif_pos (List.mem_cons.mpr (Or.inl rfl))]
    rfl
  have lhs1 : ∀ (j : (⟨3, ![m, n, 16]⟩ : Shape).Idx)
      (c : (⟨[2], [1], [0, 1], [0], [], [], wf⟩ : DotDims ⟨3, ![m, n, 8]⟩ ⟨2, ![16, 8]⟩ ⟨3, ![m, n, 16]⟩).contr.Idx),
      (DotDims.lhsIdx ⟨[2], [1], [0, 1], [0], [], [], wf⟩ j c 1).val = (j 1).val := fun j c => by
    unfold DotDims.lhsIdx
    rw [dif_neg List.not_mem_nil, dif_pos (List.mem_cons.mpr (Or.inr (List.mem_singleton.mpr rfl)))]
    rfl
  have rhs0 : ∀ (j : (⟨3, ![m, n, 16]⟩ : Shape).Idx)
      (c : (⟨[2], [1], [0, 1], [0], [], [], wf⟩ : DotDims ⟨3, ![m, n, 8]⟩ ⟨2, ![16, 8]⟩ ⟨3, ![m, n, 16]⟩).contr.Idx),
      (DotDims.rhsIdx ⟨[2], [1], [0, 1], [0], [], [], wf⟩ j c 0).val = (j 2).val := fun j c => by
    unfold DotDims.rhsIdx
    rw [dif_neg List.not_mem_nil, dif_pos (List.mem_singleton.mpr rfl)]
    rfl
  have hL : ∀ q : Fin 8, DotDims.lhsIdx ⟨[2], [1], [0, 1], [0], [], [], wf⟩ (ix3 b s o)
      ((contrEquiv1 ⟨[2], [1], [0, 1], [0], [], [], wf⟩ 8 rfl rfl).symm q) = ix3 b s q := fun q => by
    have hk := contrEquiv1_symm_val (⟨[2], [1], [0, 1], [0], [], [], wf⟩ : DotDims ⟨3, ![m, n, 8]⟩ ⟨2, ![16, 8]⟩ ⟨3, ![m, n, 16]⟩) 8 rfl rfl q
    funext a
    apply Fin.ext
    match a with
    | ⟨0, _⟩ => exact lhs0 _ _
    | ⟨1, _⟩ => exact lhs1 _ _
    | ⟨2, _⟩ => exact (DotDims.lhsIdx_val_of_single _ rfl _ _).trans hk
  have hR : ∀ q : Fin 8, DotDims.rhsIdx ⟨[2], [1], [0, 1], [0], [], [], wf⟩ (ix3 b s o)
      ((contrEquiv1 ⟨[2], [1], [0, 1], [0], [], [], wf⟩ 8 rfl rfl).symm q) = ix2 o q := fun q => by
    have hk := contrEquiv1_symm_val (⟨[2], [1], [0, 1], [0], [], [], wf⟩ : DotDims ⟨3, ![m, n, 8]⟩ ⟨2, ![16, 8]⟩ ⟨3, ![m, n, 16]⟩) 8 rfl rfl q
    funext a
    apply Fin.ext
    match a with
    | ⟨0, _⟩ => exact rhs0 _ _
    | ⟨1, _⟩ => exact (DotDims.rhsIdx_val_of_single _ rfl _ _).trans hk
  refine (Ideal.dotGeneral_apply _ prec .single x p (ix3 b s o)).trans ?_
  refine (Equiv.sum_comp (contrEquiv1 ⟨[2], [1], [0, 1], [0], [], [], wf⟩ 8 rfl rfl).symm _).symm.trans ?_
  exact Finset.sum_congr rfl fun q _ => by rw [hL q, hR q]

end Dot

end Cert.RefRead

end
-- ==== Proof.RefRead.lean ====
/-
  The reference's result read at an index.

  The reference encodes the first eight features of a row by tanh, runs four layers — each scales the eight amplitudes
  by the layer's rotation scales and mixes neighbours with the layer's logistic weights — and projects to sixteen
  outputs with a bias. Read at (b, s, o) its result is the step-by-step circuit of module Circuit on the amplitudes
  t(q) = tanh x(b, s, q). Each layer is the same text at a different slab of the parameters, so each is one
  instance of the lemmas of module RefLayout.
-/
import proofs.«115779_j15375982920210_2_alg».proof.Proof.Gen.ReferenceIdeal.Run
import proofs.«115779_j15375982920210_2_alg».proof.Proof.Circuit
import proofs.«115779_j15375982920210_2_alg».proof.Proof.RefLayout

noncomputable section

namespace Cert.RefRead

open Cert.ReferenceIdeal Cert.ReferenceIdeal.Gen Cert.ReferenceIdeal.Value
open Idealize.ShloMosaic Idealize.ShloMosaic.ValueIdx Idealize.SL.Sem

variable (V0 : Valuation τ sig (Elt Ideal))

/-- The five argument arrays. -/
abbrev argX : FVec Ideal S64x8192x64 .f32 := V0 (Proc.devRef .tc main_arg0)
abbrev argR : Circuit.Rot := V0 (Proc.devRef .tc main_arg1)
abbrev argE : Circuit.Ent := V0 (Proc.devRef .tc main_arg2)
abbrev argP : Circuit.Proj := V0 (Proc.devRef .tc main_arg3)
abbrev argB : Circuit.Bias := V0 (Proc.devRef .tc main_arg4)

/-- The encoded amplitudes of row (b, s): tanh of its first eight features. -/
def enc (b : Fin 64) (s : Fin 8192) (q : Fin 8) : EReal :=
  Ideal.tanh (argX V0 (ix3 b s ⟨q.val, by omega⟩))

/-! ## Layer 0 -/

theorem v3_apply (q : Fin 8) (a : Fin 3) : res_main_v3 V0 (ix2 q a) = argR V0 (ix3 (0 : Fin 4) q a) := by
  unfold res_main_v3
  exact slab_apply 0 (by omega) (argR V0) _ _ q a

theorem v3_scale (q : Fin 8) :
    (Ideal.cos (res_main_v3 V0 (ix2 q (0 : Fin 3))) + Ideal.sin (res_main_v3 V0 (ix2 q (0 : Fin 3))))
      * (Ideal.cos (res_main_v3 V0 (ix2 q (1 : Fin 3))) + Ideal.sin (res_main_v3 V0 (ix2 q (1 : Fin 3))))
      * (Ideal.cos (res_main_v3 V0 (ix2 q (2 : Fin 3))) + Ideal.sin (res_main_v3 V0 (ix2 q (2 : Fin 3))))
      = Circuit.scale (argR V0) 0 q := by
  rw [v3_apply, v3_apply, v3_apply]
  rfl

theorem v37_gate (j : Fin 7) : res_main_v37 V0 (ix1 j) = Circuit.gate (argE V0) 0 j := by
  unfold res_main_v37
  exact gate_apply 0 (by omega) (argE V0) _ _ _ j

theorem x_slice (b : Fin 64) (s : Fin 8192) (q : Fin 8) :
    Host.tanh (F := Ideal) (φ := .f32)
        (extractStridedSlice S64x8192x8 ![0, 0, 0] (argX V0) slices_S64x8192x64_S64x8192x8_0_0_0) (ix3 b s q)
      = enc V0 b s q := by
  show Ideal.tanh (extractStridedSlice S64x8192x8 ![0, 0, 0] (argX V0) slices_S64x8192x64_S64x8192x8_0_0_0 (ix3 b s q)) = _
  unfold enc
  refine congrArg Ideal.tanh ?_
  exact extractStridedSlice_apply _ (argX V0) _ _ (ix3 b s ⟨q.val, by omega⟩) fun ax => by
    match ax with
    | ⟨0, _⟩ => show b.val = 0 + b.val; omega
    | ⟨1, _⟩ => show s.val = 0 + s.val; omega
    | ⟨2, _⟩ => show q.val = 0 + q.val; omega

theorem v29_apply (b : Fin 64) (s : Fin 8192) (q : Fin 8) :
    res_main_v29 V0 (ix3 b s q) = Circuit.rz0 (Circuit.scale (argR V0)) (enc V0 b s) q := by
  unfold res_main_v29 Circuit.rz0
  refine (mulf_apply _ _ _).trans ?_
  refine congrArg₂ (· * ·) (x_slice V0 b s q) ?_
  refine (spread_apply _ _ _ b s q).trans ?_
  exact (scale_apply (res_main_v3 V0) _ _ _ _ q).trans (v3_scale V0 q)

/-! ## Layer 1 -/

theorem v52_apply (q : Fin 8) (a : Fin 3) : res_main_v52 V0 (ix2 q a) = argR V0 (ix3 (1 : Fin 4) q a) := by
  unfold res_main_v52
  exact slab_apply 1 (by omega) (argR V0) _ _ q a

theorem v52_scale (q : Fin 8) :
    (Ideal.cos (res_main_v52 V0 (ix2 q (0 : Fin 3))) + Ideal.sin (res_main_v52 V0 (ix2 q (0 : Fin 3))))
      * (Ideal.cos (res_main_v52 V0 (ix2 q (1 : Fin 3))) + Ideal.sin (res_main_v52 V0 (ix2 q (1 : Fin 3))))
      * (Ideal.cos (res_main_v52 V0 (ix2 q (2 : Fin 3))) + Ideal.sin (res_main_v52 V0 (ix2 q (2 : Fin 3))))
      = Circuit.scale (argR V0) 1 q := by
  rw [v52_apply, v52_apply, v52_apply]
  rfl

theorem v86_gate (j : Fin 7) : res_main_v86 V0 (ix1 j) = Circuit.gate (argE V0) 1 j := by
  unfold res_main_v86
  exact gate_apply 1 (by omega) (argE V0) _ _ _ j

theorem v78_apply (b : Fin 64) (s : Fin 8192) (q : Fin 8) :
    res_main_v78 V0 (ix3 b s q) = Circuit.rz1 (Circuit.scale (argR V0)) (Circuit.gate (argE V0)) (enc V0 b s) q := by
  unfold res_main_v78 Circuit.rz1
  refine (mulf_apply _ _ _).trans ?_
  refine congrArg₂ (· * ·) ?_ ?_
  · refine (mix_apply (res_main_v29 V0) (res_main_v37 V0) _ _ _ _ _ _ _ b s q).trans ?_
    exact congrArg₂ (fun w z => Circuit.mix w z q) (funext (v37_gate V0)) (funext (v29_apply V0 b s))
  · refine (spread_apply _ _ _ b s q).trans ?_
    exact (scale_apply (res_main_v52 V0) _ _ _ _ q).trans (v52_scale V0 q)

/-! ## Layer 2 -/

theorem v101_apply (q : Fin 8) (a : Fin 3) : res_main_v101 V0 (ix2 q a) = argR V0 (ix3 (2 : Fin 4) q a) := by
  unfold res_main_v101
  exact slab_apply 2 (by omega) (argR V0) _ _ q a

theorem v101_scale (q : Fin 8) :
    (Ideal.cos (res_main_v101 V0 (ix2 q (0 : Fin 3))) + Ideal.sin (res_main_v101 V0 (ix2 q (0 : Fin 3))))
      * (Ideal.cos (res_main_v101 V0 (ix2 q (1 : Fin 3))) + Ideal.sin (res_main_v101 V0 (ix2 q (1 : Fin 3))))
      * (Ideal.cos (res_main_v101 V0 (ix2 q (2 : Fin 3))) + Ideal.sin (res_main_v101 V0 (ix2 q (2 : Fin 3))))
      = Circuit.scale (argR V0) 2 q := by
  rw [v101_apply, v101_apply, v101_apply]
  rfl

theorem v135_gate (j : Fin 7) : res_main_v135 V0 (ix1 j) = Circuit.gate (argE V0) 2 j := by
  unfold res_main_v135
  exact gate_apply 2 (by omega) (argE V0) _ _ _ j

theorem v127_apply (b : Fin 64) (s : Fin 8192) (q : Fin 8) :
    res_main_v127 V0 (ix3 b s q) = Circuit.rz2 (Circuit.scale (argR V0)) (Circuit.gate (argE V0)) (enc V0 b s) q := by
  unfold res_main_v127 Circuit.rz2
  refine (mulf_apply _ _ _).trans ?_
  refine congrArg₂ (· * ·) ?_ ?_
  · refine (mix_apply (res_main_v78 V0) (res_main_v86 V0) _ _ _ _ _ _ _ b s q).trans ?_
    exact congrArg₂ (fun w z => Circuit.mix w z q) (funext (v86_gate V0)) (funext (v78_apply V0 b s))
  · refine (spread_apply _ _ _ b s q).trans ?_
    exact (scale_apply (res_main_v101 V0) _ _ _ _ q).trans (v101_scale V0 q)

/-! ## Layer 3 -/

theorem v150_apply (q : Fin 8) (a : Fin 3) : res_main_v150 V0 (ix2 q a) = argR V0 (ix3 (3 : Fin 4) q a) := by
  unfold res_main_v150
  exact slab_apply 3 (by omega) (argR V0) _ _ q a

theorem v150_scale (q : Fin 8) :
    (Ideal.cos (res_main_v150 V0 (ix2 q (0 : Fin 3))) + Ideal.sin (res_main_v150 V0 (ix2 q (0 : Fin 3))))
      * (Ideal.cos (res_main_v150 V0 (ix2 q (1 : Fin 3))) + Ideal.sin (res_main_v150 V0 (ix2 q (1 : Fin 3))))
      * (Ideal.cos (res_main_v150 V0 (ix2 q (2 : Fin 3))) + Ideal.sin (res_main_v150 V0 (ix2 q (2 : Fin 3))))
      = Circuit.scale (argR V0) 3 q := by
  rw [v150_apply, v150_apply, v150_apply]
  rfl

theorem v184_gate (j : Fin 7) : res_main_v184 V0 (ix1 j) = Circuit.gate (argE V0) 3 j := by
  unfold res_main_v184
  exact gate_apply 3 (by omega) (argE V0) _ _ _ j

theorem v176_apply (b : Fin 64) (s : Fin 8192) (q : Fin 8) :
    res_main_v176 V0 (ix3 b s q) = Circuit.rz3 (Circuit.scale (argR V0)) (Circuit.gate (argE V0)) (enc V0 b s) q := by
  unfold res_main_v176 Circuit.rz3
  refine (mulf_apply _ _ _).trans ?_
  refine congrArg₂ (· * ·) ?_ ?_
  · refine (mix_apply (res_main_v127 V0) (res_main_v135 V0) _ _ _ _ _ _ _ b s q).trans ?_
    exact congrArg₂ (fun w z => Circuit.mix w z q) (funext (v135_gate V0)) (funext (v127_apply V0 b s))
  · refine (spread_apply _ _ _ b s q).trans ?_
    exact (scale_apply (res_main_v150 V0) _ _ _ _ q).trans (v150_scale V0 q)

/-! ## The result -/

/-- The reference's result at (b, s, o) is the step-by-step circuit on the amplitudes t(q) = tanh x(b, s, q). -/
theorem ref_apply (b : Fin 64) (s : Fin 8192) (o : Fin 16) :
    (Cert.ReferenceIdeal.Value.val4 V0 (Proc.devRef .tc main_v201) : S64x8192x16.Idx → EReal) (ix3 b s o)
      = Cert.Circuit.stepOut (V0 (Proc.devRef .tc main_arg1)) (V0 (Proc.devRef .tc main_arg2))
          (V0 (Proc.devRef .tc main_arg3)) (V0 (Proc.devRef .tc main_arg4))
          (fun q : Fin 8 => Ideal.tanh ((V0 (Proc.devRef .tc main_arg0) : S64x8192x64.Idx → EReal) (ix3 b s ⟨q.val, by omega⟩))) o := by
  refine (congrFun (val4_main_v201 V0) (ix3 b s o)).trans ?_
  refine (addf_apply _ _ _).trans ?_
  show _ = Circuit.stepOutG (Circuit.scale (argR V0)) (Circuit.gate (argE V0)) (Circuit.proj (argP V0)) (Circuit.bias (argB V0))
      (enc V0 b s) o
  unfold Circuit.stepOutG
  refine congrArg₂ (· + ·) ?_ ?_
  · refine (dot_apply _ rfl rfl rfl rfl rfl rfl none _ (argP V0) b s o).trans ?_
    refine Finset.sum_congr rfl fun q _ => ?_
    refine congrArg₂ (· * ·) ?_ rfl
    refine (mix_apply (res_main_v176 V0) (res_main_v184 V0) _ _ _ _ _ _ _ b s q).trans ?_
    exact congrArg₂ (fun w z => Circuit.mix w z q) (funext (v184_gate V0)) (funext (v176_apply V0 b s))
  · exact spread_apply (argB V0) _ _ b s o

end Cert.RefRead

end
-- ==== Proof.LibFiniteReals.lean ====
/-
  Finite extended reals. An extended real is FINITE when it is the coercion of a real number; on finite values the
  extended reals' arithmetic is the reals', so negation distributes over sums and division is multiplication by the
  inverse. This module states the predicate, with its nonnegative and positive refinements, and its closure under the
  operations a loss is written with: sums, products, differences, quotients by a positive value, maxima, suprema over a
  nonempty finite set, square roots of nonnegative values, exponentials, logarithms of positive values.
-/
import Idealize.ShloMosaic.PureOps.Ideal
import Mathlib.Algebra.BigOperators.Fin

noncomputable section

namespace Cert.Law

open Idealize.ShloMosaic

/-- `x` is a real number. -/
def IsR (x : EReal) : Prop := ∃ r : ℝ, x = (r : EReal)
/-- `x` is a nonnegative real number. -/
def IsNN (x : EReal) : Prop := ∃ r : ℝ, 0 ≤ r ∧ x = (r : EReal)
/-- `x` is a positive real number. -/
def IsPos (x : EReal) : Prop := ∃ r : ℝ, 0 < r ∧ x = (r : EReal)

variable {x y : EReal}

theorem IsPos.isNN (h : IsPos x) : IsNN x := let ⟨r, hr, e⟩ := h; ⟨r, hr.le, e⟩
theorem IsNN.isR (h : IsNN x) : IsR x := let ⟨r, _, e⟩ := h; ⟨r, e⟩
theorem IsPos.isR (h : IsPos x) : IsR x := h.isNN.isR

theorem isNN_zero : IsNN 0 := ⟨0, le_rfl, rfl⟩
theorem isNN_one : IsNN 1 := ⟨1, zero_le_one, rfl⟩
theorem isR_zero : IsR 0 := isNN_zero.isR
theorem isR_one : IsR 1 := isNN_one.isR

theorem IsR.add (hx : IsR x) (hy : IsR y) : IsR (x + y) := by
  obtain ⟨a, rfl⟩ := hx; obtain ⟨b, rfl⟩ := hy; exact ⟨a + b, (EReal.coe_add a b).symm⟩
theorem IsR.sub (hx : IsR x) (hy : IsR y) : IsR (x - y) := by
  obtain ⟨a, rfl⟩ := hx; obtain ⟨b, rfl⟩ := hy; exact ⟨a - b, (EReal.coe_sub a b).symm⟩
theorem IsR.mul (hx : IsR x) (hy : IsR y) : IsR (x * y) := by
  obtain ⟨a, rfl⟩ := hx; obtain ⟨b, rfl⟩ := hy; exact ⟨a * b, (EReal.coe_mul a b).symm⟩
theorem IsR.neg (hx : IsR x) : IsR (-x) := by
  obtain ⟨a, rfl⟩ := hx; exact ⟨-a, (EReal.coe_neg a).symm⟩
/-- A square is nonnegative. -/
theorem IsR.mul_self (hx : IsR x) : IsNN (x * x) := by
  obtain ⟨a, rfl⟩ := hx; exact ⟨a * a, mul_self_nonneg a, (EReal.coe_mul a a).symm⟩
theorem IsNN.add (hx : IsNN x) (hy : IsNN y) : IsNN (x + y) := by
  obtain ⟨a, ha, rfl⟩ := hx; obtain ⟨b, hb, rfl⟩ := hy
  exact ⟨a + b, add_nonneg ha hb, (EReal.coe_add a b).symm⟩
theorem IsNN.add_pos (hx : IsNN x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem IsPos.add (hx : IsPos x) (hy : IsPos y) : IsPos (x + y) := hx.isNN.add_pos hy

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) isR_zero h
/-- A finite sum of nonnegative real numbers is one. -/
theorem IsNN.sum {ι : Type*} (s : Finset ι) (f : ι → EReal) (h : ∀ i ∈ s, IsNN (f i)) : IsNN (∑ i ∈ s, f i) :=
  Finset.sum_induction f IsNN (fun _ _ => IsNN.add) isNN_zero h
/-- A nonempty finite sum of positive real numbers is one. -/
theorem IsPos.sum {ι : Type*} (s : Finset ι) (hs : s.Nonempty) (f : ι → EReal) (h : ∀ i ∈ s, IsPos (f i)) :
    IsPos (∑ i ∈ s, f i) :=
  Finset.sum_induction_nonempty f IsPos (fun _ _ => IsPos.add) hs h

/-- The quotient of a real number by a positive one is real: division by a nonzero real is multiplication by its
    inverse. -/
theorem IsR.div (hx : IsR x) (hy : IsPos y) : IsR (Ideal.div x y) := by
  obtain ⟨a, rfl⟩ := hx; obtain ⟨b, hb, rfl⟩ := hy
  rw [Ideal.div_coe hb.ne']; exact ⟨a * (1 / b), (EReal.coe_mul _ _).symm⟩

/-- The greater of a real number and a positive one is positive. -/
theorem IsR.max_pos (hx : IsR x) (hy : IsPos y) : IsPos (max x y) := by
  obtain ⟨a, rfl⟩ := hx; obtain ⟨b, hb, rfl⟩ := hy
  rcases le_total (a : EReal) (b : EReal) with h | h
  · rw [max_eq_right h]; exact ⟨b, hb, rfl⟩
  · rw [max_eq_left h]; exact ⟨a, lt_of_lt_of_le hb (EReal.coe_le_coe_iff.mp h), rfl⟩

/-- The square root of a nonnegative real number is one. -/
theorem IsNN.sqrt (hx : IsNN x) : IsNN (Ideal.sqrt x) := by
  obtain ⟨a, ha, rfl⟩ := hx
  rw [Ideal.sqrt_coe, if_neg (not_lt.mpr ha)]; exact ⟨Real.sqrt a, Real.sqrt_nonneg a, rfl⟩

/-- The exponential of a real number is a positive real. -/
theorem IsR.exp (hx : IsR x) : IsPos (Ideal.exp x) := by
  obtain ⟨a, rfl⟩ := hx; exact ⟨Real.exp a, Real.exp_pos a, rfl⟩

/-- The logarithm of a positive real number is real. -/
theorem IsPos.log (hx : IsPos x) : IsR (Ideal.log x) := by
  obtain ⟨a, ha, rfl⟩ := hx
  rw [Ideal.log_coe, if_neg (not_le.mpr ha)]; exact ⟨Real.log a, rfl⟩

/-- The supremum of real numbers over a nonempty finite set is one of them, so it is real. -/
theorem IsR.sup {ι : Type*} (s : Finset ι) (hs : s.Nonempty) (f : ι → EReal) (h : ∀ i ∈ s, IsR (f i)) :
    IsR (s.sup f) := by
  obtain ⟨i, hi, e⟩ := Finset.exists_mem_eq_sup s hs f
  rw [e]; exact h i hi

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- With every factor a real number, subtracting a finite sum of products from zero is summing the products with
    their first factors negated. (On the extended reals at large negation does not distribute over a sum: a term
    `+∞` beside a term `-∞` breaks it. Finiteness of every term is what makes the two spellings agree.) -/
theorem zero_sub_sum_mul {ι : Type*} [Fintype ι] (t l : ι → EReal) (ht : ∀ i, IsR (t i)) (hl : ∀ i, IsR (l i)) :
    0 - ∑ i, t i * l i = ∑ i, (-(t i)) * l i := by
  choose a ha using ht
  choose b hb using hl
  have e1 : ∀ i, t i * l i = ((a i * b i : ℝ) : EReal) := fun i => by rw [ha i, hb i, EReal.coe_mul]
  have e2 : ∀ i, (-(t i)) * l i = ((-(a i * b i) : ℝ) : EReal) := fun i => by
    rw [ha i, hb i, ← neg_mul, EReal.coe_mul, EReal.coe_neg]
  simp only [e1, e2]
  rw [← coe_sum, ← coe_sum, Finset.sum_neg_distrib]
  show ((0 : ℝ) : EReal) - _ = _
  rw [← EReal.coe_sub, zero_sub]

end Cert.Law

end
-- ==== Proof.Finite.lean ====
/-
  From the precondition to "every argument entry is a real number".

  The precondition says, of each of the five argument arrays, that every entry x has |x| < +∞, and joins the five
  statements by "and". At the ideal instance an entry is an extended real and |x| is max x (-x); the word 0x7F800000
  is +∞. If |x| < +∞ then x is neither -∞ (whose absolute value is +∞) nor +∞, so x is a real number. A reduction by
  "and" over all axes that comes out true had true at every entry, so the statement holds entry by entry.
-/
import proofs.«115779_j15375982920210_2_alg».proof.Pre_finite_inputs
import proofs.«115779_j15375982920210_2_alg».proof.Proof.Gen.Pre_finite_inputs
import proofs.«115779_j15375982920210_2_alg».proof.Proof.LibFiniteReals
import Idealize.ShloMosaic.Lib.ReduceAll
import Idealize.ShloMosaic.Lib.IdealHost
import Idealize.ShloMosaic.Lib.ValueIdx

noncomputable section

namespace Cert.Finite

open Idealize.ShloMosaic Idealize.ShloMosaic.ValueIdx

/-- The scalar shape has one index. -/
local instance : Subsingleton (⟨0, ![]⟩ : Shape).Idx := ⟨fun a b => funext fun d => d.elim0⟩

/-- The f32 word 0x7F800000 is +∞. -/
theorem inf_f32 : Ideal.ofBits .f32 0x7F800000#32 = ⊤ := by
  simp [Ideal.ofBits, Ideal.ieee]

/-- An extended real whose absolute value is below +∞ is a real number. -/
theorem isR_of_abs_lt_top (x : EReal) (h : max x (-x) < ⊤) : Cert.Law.IsR x := by
  induction x using EReal.rec with
  | bot => exact absurd h (by simp)
  | top => exact absurd h (by simp)
  | coe r => exact ⟨r, rfl⟩

/-- The comparison "|x| < the word 0x7F800000" that came out true says x is a real number. -/
theorem isR_of_cmp (x : EReal) (h : Ideal.cmp .olt (max x (-x)) (Ideal.ofBits .f32 0x7F800000#32) = 1#1) :
    Cert.Law.IsR x := by
  rw [inf_f32] at h
  refine isR_of_abs_lt_top x ?_
  unfold Ideal.cmp at h
  by_contra hn
  simp [hn] at h

/-- One array: if "every |entry| < +∞", reduced by "and" over all axes from true, came out true, every entry is a
    real number. -/
theorem all_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : Cert.Law.IsR (x i) := by
  have hi := Host.reduce_andi_all _ _ hr hu ix0 e i
  refine isR_of_cmp (x i) ?_
  have hc : broadcastInDim s ![] hb (constant (F := Ideal) ⟨0, ![]⟩ .f32 0x7F800000#32) i
      = Ideal.ofBits .f32 0x7F800000#32 := broadcastInDim_scalar_apply hb _ i
  rw [← hc]
  exact hi

open Cert.Pre_finite_inputs in
/-- The precondition on five arrays at the ideal instance: every entry of every array is a real number. -/
theorem args_real [Cert.Pre_finite_inputs.Facts] (x : S64x8192x64.Idx → EReal) (r : S4x8x3.Idx → EReal)
    (e : S4x7.Idx → EReal) (p : S16x8.Idx → EReal) (b : S16.Idx → EReal)
    (h : Cert.Pre_finite_inputs.fn (F := Ideal) x r e p b = fun _ => 1#1) :
    (∀ i, Cert.Law.IsR (x i)) ∧ (∀ i, Cert.Law.IsR (r i)) ∧ (∀ i, Cert.Law.IsR (e i)) ∧ (∀ i, Cert.Law.IsR (p i))
      ∧ (∀ i, Cert.Law.IsR (b i)) := by
  have h0 := congrFun h ix0
  unfold Cert.Pre_finite_inputs.fn Cert.Pre_finite_inputs.fn_part1 at h0
  dsimp only at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_real x _ _ _ h1, all_real r _ _ _ h2, all_real e _ _ _ h3, all_real p _ _ _ h4, all_real b _ _ _ h5⟩

end Cert.Finite

end
-- ==== Proof.Fold.lean ====
/-
  The two spellings of the circuit agree.

  Over a commutative ring write  (A·t)(i) = Σ_k A(i,k) t(k)  for a matrix acting on a vector. Then
    (A B)·t = A·(B·t),    I·t = t,    diag(v)·t = v ⊙ t,
  a layer's entangling matrix acts by  (E·z)(i) = (1 - w(i)) z(i) + w(i) z(i+1)  (i < 7),  (E·z)(7) = z(7),
  so a layer's matrix E·diag(s) acts as "scale by s, then mix", the fold of the four layers acts as the four steps in
  turn, and  Σ_k (Σ_j p(o,j) F(j,k)) t(k) = Σ_j (F·t)(j) p(o,j).  The zero columns of the padded matrix drop the entries
  of a row past the eighth. That is the identity  foldOutG = stepOutG  over a commutative ring.

  On the extended reals the ring laws need every value to be a real number. There the definitions are read at
  coercions of real scales, weights, projection, bias and amplitudes; each definition is a polynomial, so it commutes
  with the coercion, and the identity over ℝ carries over.
-/
import proofs.«115779_j15375982920210_2_alg».proof.Proof.Circuit
import proofs.«115779_j15375982920210_2_alg».proof.Proof.LibFiniteReals
import Mathlib.Algebra.BigOperators.Fin
import Mathlib.Algebra.BigOperators.Ring.Finset
import Mathlib.Tactic.Ring

noncomputable section

namespace Cert.Fold

open Cert.Circuit Cert.Law

/-! ## Over a commutative ring -/

section Ring
variable {K : Type} [CommRing K]

/-- A matrix acting on a vector. -/
def act (A : Fin 8 → Fin 8 → K) (t : Fin 8 → K) (i : Fin 8) : K := ∑ k : Fin 8, A i k * t k

theorem act_mul8 (A B : Fin 8 → Fin 8 → K) (t : Fin 8 → K) : act (mul8 A B) t = act A (act B t) := by
  funext i
  unfold act mul8
  simp only [Finset.sum_mul, Finset.mul_sum]
  rw [Finset.sum_comm]
  exact Finset.sum_congr rfl fun j _ => Finset.sum_congr rfl fun k _ => mul_assoc _ _ _

theorem act_eye (t : Fin 8 → K) : act (eye (K := K)) t = t := by
  funext i
  unfold act eye
  simp only [ite_mul, one_mul, zero_mul, Finset.sum_ite_eq, Finset.mem_univ, if_true]

theorem act_diag (v t : Fin 8 → K) : act (diag v) t = fun i => v i * t i := by
  funext i
  unfold act diag
  simp only [ite_mul, zero_mul, Finset.sum_ite_eq, Finset.mem_univ, if_true]

/-- The weights above the diagonal: row i < 7 has w(i) in column i + 1 and nothing else. -/
theorem ent_eq (w : Fin 7 → K) (i j : Fin 8) :
    ent w i j = diag (dmain w) i j + (if h : i.val < 7 ∧ i.val + 1 = j.val then w (low i h.1) else 0) := by
  unfold ent
  congr 1
  by_cases h : i.val < 7 ∧ i.val + 1 = j.val
  · rw [dif_pos h, Finset.sum_eq_single (low i h.1)]
    · intro b hb hne
      exfalso; apply hne
      have hb' := (Finset.mem_filter.mp hb).2
      exact Fin.ext hb'.1
    · intro hn
      exfalso; apply hn
      exact Finset.mem_filter.mpr ⟨Finset.mem_univ _, rfl, h.2⟩
  · rw [dif_neg h]
    apply Finset.sum_eq_zero
    intro e he
    exfalso; apply h
    have he' := (Finset.mem_filter.mp he).2
    have := e.isLt
    exact ⟨by omega, by omega⟩

theorem act_ent (w : Fin 7 → K) (z : Fin 8 → K) (i : Fin 8) :
    act (ent w) z i = dmain w i * z i + (if h : i.val < 7 then w (low i h) * z (nxt i h) else 0) := by
  unfold act
  simp only [ent_eq, add_mul, Finset.sum_add_distrib]
  congr 1
  · unfold diag
    simp only [ite_mul, zero_mul, Finset.sum_ite_eq, Finset.mem_univ, if_true]
  · by_cases h : i.val < 7
    · rw [dif_pos h, Finset.sum_eq_single (nxt i h)]
      · rw [dif_pos (show i.val < 7 ∧ i.val + 1 = (nxt i h).val from ⟨h, rfl⟩)]
      · intro k _ hk
        rw [dif_neg (fun hh => hk (Fin.ext hh.2.symm)), zero_mul]
      · intro hn; exact absurd (Finset.mem_univ _) hn
    · rw [dif_neg h]
      apply Finset.sum_eq_zero
      intro k _
      rw [dif_neg (fun hh => h hh.1), zero_mul]

/-- A layer's matrix acts as "scale, then mix". -/
theorem act_layer (s : Fin 4 → Fin 8 → K) (w : Fin 4 → Fin 7 → K) (l : Fin 4) (t : Fin 8 → K) :
    act (layer s w l) t = mix (w l) (fun q => t q * s l q) := by
  funext i
  unfold layer
  rw [act_mul8, act_ent, act_diag]
  unfold mix dmain
  by_cases h : i.val < 7
  · simp only [dif_pos h]; ring
  · simp only [dif_neg h]; ring

/-- The folded layers act as the four steps in turn. -/
theorem act_fold (s : Fin 4 → Fin 8 → K) (w : Fin 4 → Fin 7 → K) (t : Fin 8 → K) :
    act (fold s w) t = mix (w 3) (rz3 s w t) := by
  unfold fold
  rw [act_mul8, act_mul8, act_mul8, act_mul8, act_eye, act_layer, act_layer, act_layer, act_layer]
  rfl

end Ring

/-- A sum over 64 entries whose entries past the eighth vanish is the sum of the first eight. -/
theorem sum_pad {M : Type} [AddCommMonoid M] (f : Fin 64 → M) (g : Fin 8 → M)
    (h1 : ∀ q : Fin 8, f ⟨q.val, by omega⟩ = g q) (h2 : ∀ k : Fin 64, ¬ k.val < 8 → f k = 0) :
    ∑ k : Fin 64, f k = ∑ q : Fin 8, g q := by
  have e := Fin.sum_univ_add (a := 8) (b := 56) (f : Fin (8 + 56) → M)
  refine e.trans ?_
  rw [Finset.sum_eq_zero (s := Finset.univ) (f := fun i : Fin 56 => f (Fin.natAdd 8 i)) (fun i _ => h2 _ (by
    show ¬ (8 + i.val) < 8; omega)), add_zero]
  exact Finset.sum_congr rfl fun q _ => h1 q

/-- Over a commutative ring the padded product is the four steps and the projection. -/
theorem foldOutG_eq_stepOutG {K : Type} [CommRing K] (s : Fin 4 → Fin 8 → K) (w : Fin 4 → Fin 7 → K)
    (p : Fin 16 → Fin 8 → K) (β : Fin 16 → K) (T : Fin 64 → K) (o : Fin 16) :
    foldOutG s w p β T o = stepOutG s w p β (fun q => T ⟨q.val, by omega⟩) o := by
  unfold foldOutG stepOutG
  congr 1
  rw [sum_pad (fun k => wpad s w p o k * T k) (fun q => weff s w p o q * T ⟨q.val, by omega⟩)
    (fun q => by
      show wpad s w p o ⟨q.val, _⟩ * _ = _
      unfold wpad
      rw [dif_pos (show (⟨q.val, by omega⟩ : Fin 64).val < 8 from q.isLt)])
    (fun k hk => by
      show wpad s w p o k * _ = 0
      unfold wpad
      rw [dif_neg hk, zero_mul])]
  rw [← act_fold]
  unfold weff act
  simp only [Finset.sum_mul]
  rw [Finset.sum_comm]
  exact Finset.sum_congr rfl fun j _ => Finset.sum_congr rfl fun k _ => by ring

/-! ## The coercion commutes with every definition -/

/-- A real vector, and a real matrix, read on the extended reals. -/
def c1 {n : ℕ} (v : Fin n → ℝ) : Fin n → EReal := fun i => ((v i : ℝ) : EReal)
def c2 {a b : ℕ} (A : Fin a → Fin b → ℝ) : Fin a → Fin b → EReal := fun i j => ((A i j : ℝ) : EReal)

theorem c2_apply {a b : ℕ} (A : Fin a → Fin b → ℝ) (i : Fin a) : c2 A i = c1 (A i) := rfl

theorem mix_coe (w : Fin 7 → ℝ) (z : Fin 8 → ℝ) : mix (c1 w) (c1 z) = c1 (mix w z) := by
  funext q
  unfold mix c1
  by_cases h : q.val < 7
  · simp only [dif_pos h, EReal.coe_mul, EReal.coe_add, EReal.coe_sub, EReal.coe_one]
  · simp only [dif_neg h]

theorem rz0_coe (s : Fin 4 → Fin 8 → ℝ) (t : Fin 8 → ℝ) : rz0 (c2 s) (c1 t) = c1 (rz0 s t) := by
  funext q; unfold rz0 c1 c2; simp only [EReal.coe_mul]

theorem rz1_coe (s : Fin 4 → Fin 8 → ℝ) (w : Fin 4 → Fin 7 → ℝ) (t : Fin 8 → ℝ) :
    rz1 (c2 s) (c2 w) (c1 t) = c1 (rz1 s w t) := by
  funext q; unfold rz1; rw [c2_apply, rz0_coe, mix_coe]; unfold c1 c2; simp only [EReal.coe_mul]

theorem rz2_coe (s : Fin 4 → Fin 8 → ℝ) (w : Fin 4 → Fin 7 → ℝ) (t : Fin 8 → ℝ) :
    rz2 (c2 s) (c2 w) (c1 t) = c1 (rz2 s w t) := by
  funext q; unfold rz2; rw [c2_apply, rz1_coe, mix_coe]; unfold c1 c2; simp only [EReal.coe_mul]

theorem rz3_coe (s : Fin 4 → Fin 8 → ℝ) (w : Fin 4 → Fin 7 → ℝ) (t : Fin 8 → ℝ) :
    rz3 (c2 s) (c2 w) (c1 t) = c1 (rz3 s w t) := by
  funext q; unfold rz3; rw [c2_apply, rz2_coe, mix_coe]; unfold c1 c2; simp only [EReal.coe_mul]

theorem stepOutG_coe (s : Fin 4 → Fin 8 → ℝ) (w : Fin 4 → Fin 7 → ℝ) (p : Fin 16 → Fin 8 → ℝ) (β : Fin 16 → ℝ)
    (t : Fin 8 → ℝ) (o : Fin 16) :
    stepOutG (c2 s) (c2 w) (c2 p) (c1 β) (c1 t) o = ((stepOutG s w p β t o : ℝ) : EReal) := by
  unfold stepOutG
  rw [c2_apply, rz3_coe, mix_coe]
  unfold c1 c2
  simp only [EReal.coe_add, coe_sum, EReal.coe_mul]

theorem eye_coe (i j : Fin 8) : eye (K := EReal) i j = ((eye (K := ℝ) i j : ℝ) : EReal) := by
  unfold eye
  by_cases h : i = j
  · simp only [if_pos h, EReal.coe_one]
  · simp only [if_neg h, EReal.coe_zero]

theorem diag_coe (v : Fin 8 → ℝ) (i j : Fin 8) : diag (c1 v) i j = ((diag v i j : ℝ) : EReal) := by
  unfold diag c1
  by_cases h : i = j
  · simp only [if_pos h]
  · simp only [if_neg h, EReal.coe_zero]

theorem dmain_coe (w : Fin 7 → ℝ) : dmain (c1 w) = c1 (dmain w) := by
  funext i
  unfold dmain c1
  by_cases h : i.val < 7
  · simp only [dif_pos h, EReal.coe_sub, EReal.coe_one]
  · simp only [dif_neg h, EReal.coe_one]

theorem ent_coe (w : Fin 7 → ℝ) (i j : Fin 8) : ent (c1 w) i j = ((ent w i j : ℝ) : EReal) := by
  unfold ent
  rw [dmain_coe, diag_coe, EReal.coe_add, coe_sum]
  rfl

theorem mul8_coe (A B : Fin 8 → Fin 8 → ℝ) : mul8 (c2 A) (c2 B) = c2 (mul8 A B) := by
  funext i k
  unfold mul8 c2
  simp only [coe_sum, EReal.coe_mul]

theorem layer_coe (s : Fin 4 → Fin 8 → ℝ) (w : Fin 4 → Fin 7 → ℝ) (l : Fin 4) :
    layer (c2 s) (c2 w) l = c2 (layer s w l) := by
  unfold layer
  rw [← mul8_coe]
  congr 1
  · funext i j; rw [c2_apply]; exact ent_coe _ i j
  · funext i j; rw [c2_apply]; exact diag_coe _ i j

theorem fold_coe (s : Fin 4 → Fin 8 → ℝ) (w : Fin 4 → Fin 7 → ℝ) : fold (c2 s) (c2 w) = c2 (fold s w) := by
  unfold fold
  rw [layer_coe, layer_coe, layer_coe, layer_coe,
    show (eye (K := EReal)) = c2 (eye (K := ℝ)) from funext fun i => funext fun j => eye_coe i j,
    mul8_coe, mul8_coe, mul8_coe, mul8_coe]

theorem wpad_coe (s : Fin 4 → Fin 8 → ℝ) (w : Fin 4 → Fin 7 → ℝ) (p : Fin 16 → Fin 8 → ℝ) (o : Fin 16) (k : Fin 64) :
    wpad (c2 s) (c2 w) (c2 p) o k = ((wpad s w p o k : ℝ) : EReal) := by
  unfold wpad
  by_cases h : k.val < 8
  · simp only [dif_pos h]
    unfold weff
    rw [fold_coe]
    unfold c2
    simp only [coe_sum, EReal.coe_mul]
  · simp only [dif_neg h, EReal.coe_zero]

theorem foldOutG_coe (s : Fin 4 → Fin 8 → ℝ) (w : Fin 4 → Fin 7 → ℝ) (p : Fin 16 → Fin 8 → ℝ) (β : Fin 16 → ℝ)
    (T : Fin 64 → ℝ) (o : Fin 16) :
    foldOutG (c2 s) (c2 w) (c2 p) (c1 β) (c1 T) o = ((foldOutG s w p β T o : ℝ) : EReal) := by
  unfold foldOutG
  simp only [wpad_coe]
  unfold c1
  simp only [EReal.coe_add, coe_sum, EReal.coe_mul]

/-! ## On the extended reals, every value a real number -/

theorem isR_cos {x : EReal} (h : IsR x) : IsR (Idealize.ShloMosaic.Ideal.cos x) := by
  obtain ⟨a, rfl⟩ := h; exact ⟨Real.cos a, rfl⟩
theorem isR_sin {x : EReal} (h : IsR x) : IsR (Idealize.ShloMosaic.Ideal.sin x) := by
  obtain ⟨a, rfl⟩ := h; exact ⟨Real.sin a, rfl⟩
theorem isR_tanh {x : EReal} (h : IsR x) : IsR (Idealize.ShloMosaic.Ideal.tanh x) := by
  obtain ⟨a, rfl⟩ := h; exact ⟨Real.tanh a, rfl⟩

theorem isR_scale (R : Rot) (hR : ∀ i, IsR (R i)) (l : Fin 4) (q : Fin 8) : IsR (scale R l q) := by
  unfold scale
  exact (((isR_cos (hR _)).add (isR_sin (hR _))).mul ((isR_cos (hR _)).add (isR_sin (hR _)))).mul
    ((isR_cos (hR _)).add (isR_sin (hR _)))

theorem isR_gate (E : Ent) (hE : ∀ i, IsR (E i)) (l : Fin 4) (j : Fin 7) : IsR (gate E l j) := by
  unfold gate
  exact isR_one.div (isNN_one.add_pos ((hE _).neg.exp))

/-- THE TWO SPELLINGS AGREE on the extended reals when the parameters and the row are real numbers. -/
theorem foldOut_eq_stepOut (R : Rot) (E : Ent) (P : Proj) (B : Bias) (T : Fin 64 → EReal)
    (hR : ∀ i, IsR (R i)) (hE : ∀ i, IsR (E i)) (hP : ∀ i, IsR (P i)) (hB : ∀ i, IsR (B i)) (hT : ∀ k, IsR (T k))
    (o : Fin 16) :
    foldOut R E P B T o = stepOut R E P B (fun q => T ⟨q.val, by omega⟩) o := by
  choose s hs using fun l q => isR_scale R hR l q
  choose w hw using fun l j => isR_gate E hE l j
  choose p hp using fun (o : Fin 16) (q : Fin 8) => hP (Idealize.ShloMosaic.ValueIdx.ix2 o q)
  choose β hβ using fun o : Fin 16 => hB (Idealize.ShloMosaic.ValueIdx.ix1 o)
  choose τ hτ using hT
  have es : scale R = c2 s := funext fun l => funext fun q => hs l q
  have ew : gate E = c2 w := funext fun l => funext fun j => hw l j
  have ep : proj P = c2 p := funext fun o => funext fun q => hp o q
  have eb : bias B = c1 β := funext fun o => hβ o
  have et : T = c1 τ := funext fun k => hτ k
  unfold foldOut stepOut
  rw [es, ew, ep, eb, et, foldOutG_coe,
    show (fun q : Fin 8 => c1 τ ⟨q.val, by omega⟩) = c1 (fun q : Fin 8 => τ ⟨q.val, by omega⟩) from rfl,
    stepOutG_coe, foldOutG_eq_stepOutG]

end Cert.Fold

end
-- ==== Proof.Bridge.lean ====
/-
  The two programs' results are one array.

  The kernel's program ends, at (b, s, o), with  Σ_{k<64} W(o,k) · tanh x(b,s,k) + bias(o),  W the padded folded matrix
  of the circuit: the circuit "as one matrix" on the row t(k) = tanh x(b,s,k). The reference ends with the circuit
  "step by step" on the first eight entries of that row. Under the precondition every parameter and every input entry
  is a real number, so every t(k) is one, and the two spellings agree.
-/
import proofs.«115779_j15375982920210_2_alg».proof.Proof.Blocks
import proofs.«115779_j15375982920210_2_alg».proof.Proof.HostRead
import proofs.«115779_j15375982920210_2_alg».proof.Proof.RefRead
import proofs.«115779_j15375982920210_2_alg».proof.Proof.Finite
import proofs.«115779_j15375982920210_2_alg».proof.Proof.Fold

set_option maxRecDepth 16384

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen Cert.HostRead

variable (m : (ℓ : Loc nD τ sig) → Buf (Elt Ideal) ℓ)

/-- The kernel's program's result at (b, s, o): the circuit as one matrix on the row t(k) = tanh x(b, s, k). -/
theorem kernel_out (c : Dev nD) (b : Fin 64) (s : Fin 8192) (o : Fin 16) :
    (Pipeline.afterTail₀ cfgs (dats m) 0 (V0 m) [hostOps1] c main_v0 : Cert.KernelIdeal.S64x8192x16.Idx → EReal) (ix3 b s o)
      = Cert.Circuit.foldOut (argR m c) (argE m c) (argP m c) (argB m c)
          (fun k : Fin 64 => Ideal.tanh (argX m c (ix3 b s k))) o := by
  refine (Cert.KernelRead.out_apply m c b s o).trans ?_
  unfold Cert.Circuit.foldOut Cert.Circuit.foldOutG
  refine congrArg₂ (· + ·) (Finset.sum_congr rfl fun k _ => ?_) (bias_apply m c o)
  exact congrArg₂ (· * ·) (weights_apply m c o k) (congrArg Ideal.tanh (table_apply m c b s k))

set_option maxHeartbeats 4000000 in
/-- THE RESULTS AGREE: from memories agreeing on the five argument arrays, the arguments finite, the reference's
    result array is the kernel's program's. -/
theorem result_eq (m' : (ℓ : Loc Cert.ReferenceIdeal.nD Cert.ReferenceIdeal.τ Cert.ReferenceIdeal.sig) → Buf (Elt Ideal) ℓ)
    (c : Dev nD)
    (hpre : Cert.Pre_finite_inputs.fn (F := Ideal) (argX m c) (argR m c) (argE m c) (argP m c) (argB m c) = fun _ => 1#1)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argR m c)
    (h2 : m' ((c.tc : Thread Cert.ReferenceIdeal.nD Cert.ReferenceIdeal.τ).loc Cert.ReferenceIdeal.main_arg2) = argE m c)
    (h3 : m' ((c.tc : Thread Cert.ReferenceIdeal.nD Cert.ReferenceIdeal.τ).loc Cert.ReferenceIdeal.main_arg3) = argP m c)
    (h4 : m' ((c.tc : Thread Cert.ReferenceIdeal.nD Cert.ReferenceIdeal.τ).loc Cert.ReferenceIdeal.main_arg4) = argB m c) :
    (Cert.ReferenceIdeal.Value.val4 (launchContents m' c) (Proc.devRef .tc Cert.ReferenceIdeal.main_v201)
        : Cert.KernelIdeal.S64x8192x16.Idx → EReal)
      = Pipeline.afterTail₀ cfgs (dats m) 0 (V0 m) [hostOps1] c main_v0 := by
  obtain ⟨hx, hr, he, hp, hb⟩ := Cert.Finite.args_real (argX m c) (argR m c) (argE m c) (argP m c) (argB m c) hpre
  funext i
  obtain ⟨b, s, o, rfl⟩ : ∃ (b : Fin 64) (s : Fin 8192) (o : Fin 16), i = ix3 b s o := ⟨i 0, i 1, i 2, eq_ix3 i⟩
  refine (Cert.RefRead.ref_apply (launchContents m' c) b s o).trans ?_
  refine Eq.trans ?_ (kernel_out m c b s o).symm
  refine Eq.trans ?_ (Cert.Fold.foldOut_eq_stepOut (argR m c) (argE m c) (argP m c) (argB m c)
    (fun k : Fin 64 => Ideal.tanh (argX m c (ix3 b s k))) hr he hp hb (fun k => Cert.Fold.isR_tanh (hx _)) o).symm
  have e0 : launchContents m' c (Proc.devRef .tc Cert.ReferenceIdeal.main_arg0) = argX m c := h0
  have e1 : launchContents m' c (Proc.devRef .tc Cert.ReferenceIdeal.main_arg1) = argR m c := h1
  have e2 : launchContents m' c (Proc.devRef .tc Cert.ReferenceIdeal.main_arg2) = argE m c := h2
  have e3 : launchContents m' c (Proc.devRef .tc Cert.ReferenceIdeal.main_arg3) = argP m c := h3
  have e4 : launchContents m' c (Proc.devRef .tc Cert.ReferenceIdeal.main_arg4) = argB m c := h4
  rw [e0, e1, e2, e3, e4]

end Cert.Bridge

end
-- ==== Proof.lean ====
/-
  The certificate: a tanh-encoded row of 64 features, of which a four-layer linear circuit on the first eight amplitudes
  and a projection to sixteen outputs are computed — by the reference layer after layer, by the kernel as ONE matrix
  product against the whole row.

  The kernel's program folds the four layers and the projection into a [16, 8] matrix on the host (per layer the
  entangling matrix times the diagonal matrix of the rotation scales, the layers multiplied up, the projection in front),
  pads it with zero columns to [16, 64], and the kernel multiplies it against tanh of each block of 8192 rows, adds the
  bias, and writes a column block of a [16, 524288] array, which the host transposes and regroups. The reference scales
  and mixes the eight amplitudes four times and projects. On real numbers a layer's matrix acts as "scale, then mix",
  products of matrices act in turn, and zero columns drop the rest of the row, so both are one function of the
  arguments; on the extended reals that needs every argument finite, which is the precondition.

  Modules: Circuit (the two spellings), Fold (they agree), HostOps and HostRead (the weight, bias and input arrays the
  kernel finds), Payload and Blocks (the kernel's array and the program's result from them), RefLayout and RefRead (the
  reference's result), Finite (the precondition read), Bridge (the two results are one array). The three frames are the
  generated ones; the idealization rewrote nothing, so the preservation conjunct is trivial.
-/
import proofs.«115779_j15375982920210_2_alg».proof.Defs
import proofs.«115779_j15375982920210_2_alg».proof.Proof.Gen.Kernel
import proofs.«115779_j15375982920210_2_alg».proof.Proof.Gen.Kernel.Skeleton
import proofs.«115779_j15375982920210_2_alg».proof.Proof.Gen.Kernel.Launch
import proofs.«115779_j15375982920210_2_alg».proof.Proof.Gen.Kernel.Points
import proofs.«115779_j15375982920210_2_alg».proof.Proof.Gen.Kernel.Frame
import proofs.«115779_j15375982920210_2_alg».proof.Proof.Gen.KernelIdeal
import proofs.«115779_j15375982920210_2_alg».proof.Proof.Gen.KernelIdeal.Skeleton
import proofs.«115779_j15375982920210_2_alg».proof.Proof.Gen.KernelIdeal.Launch
import proofs.«115779_j15375982920210_2_alg».proof.Proof.Gen.KernelIdeal.Points
import proofs.«115779_j15375982920210_2_alg».proof.Proof.Gen.KernelIdeal.Frame
import proofs.«115779_j15375982920210_2_alg».proof.Proof.Gen.ReferenceIdeal
import proofs.«115779_j15375982920210_2_alg».proof.Proof.Gen.ReferenceIdeal.Run
import proofs.«115779_j15375982920210_2_alg».proof.Proof.Gen.Pre_finite_inputs
import proofs.«115779_j15375982920210_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel's program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

section KernelRun
open Cert.KernelIdeal Cert.KernelIdeal.Gen

/-- The idealized kernel's program ends with its result at what the lines after the region leave, its arguments as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v0 (Pipeline.mem_restRefs_of main_v0 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelRun

/-- From memories agreeing on the arguments, the arguments finite, both programs run and end with one result array. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v0, kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v201 (launchContents m' c)).symm.trans ?_
  exact Cert.Bridge.result_eq m m' c (hpre c) (hagree c).1 (hagree c).2.1 (hagree c).2.2.1 (hagree c).2.2.2.1
    (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
